-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x7 : Shape := ⟨2, ![150000, 7]⟩
abbrev S2x300000 : Shape := ⟨2, ![2, 300000]⟩
abbrev S150000 : Shape := ⟨1, ![150000]⟩
abbrev S7x256 : Shape := ⟨2, ![7, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S150000x7 : S_.BroadcastsInDim S150000x7 (![] : Fin 0 → Fin S150000x7.rank)
  reducesTo_S150000x7_S_d0_1 : S150000x7.ReducesTo [0, 1] S_
  h_S_ : 0 < S_.numel
  bcast_S_S7x256 : S_.BroadcastsInDim S7x256 (![] : Fin 0 → Fin S7x256.rank)
  reducesTo_S7x256_S_d0_1 : S7x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_v98 : IVec S_ 1) (main_v101 : IVec S3 1) (main_c_39 : IVec S_ 1) : IVec S_ 1 :=
  let main_v102 : IVec S_ 1 := (fun x v => Host.reduce IntOp.andi x v reducesTo_S3_S_d0 h_S_) main_v101 main_c_39
  let main_v103 : IVec S_ 1 := andi main_v98 main_v102
  main_v103

def fn_part5 {F : FTy → Type} [FloatOps F] (main_arg20 : FVec F S128 .f32) (main_arg21 : FVec F S128x3 .f32) (main_arg22 : FVec F S3 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x3 .f32 := Host.absf main_arg21
  let main_cst_36 : FVec F S_ .f32 := constant S_ .f32 0x7F800000#32
  let main_v95 : FVec F S128x3 .f32 := broadcastInDim S128x3 ![] bcast_S_S128x3 main_cst_36
  let main_v96 : IVec S128x3 1 := cmpf .olt main_v94 main_v95
  let main_c_37 : IVec S_ 1 := constantI S_ 1 1#1
  let main_v97 : IVec S_ 1 := (fun x v => Host.reduce IntOp.andi x v reducesTo_S128x3_S_d0_1 h_S_) main_v96 main_c_37
  let main_v98 : IVec S_ 1 := andi main_v93 main_v97
  let main_v99 : FVec F S3 .f32 := Host.absf main_arg22
  let main_cst_38 : FVec F S_ .f32 := constant S_ .f32 0x7F800000#32
  let main_v100 : FVec F S3 .f32 := broadcastInDim S3 ![] bcast_S_S3 main_cst_38
  let main_v101 : IVec S3 1 := cmpf .olt main_v99 main_v100
  let main_c_39 : IVec S_ 1 := constantI S_ 1 1#1
  fn_part6 (F := F) main_v98 main_v101 main_c_39

def fn_part4 {F : FTy → Type} [FloatOps F] (main_arg16 : FVec F S256 .f32) (main_arg17 : FVec F S256x256 .f32) (main_arg18 : FVec F S256 .f32) (main_arg19 : FVec F S256x128 .f32) (main_arg20 : FVec F S128 .f32) (main_arg21 : FVec F S128x3 .f32) (main_arg22 : FVec F S3 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x128 .f32) (main_arg20 : FVec F S128 .f32) (main_arg21 : FVec F S128x3 .f32) (main_arg22 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x128 .f32) (main_arg20 : FVec F S128 .f32) (main_arg21 : FVec F S128x3 .f32) (main_arg22 : FVec F S3 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x128 .f32) (main_arg20 : FVec F S128 .f32) (main_arg21 : FVec F S128x3 .f32) (main_arg22 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S150000x7 .f32) (main_arg1 : IVec S2x300000 32) (main_arg2 : IVec S150000 32) (main_arg3 : FVec F S7x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x128 .f32) (main_arg20 : FVec F S128 .f32) (main_arg21 : FVec F S128x3 .f32) (main_arg22 : FVec F S3 .f32) : IVec S_ 1 :=
  let main_v0 : FVec F S150000x7 .f32 := Host.absf main_arg0
  let main_cst : FVec F S_ .f32 := constant S_ .f32 0x7F800000#32
  let main_v1 : FVec F S150000x7 .f32 := broadcastInDim S150000x7 ![] bcast_S_S150000x7 main_cst
  let main_v2 : IVec S150000x7 1 := cmpf .olt main_v0 main_v1
  let main_c : IVec S_ 1 := constantI S_ 1 1#1
  let main_v3 : IVec S_ 1 := (fun x v => Host.reduce IntOp.andi x v reducesTo_S150000x7_S_d0_1 h_S_) main_v2 main_c
  let main_v4 : FVec F S7x256 .f32 := Host.absf main_arg3
  let main_cst_0 : FVec F S_ .f32 := constant S_ .f32 0x7F800000#32
  let main_v5 : FVec F S7x256 .f32 := broadcastInDim S7x256 ![] bcast_S_S7x256 main_cst_0
  let main_v6 : IVec S7x256 1 := cmpf .olt main_v4 main_v5
  let main_c_1 : IVec S_ 1 := constantI S_ 1 1#1
  let main_v7 : IVec S_ 1 := (fun x v => Host.reduce IntOp.andi x v reducesTo_S7x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S150000x7 : Shape := ⟨2, ![150000, 7]⟩
abbrev S2x300000 : Shape := ⟨2, ![2, 300000]⟩
abbrev S150000 : Shape := ⟨1, ![150000]⟩
abbrev S7x256 : Shape := ⟨2, ![7, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x7 : Shape := ⟨2, ![300000, 7]⟩
abbrev S1x256 : Shape := ⟨2, ![1, 256]⟩
abbrev S150000x256 : Shape := ⟨2, ![150000, 256]⟩
abbrev S2000x7 : Shape := ⟨2, ![2000, 7]⟩
abbrev S2000x256 : Shape := ⟨2, ![2000, 256]⟩
abbrev S300000x256 : Shape := ⟨2, ![300000, 256]⟩
abbrev S6000x256 : Shape := ⟨2, ![6000, 256]⟩
abbrev S150000x1 : Shape := ⟨2, ![150000, 1]⟩
abbrev S6000 : Shape := ⟨1, ![6000]⟩
abbrev S6000x1 : Shape := ⟨2, ![6000, 1]⟩
abbrev S1x128 : Shape := ⟨2, ![1, 128]⟩
abbrev S1x3 : Shape := ⟨2, ![1, 3]⟩
abbrev S6000x3 : Shape := ⟨2, ![6000, 3]⟩
abbrev S6000x128 : Shape := ⟨2, ![6000, 128]⟩

abbrev nBuf : Space → Nat
  | .hbm => 110
  | .vmem => 46
  | .smem => 0
  | _ => 0

abbrev bufTy : (tb : Table) → Fin (tcTables nBuf tb) → BufTy
  | .hbm, ⟨0, _⟩ => ⟨S150000x7, .f32⟩
  | .hbm, ⟨1, _⟩ => ⟨S2x300000, .i32⟩
  | .hbm, ⟨2, _⟩ => ⟨S150000, .i32⟩
  | .hbm, ⟨3, _⟩ => ⟨S7x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x128, .f32⟩
  | .hbm, ⟨20, _⟩ => ⟨S128, .f32⟩
  | .hbm, ⟨21, _⟩ => ⟨S128x3, .f32⟩
  | .hbm, ⟨22, _⟩ => ⟨S3, .f32⟩
  | .hbm, ⟨23, _⟩ => ⟨S1x300000, .i32⟩
  | .hbm, ⟨24, _⟩ => ⟨S300000, .i32⟩
  | .hbm, ⟨25, _⟩ => ⟨S1x300000, .i32⟩
  | .hbm, ⟨26, _⟩ => ⟨S300000, .i32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x7, .f32⟩
  | .hbm, ⟨36, _⟩ => ⟨S_, .f32⟩
  | .hbm, ⟨37, _⟩ => ⟨S150000x7, .f32⟩
  | .hbm, ⟨38, _⟩ => ⟨S300000x1, .i32⟩
  | .hbm, ⟨39, _⟩ => ⟨S150000x7, .f32⟩
  | .hbm, ⟨40, _⟩ => ⟨S1x256, .f32⟩
  | .hbm, ⟨41, _⟩ => ⟨S1x256, .f32⟩
  | .hbm, ⟨42, _⟩ => ⟨S150000x256, .f32⟩
  | .hbm, ⟨43, _⟩ => ⟨S_, .i32⟩
  | .hbm, ⟨44, _⟩ => ⟨S300000, .i32⟩
  | .hbm, ⟨45, _⟩ => ⟨S300000, .i1⟩
  | .hbm, ⟨46, _⟩ => ⟨S_, .i32⟩
  | .hbm, ⟨47, _⟩ => ⟨S300000, .i32⟩
  | .hbm, ⟨48, _⟩ => ⟨S300000, .i32⟩
  | .hbm, ⟨49, _⟩ => ⟨S300000, .i32⟩
  | .hbm, ⟨50, _⟩ => ⟨S300000x1, .i32⟩
  | .hbm, ⟨51, _⟩ => ⟨S300000x256, .f32⟩
  | .hbm, ⟨52, _⟩ => ⟨S_, .f32⟩
  | .hbm, ⟨53, _⟩ => ⟨S150000x256, .f32⟩
  | .hbm, ⟨54, _⟩ => ⟨S300000x1, .i32⟩
  | .hbm, ⟨55, _⟩ => ⟨S150000x256, .f32⟩
  | .hbm, ⟨56, _⟩ => ⟨S1x256, .f32⟩
  | .hbm, ⟨57, _⟩ => ⟨S1x256, .f32⟩
  | .hbm, ⟨58, _⟩ => ⟨S150000x256, .f32⟩
  | .hbm, ⟨59, _⟩ => ⟨S_, .i32⟩
  | .hbm, ⟨60, _⟩ => ⟨S300000, .i32⟩
  | .hbm, ⟨61, _⟩ => ⟨S300000, .i1⟩
  | .hbm, ⟨62, _⟩ => ⟨S_, .i32⟩
  | .hbm, ⟨63, _⟩ => ⟨S300000, .i32⟩
  | .hbm, ⟨64, _⟩ => ⟨S300000, .i32⟩
  | .hbm, ⟨65, _⟩ => ⟨S300000, .i32⟩
  | .hbm, ⟨66, _⟩ => ⟨S300000x1, .i32⟩
  | .hbm, ⟨67, _⟩ => ⟨S300000x256, .f32⟩
  | .hbm, ⟨68, _⟩ => ⟨S_, .f32⟩
  | .hbm, ⟨69, _⟩ => ⟨S150000x256, .f32⟩
  | .hbm, ⟨70, _⟩ => ⟨S300000x1, .i32⟩
  | .hbm, ⟨71, _⟩ => ⟨S150000x256, .f32⟩
  | .hbm, ⟨72, _⟩ => ⟨S1x256, .f32⟩
  | .hbm, ⟨73, _⟩ => ⟨S1x256, .f32⟩
  | .hbm, ⟨74, _⟩ => ⟨S150000x256, .f32⟩
  | .hbm, ⟨75, _⟩ => ⟨S_, .i32⟩
  | .hbm, ⟨76, _⟩ => ⟨S300000, .i32⟩
  | .hbm, ⟨77, _⟩ => ⟨S300000, .i1⟩
  | .hbm, ⟨78, _⟩ => ⟨S_, .i32⟩
  | .hbm, ⟨79, _⟩ => ⟨S300000, .i32⟩
  | .hbm, ⟨80, _⟩ => ⟨S300000, .i32⟩
  | .hbm, ⟨81, _⟩ => ⟨S300000, .i32⟩
  | .hbm, ⟨82, _⟩ => ⟨S300000x1, .i32⟩
  | .hbm, ⟨83, _⟩ => ⟨S300000x256, .f32⟩
  | .hbm, ⟨84, _⟩ => ⟨S_, .f32⟩
  | .hbm, ⟨85, _⟩ => ⟨S150000x256, .f32⟩
  | .hbm, ⟨86, _⟩ => ⟨S300000x1, .i32⟩
  | .hbm, ⟨87, _⟩ => ⟨S150000x256, .f32⟩
  | .hbm, ⟨88, _⟩ => ⟨S1x256, .f32⟩
  | .hbm, ⟨89, _⟩ => ⟨S1x256, .f32⟩
  | .hbm, ⟨90, _⟩ => ⟨S150000x256, .f32⟩
  | .hbm, ⟨91, _⟩ => ⟨S_, .f32⟩
  | .hbm, ⟨92, _⟩ => ⟨S6000x256, .f32⟩
  | .hbm, ⟨93, _⟩ => ⟨S150000x1, .i32⟩
  | .hbm, ⟨94, _⟩ => ⟨S6000x256, .f32⟩
  | .hbm, ⟨95, _⟩ => ⟨S_, .f32⟩
  | .hbm, ⟨96, _⟩ => ⟨S150000, .f32⟩
  | .hbm, ⟨97, _⟩ => ⟨S_, .f32⟩
  | .hbm, ⟨98, _⟩ => ⟨S6000, .f32⟩
  | .hbm, ⟨99, _⟩ => ⟨S150000x1, .i32⟩
  | .hbm, ⟨100, _⟩ => ⟨S6000, .f32⟩
  | .hbm, ⟨101, _⟩ => ⟨S_, .f32⟩
  | .hbm, ⟨102, _⟩ => ⟨S6000, .f32⟩
  | .hbm, ⟨103, _⟩ => ⟨S6000, .f32⟩
  | .hbm, ⟨104, _⟩ => ⟨S6000x1, .f32⟩
  | .hbm, ⟨105, _⟩ => ⟨S6000x256, .f32⟩
  | .hbm, ⟨106, _⟩ => ⟨S6000x256, .f32⟩
  | .hbm, ⟨107, _⟩ => ⟨S1x128, .f32⟩
  | .hbm, ⟨108, _⟩ => ⟨S1x3, .f32⟩
  | .hbm, ⟨109, _⟩ => ⟨S6000x3, .f32⟩
  | .local _ .vmem, ⟨0, _⟩ => ⟨S2000x7, .f32⟩
  | .local _ .vmem, ⟨1, _⟩ => ⟨S2000x7, .f32⟩
  | .local _ .vmem, ⟨2, _⟩ => ⟨S2000x7, .f32⟩
  | .local _ .vmem, ⟨3, _⟩ => ⟨S2000x7, .f32⟩
  | .local _ .vmem, ⟨4, _⟩ => ⟨S7x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x256, .f32⟩
  | .local _ .vmem, ⟨35, _⟩ => ⟨S1x256, .f32⟩
  | .local _ .vmem, ⟨36, _⟩ => ⟨S256x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S6000x256, .f32⟩
  | .local _ .vmem, ⟨41, _⟩ => ⟨S256x128, .f32⟩
  | .local _ .vmem, ⟨42, _⟩ => ⟨S1x128, .f32⟩
  | .local _ .vmem, ⟨43, _⟩ => ⟨S128x3, .f32⟩
  | .local _ .vmem, ⟨44, _⟩ => ⟨S1x3, .f32⟩
  | .local _ .vmem, ⟨45, _⟩ => ⟨S6000x3, .f32⟩
  | _, _ => ⟨S150000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_4 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_7 : Ref sig .tc := ⟨.hbm, 75, rfl⟩
abbrev main_v43 : Ref sig .tc := ⟨.hbm, 76, rfl⟩
abbrev main_v44 : Ref sig .tc := ⟨.hbm, 77, rfl⟩
abbrev main_c_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_9 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_cst_12 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_13 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S6000x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S6000x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S150000x7 : S_.BroadcastsInDim S150000x7 (![] : Fin 0 → Fin S150000x7.rank)
  shapeCasts_S256_S1x256 : S256.ShapeCasts S1x256
  inb_S2000x7_S2000x7_0_0 : ∀ a, (![0, 0] : Fin 2 → Nat) a + S2000x7.size a ≤ S2000x7.size a
  h_S2000x7 : 0 < S2000x7.numel
  shapeCasts_S2000x7_S2000x7 : S2000x7.ShapeCasts S2000x7
  bitsLt_bf16_f32 : FTy.bits .bf16 < FTy.bits .f32
  inb_S7x256_S7x256_0_0 : ∀ a, (![0, 0] : Fin 2 → Nat) a + S7x256.size a ≤ S7x256.size a
  h_S7x256 : 0 < S7x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S150000x256 : S_.BroadcastsInDim S150000x256 (![] : Fin 0 → Fin S150000x256.rank)
  shapeCasts_S2000x256_S2000x256 : S2000x256.ShapeCasts S2000x256
  bcast_S_S6000x256 : S_.BroadcastsInDim S6000x256 (![] : Fin 0 → Fin S6000x256.rank)
  bcast_S150000_S150000x1_0 : S150000.BroadcastsInDim S150000x1 (![0] : Fin 1 → Fin S150000x1.rank)
  bcast_S_S150000 : S_.BroadcastsInDim S150000 (![] : Fin 0 → Fin S150000.rank)
  bcast_S_S6000 : S_.BroadcastsInDim S6000 (![] : Fin 0 → Fin S6000.rank)
  bcast_S6000_S6000x1_0 : S6000.BroadcastsInDim S6000x1 (![0] : Fin 1 → Fin S6000x1.rank)
  bcast_S6000x1_S6000x256_0_1 : S6000x1.BroadcastsInDim S6000x256 (![0, 1] : Fin 2 → Fin S6000x256.rank)
  shapeCasts_S128_S1x128 : S128.ShapeCasts S1x128
  shapeCasts_S3_S1x3 : S3.ShapeCasts S1x3
  inb_S6000x256_S6000x256_0_0 : ∀ a, (![0, 0] : Fin 2 → Nat) a + S6000x256.size a ≤ S6000x256.size a
  h_S6000x256 : 0 < S6000x256.numel
  shapeCasts_S6000x256_S6000x256 : S6000x256.ShapeCasts S6000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S6000x3 : S1x3.Broadcasts S6000x3
  inb_S6000x3_S6000x3_0_0 : ∀ a, (![0, 0] : Fin 2 → Nat) a + S6000x3.size a ≤ S6000x3.size a
  h_S6000x3 : 0 < S6000x3.numel
  gather_S150000x7_S300000x1_S300000x7_1_0_n_n_0_1_17_wf : GatherDims.WF S150000x7 S300000x1 S300000x7 [1] [0] [] [0] [] 1 ![1, 7]
  scatter_S150000x7_S300000x1_S300000x7_1_0_0_1_wf : ScatterDims.WF S150000x7 S300000x1 S300000x7 [1] [0] [0] 1
  dot_S2000x7_S7x256_S2000x256_1_0_0_1_n_n_wf : DotDims.WF S2000x7 S7x256 S2000x256 [1] [0] [0] [1] [] []
  dot_S2000x256_S256x256_S2000x256_1_0_0_1_n_n_wf : DotDims.WF S2000x256 S256x256 S2000x256 [1] [0] [0] [1] [] []
  gather_S150000x256_S300000x1_S300000x256_1_0_n_n_0_1_1256_wf : GatherDims.WF S150000x256 S300000x1 S300000x256 [1] [0] [] [0] [] 1 ![1, 256]
  scatter_S150000x256_S300000x1_S300000x256_1_0_0_1_wf : ScatterDims.WF S150000x256 S300000x1 S300000x256 [1] [0] [0] 1
  scatter_S6000x256_S150000x1_S150000x256_1_0_0_1_wf : ScatterDims.WF S6000x256 S150000x1 S150000x256 [1] [0] [0] 1
  scatter_S6000_S150000x1_S150000_n_0_0_1_wf : ScatterDims.WF S6000 S150000x1 S150000 [] [0] [0] 1
  dot_S6000x256_S256x128_S6000x128_1_0_0_1_n_n_wf : DotDims.WF S6000x256 S256x128 S6000x128 [1] [0] [0] [1] [] []
  dot_S6000x128_S128x3_S6000x3_1_0_0_1_n_n_wf : DotDims.WF S6000x128 S128x3 S6000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S150000x7.size a
  hwx0_0 : ∀ i : grid0.Coords, EltTy.bits .f32 = 32 ∨ (Rect.block (s := S150000x7) S2000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x7.size a ≤ S150000x7.size a
  hwx0_1 : ∀ i : grid0.Coords, EltTy.bits .f32 = 32 ∨ (Rect.block (s := S150000x7) S2000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x256.size a ≤ S7x256.size a
  hwx0_2 : ∀ i : grid0.Coords, EltTy.bits .f32 = 32 ∨ (Rect.block (s := S7x256) S7x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S150000x256.size a
  hwx0_6 : ∀ i : grid0.Coords, EltTy.bits .f32 = 32 ∨ (Rect.block (s := S150000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S150000x256.size a
  hwx1_0 : ∀ i : grid1.Coords, EltTy.bits .f32 = 32 ∨ (Rect.block (s := S150000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S150000x256.size a
  hwx1_1 : ∀ i : grid1.Coords, EltTy.bits .f32 = 32 ∨ (Rect.block (s := S150000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S150000x256.size a
  hwx1_6 : ∀ i : grid1.Coords, EltTy.bits .f32 = 32 ∨ (Rect.block (s := S150000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S150000x256.size a
  hwx2_0 : ∀ i : grid2.Coords, EltTy.bits .f32 = 32 ∨ (Rect.block (s := S150000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S150000x256.size a
  hwx2_1 : ∀ i : grid2.Coords, EltTy.bits .f32 = 32 ∨ (Rect.block (s := S150000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S150000x256.size a
  hwx2_6 : ∀ i : grid2.Coords, EltTy.bits .f32 = 32 ∨ (Rect.block (s := S150000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S150000x256.size a
  hwx3_0 : ∀ i : grid3.Coords, EltTy.bits .f32 = 32 ∨ (Rect.block (s := S150000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S150000x256.size a
  hwx3_1 : ∀ i : grid3.Coords, EltTy.bits .f32 = 32 ∨ (Rect.block (s := S150000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S150000x256.size a
  hwx3_6 : ∀ i : grid3.Coords, EltTy.bits .f32 = 32 ∨ (Rect.block (s := S150000x256) S2000x256.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S6000x256.size a ≤ S6000x256.size a
  hwx4_0 : ∀ i : grid4.Coords, EltTy.bits .f32 = 32 ∨ (Rect.block (s := S6000x256) S6000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x3.size a ≤ S128x3.size a
  hwx4_3 : ∀ i : grid4.Coords, EltTy.bits .f32 = 32 ∨ (Rect.block (s := S128x3) S128x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x3.size a ≤ S1x3.size a
  hwx4_4 : ∀ i : grid4.Coords, EltTy.bits .f32 = 32 ∨ (Rect.block (s := S1x3) S1x3.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S6000x3.size a ≤ S6000x3.size a
  hwx4_5 : ∀ i : grid4.Coords, EltTy.bits .f32 = 32 ∨ (Rect.block (s := S6000x3) S6000x3.size (cc4_transform_5 i) (hinb4_5 i)).WholeWords (EltTy.packing .f32)

variable [Facts₀]

def gather_S150000x7_S300000x1_S300000x7_1_0_n_n_0_1_17 : GatherDims S150000x7 S300000x1 S300000x7 where
  offsetDims := [1]
  collapsedSliceDims := [0]
  operandBatchingDims := []
  startIndicesBatchingDims := []
  startIndexMap := [0]
  indexVectorDim := 1
  sliceSizes := ![1, 7]
  wf := gather_S150000x7_S300000x1_S300000x7_1_0_n_n_0_1_17_wf
def scatter_S150000x7_S300000x1_S300000x7_1_0_0_1 : ScatterDims S150000x7 S300000x1 S300000x7 where
  updateWindowDims := [1]
  insertedWindowDims := [0]
  scatterDimsToOperandDims := [0]
  indexVectorDim := 1
  wf := scatter_S150000x7_S300000x1_S300000x7_1_0_0_1_wf
def dot_S2000x7_S7x256_S2000x256_1_0_0_1_n_n : DotDims S2000x7 S7x256 S2000x256 where
  lhsContracting := [1]
  rhsContracting := [0]
  lhsNonContracting := [0]
  rhsNonContracting := [1]
  lhsBatch := []
  rhsBatch := []
  wf := dot_S2000x7_S7x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S150000x256_S300000x1_S300000x256_1_0_n_n_0_1_1256 : GatherDims S150000x256 S300000x1 S300000x256 where
  offsetDims := [1]
  collapsedSliceDims := [0]
  operandBatchingDims := []
  startIndicesBatchingDims := []
  startIndexMap := [0]
  indexVectorDim := 1
  sliceSizes := ![1, 256]
  wf := gather_S150000x256_S300000x1_S300000x256_1_0_n_n_0_1_1256_wf
def scatter_S150000x256_S300000x1_S300000x256_1_0_0_1 : ScatterDims S150000x256 S300000x1 S300000x256 where
  updateWindowDims := [1]
  insertedWindowDims := [0]
  scatterDimsToOperandDims := [0]
  indexVectorDim := 1
  wf := scatter_S150000x256_S300000x1_S300000x256_1_0_0_1_wf
def scatter_S6000x256_S150000x1_S150000x256_1_0_0_1 : ScatterDims S6000x256 S150000x1 S150000x256 where
  updateWindowDims := [1]
  insertedWindowDims := [0]
  scatterDimsToOperandDims := [0]
  indexVectorDim := 1
  wf := scatter_S6000x256_S150000x1_S150000x256_1_0_0_1_wf
def scatter_S6000_S150000x1_S150000_n_0_0_1 : ScatterDims S6000 S150000x1 S150000 where
  updateWindowDims := []
  insertedWindowDims := [0]
  scatterDimsToOperandDims := [0]
  indexVectorDim := 1
  wf := scatter_S6000_S150000x1_S150000_n_0_0_1_wf
def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def dot_S6000x128_S128x3_S6000x3_1_0_0_1_n_n : DotDims S6000x128 S128x3 S6000x3 where
  lhsContracting := [1]
  rhsContracting := [0]
  lhsNonContracting := [0]
  rhsNonContracting := [1]
  lhsBatch := []
  rhsBatch := []
  wf := dot_S6000x128_S128x3_S6000x3_1_0_0_1_n_n_wf

abbrev win0_0 : Pipeline.Window sig grid0 :=
  Pipeline.Window.ofSpec (Memref.whole main_v13) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67) S6000x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg19) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S128x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S6000x3.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S150000x7 : Shape := ⟨2, ![150000, 7]⟩
abbrev S2x300000 : Shape := ⟨2, ![2, 300000]⟩
abbrev S150000 : Shape := ⟨1, ![150000]⟩
abbrev S7x256 : Shape := ⟨2, ![7, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x7 : Shape := ⟨2, ![300000, 7]⟩
abbrev S150000x256 : Shape := ⟨2, ![150000, 256]⟩
abbrev S1x256 : Shape := ⟨2, ![1, 256]⟩
abbrev S300000x256 : Shape := ⟨2, ![300000, 256]⟩
abbrev S6000x256 : Shape := ⟨2, ![6000, 256]⟩
abbrev S150000x1 : Shape := ⟨2, ![150000, 1]⟩
abbrev S6000 : Shape := ⟨1, ![6000]⟩
abbrev S6000x1 : Shape := ⟨2, ![6000, 1]⟩
abbrev S6000x128 : Shape := ⟨2, ![6000, 128]⟩
abbrev S1x128 : Shape := ⟨2, ![1, 128]⟩
abbrev S6000x3 : Shape := ⟨2, ![6000, 3]⟩
abbrev S1x3 : Shape := ⟨2, ![1, 3]⟩

abbrev nBuf : Space → Nat
  | .hbm => 166
  | .vmem => 0
  | .smem => 0
  | _ => 0

abbrev hbmTy0_0 (i : Nat) : BufTy := match i % 128 with
  | 0 => ⟨S150000x7, .f32⟩
  | 1 => ⟨S2x300000, .i32⟩
  | 2 => ⟨S150000, .i32⟩
  | 3 => ⟨S7x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x128, .f32⟩
  | 20 => ⟨S128, .f32⟩
  | 21 => ⟨S128x3, .f32⟩
  | 22 => ⟨S3, .f32⟩
  | 23 => ⟨S1x300000, .i32⟩
  | 24 => ⟨S300000, .i32⟩
  | 25 => ⟨S1x300000, .i32⟩
  | 26 => ⟨S300000, .i32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x7, .f32⟩
  | 36 => ⟨S_, .f32⟩
  | 37 => ⟨S150000x7, .f32⟩
  | 38 => ⟨S300000x1, .i32⟩
  | 39 => ⟨S150000x7, .f32⟩
  | 40 => ⟨S150000x7, .f32⟩
  | 41 => ⟨S150000x256, .f32⟩
  | 42 => ⟨S1x256, .f32⟩
  | 43 => ⟨S150000x256, .f32⟩
  | 44 => ⟨S150000x256, .f32⟩
  | 45 => ⟨S_, .f32⟩
  | 46 => ⟨S150000x256, .f32⟩
  | 47 => ⟨S150000x256, .f32⟩
  | 48 => ⟨S150000x256, .f32⟩
  | 49 => ⟨S1x256, .f32⟩
  | 50 => ⟨S150000x256, .f32⟩
  | 51 => ⟨S150000x256, .f32⟩
  | 52 => ⟨S_, .f32⟩
  | 53 => ⟨S150000x256, .f32⟩
  | 54 => ⟨S150000x256, .f32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S300000x256, .f32⟩
  | 64 => ⟨S_, .f32⟩
  | 65 => ⟨S150000x256, .f32⟩
  | 66 => ⟨S300000x1, .i32⟩
  | 67 => ⟨S150000x256, .f32⟩
  | 68 => ⟨S150000x256, .f32⟩
  | 69 => ⟨S150000x256, .f32⟩
  | 70 => ⟨S1x256, .f32⟩
  | 71 => ⟨S150000x256, .f32⟩
  | 72 => ⟨S150000x256, .f32⟩
  | 73 => ⟨S_, .f32⟩
  | 74 => ⟨S150000x256, .f32⟩
  | 75 => ⟨S150000x256, .f32⟩
  | 76 => ⟨S150000x256, .f32⟩
  | 77 => ⟨S1x256, .f32⟩
  | 78 => ⟨S150000x256, .f32⟩
  | 79 => ⟨S150000x256, .f32⟩
  | 80 => ⟨S_, .f32⟩
  | 81 => ⟨S150000x256, .f32⟩
  | 82 => ⟨S150000x256, .f32⟩
  | 83 => ⟨S_, .i32⟩
  | 84 => ⟨S300000, .i32⟩
  | 85 => ⟨S300000, .i1⟩
  | 86 => ⟨S_, .i32⟩
  | 87 => ⟨S300000, .i32⟩
  | 88 => ⟨S300000, .i32⟩
  | 89 => ⟨S300000, .i32⟩
  | 90 => ⟨S300000x1, .i32⟩
  | 91 => ⟨S300000x256, .f32⟩
  | 92 => ⟨S_, .f32⟩
  | 93 => ⟨S150000x256, .f32⟩
  | 94 => ⟨S300000x1, .i32⟩
  | 95 => ⟨S150000x256, .f32⟩
  | 96 => ⟨S150000x256, .f32⟩
  | 97 => ⟨S150000x256, .f32⟩
  | 98 => ⟨S1x256, .f32⟩
  | 99 => ⟨S150000x256, .f32⟩
  | 100 => ⟨S150000x256, .f32⟩
  | 101 => ⟨S_, .f32⟩
  | 102 => ⟨S150000x256, .f32⟩
  | 103 => ⟨S150000x256, .f32⟩
  | 104 => ⟨S150000x256, .f32⟩
  | 105 => ⟨S1x256, .f32⟩
  | 106 => ⟨S150000x256, .f32⟩
  | 107 => ⟨S150000x256, .f32⟩
  | 108 => ⟨S_, .f32⟩
  | 109 => ⟨S150000x256, .f32⟩
  | 110 => ⟨S150000x256, .f32⟩
  | 111 => ⟨S_, .i32⟩
  | 112 => ⟨S300000, .i32⟩
  | 113 => ⟨S300000, .i1⟩
  | 114 => ⟨S_, .i32⟩
  | 115 => ⟨S300000, .i32⟩
  | 116 => ⟨S300000, .i32⟩
  | 117 => ⟨S300000, .i32⟩
  | 118 => ⟨S300000x1, .i32⟩
  | 119 => ⟨S300000x256, .f32⟩
  | 120 => ⟨S_, .f32⟩
  | 121 => ⟨S150000x256, .f32⟩
  | 122 => ⟨S300000x1, .i32⟩
  | 123 => ⟨S150000x256, .f32⟩
  | 124 => ⟨S150000x256, .f32⟩
  | 125 => ⟨S150000x256, .f32⟩
  | 126 => ⟨S1x256, .f32⟩
  | 127 => ⟨S150000x256, .f32⟩
  | _ => ⟨S150000x7, .f32⟩

abbrev hbmTy0_1 (i : Nat) : BufTy := match i % 128 with
  | 0 => ⟨S150000x256, .f32⟩
  | 1 => ⟨S_, .f32⟩
  | 2 => ⟨S150000x256, .f32⟩
  | 3 => ⟨S150000x256, .f32⟩
  | 4 => ⟨S150000x256, .f32⟩
  | 5 => ⟨S1x256, .f32⟩
  | 6 => ⟨S150000x256, .f32⟩
  | 7 => ⟨S150000x256, .f32⟩
  | 8 => ⟨S_, .f32⟩
  | 9 => ⟨S150000x256, .f32⟩
  | 10 => ⟨S150000x256, .f32⟩
  | 11 => ⟨S_, .f32⟩
  | 12 => ⟨S6000x256, .f32⟩
  | 13 => ⟨S150000x1, .i32⟩
  | 14 => ⟨S6000x256, .f32⟩
  | 15 => ⟨S_, .f32⟩
  | 16 => ⟨S150000, .f32⟩
  | 17 => ⟨S_, .f32⟩
  | 18 => ⟨S6000, .f32⟩
  | 19 => ⟨S150000x1, .i32⟩
  | 20 => ⟨S6000, .f32⟩
  | 21 => ⟨S_, .f32⟩
  | 22 => ⟨S6000, .f32⟩
  | 23 => ⟨S6000, .f32⟩
  | 24 => ⟨S6000x1, .f32⟩
  | 25 => ⟨S6000x256, .f32⟩
  | 26 => ⟨S6000x256, .f32⟩
  | 27 => ⟨S6000x128, .f32⟩
  | 28 => ⟨S1x128, .f32⟩
  | 29 => ⟨S6000x128, .f32⟩
  | 30 => ⟨S6000x128, .f32⟩
  | 31 => ⟨S_, .f32⟩
  | 32 => ⟨S6000x128, .f32⟩
  | 33 => ⟨S6000x128, .f32⟩
  | 34 => ⟨S6000x3, .f32⟩
  | 35 => ⟨S1x3, .f32⟩
  | 36 => ⟨S6000x3, .f32⟩
  | 37 => ⟨S6000x3, .f32⟩
  | _ => ⟨S150000x7, .f32⟩

abbrev hbmTy (i : Nat) : BufTy := match i / 128 with
  | 0 => hbmTy0_0 i
  | 1 => hbmTy0_1 i
  | _ => ⟨S150000x7, .f32⟩

abbrev bufTy : (tb : Table) → Fin (tcTables nBuf tb) → BufTy
  | .hbm, ⟨i, _⟩ => hbmTy i
  | _, _ => ⟨S150000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_v24 : Ref sig .tc := ⟨.hbm, 54, rfl⟩
abbrev main_c_1 : Ref sig .tc := ⟨.hbm, 55, rfl⟩
abbrev main_v25 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call2_cst : Ref sig .tc := ⟨.hbm, 73, rfl⟩
abbrev main_call2_v0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call3_cst : Ref sig .tc := ⟨.hbm, 80, rfl⟩
abbrev main_call3_v0 : Ref sig .tc := ⟨.hbm, 81, rfl⟩
abbrev main_v45 : Ref sig .tc := ⟨.hbm, 82, rfl⟩
abbrev main_c_4 : Ref sig .tc := ⟨.hbm, 83, rfl⟩
abbrev main_v46 : Ref sig .tc := ⟨.hbm, 84, rfl⟩
abbrev main_v47 : Ref sig .tc := ⟨.hbm, 85, rfl⟩
abbrev main_c_5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_6 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_call4_cst : Ref sig .tc := ⟨.hbm, 101, rfl⟩
abbrev main_call4_v0 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_call5_cst : Ref sig .tc := ⟨.hbm, 108, rfl⟩
abbrev main_call5_v0 : Ref sig .tc := ⟨.hbm, 109, rfl⟩
abbrev main_v66 : Ref sig .tc := ⟨.hbm, 110, rfl⟩
abbrev main_c_7 : Ref sig .tc := ⟨.hbm, 111, rfl⟩
abbrev main_v67 : Ref sig .tc := ⟨.hbm, 112, rfl⟩
abbrev main_v68 : Ref sig .tc := ⟨.hbm, 113, rfl⟩
abbrev main_c_8 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_9 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call6_cst : Ref sig .tc := ⟨.hbm, 129, rfl⟩
abbrev main_call6_v0 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_call7_cst : Ref sig .tc := ⟨.hbm, 136, rfl⟩
abbrev main_call7_v0 : Ref sig .tc := ⟨.hbm, 137, rfl⟩
abbrev main_v87 : Ref sig .tc := ⟨.hbm, 138, rfl⟩
abbrev main_cst_10 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_11 : Ref sig .tc := ⟨.hbm, 143, rfl⟩
abbrev main_v91 : Ref sig .tc := ⟨.hbm, 144, rfl⟩
abbrev main_cst_12 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_13 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_call8_cst : Ref sig .tc := ⟨.hbm, 159, rfl⟩
abbrev main_call8_v0 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S150000x7 : S_.BroadcastsInDim S150000x7 (![] : Fin 0 → Fin S150000x7.rank)
  bcast_S256_S1x256_1 : S256.BroadcastsInDim S1x256 (![1] : Fin 1 → Fin S1x256.rank)
  bcast_S1x256_S150000x256_0_1 : S1x256.BroadcastsInDim S150000x256 (![0, 1] : Fin 2 → Fin S150000x256.rank)
  bcast_S_S150000x256 : S_.BroadcastsInDim S150000x256 (![] : Fin 0 → Fin S150000x256.rank)
  bcast_S_S6000x256 : S_.BroadcastsInDim S6000x256 (![] : Fin 0 → Fin S6000x256.rank)
  bcast_S150000_S150000x1_0 : S150000.BroadcastsInDim S150000x1 (![0] : Fin 1 → Fin S150000x1.rank)
  bcast_S_S150000 : S_.BroadcastsInDim S150000 (![] : Fin 0 → Fin S150000.rank)
  bcast_S_S6000 : S_.BroadcastsInDim S6000 (![] : Fin 0 → Fin S6000.rank)
  bcast_S6000_S6000x1_0 : S6000.BroadcastsInDim S6000x1 (![0] : Fin 1 → Fin S6000x1.rank)
  bcast_S6000x1_S6000x256_0_1 : S6000x1.BroadcastsInDim S6000x256 (![0, 1] : Fin 2 → Fin S6000x256.rank)
  bcast_S128_S1x128_1 : S128.BroadcastsInDim S1x128 (![1] : Fin 1 → Fin S1x128.rank)
  bcast_S1x128_S6000x128_0_1 : S1x128.BroadcastsInDim S6000x128 (![0, 1] : Fin 2 → Fin S6000x128.rank)
  bcast_S_S6000x128 : S_.BroadcastsInDim S6000x128 (![] : Fin 0 → Fin S6000x128.rank)
  bcast_S3_S1x3_1 : S3.BroadcastsInDim S1x3 (![1] : Fin 1 → Fin S1x3.rank)
  bcast_S1x3_S6000x3_0_1 : S1x3.BroadcastsInDim S6000x3 (![0, 1] : Fin 2 → Fin S6000x3.rank)
  gather_S150000x7_S300000x1_S300000x7_1_0_n_n_0_1_17_wf : GatherDims.WF S150000x7 S300000x1 S300000x7 [1] [0] [] [0] [] 1 ![1, 7]
  scatter_S150000x7_S300000x1_S300000x7_1_0_0_1_wf : ScatterDims.WF S150000x7 S300000x1 S300000x7 [1] [0] [0] 1
  dot_S150000x7_S7x256_S150000x256_1_0_0_1_n_n_wf : DotDims.WF S150000x7 S7x256 S150000x256 [1] [0] [0] [1] [] []
  dot_S150000x256_S256x256_S150000x256_1_0_0_1_n_n_wf : DotDims.WF S150000x256 S256x256 S150000x256 [1] [0] [0] [1] [] []
  gather_S150000x256_S300000x1_S300000x256_1_0_n_n_0_1_1256_wf : GatherDims.WF S150000x256 S300000x1 S300000x256 [1] [0] [] [0] [] 1 ![1, 256]
  scatter_S150000x256_S300000x1_S300000x256_1_0_0_1_wf : ScatterDims.WF S150000x256 S300000x1 S300000x256 [1] [0] [0] 1
  scatter_S6000x256_S150000x1_S150000x256_1_0_0_1_wf : ScatterDims.WF S6000x256 S150000x1 S150000x256 [1] [0] [0] 1
  scatter_S6000_S150000x1_S150000_n_0_0_1_wf : ScatterDims.WF S6000 S150000x1 S150000 [] [0] [0] 1
  dot_S6000x256_S256x128_S6000x128_1_0_0_1_n_n_wf : DotDims.WF S6000x256 S256x128 S6000x128 [1] [0] [0] [1] [] []
  dot_S6000x128_S128x3_S6000x3_1_0_0_1_n_n_wf : DotDims.WF S6000x128 S128x3 S6000x3 [1] [0] [0] [1] [] []

variable [Facts₀]

def gather_S150000x7_S300000x1_S300000x7_1_0_n_n_0_1_17 : GatherDims S150000x7 S300000x1 S300000x7 where
  offsetDims := [1]
  collapsedSliceDims := [0]
  operandBatchingDims := []
  startIndicesBatchingDims := []
  startIndexMap := [0]
  indexVectorDim := 1
  sliceSizes := ![1, 7]
  wf := gather_S150000x7_S300000x1_S300000x7_1_0_n_n_0_1_17_wf
def scatter_S150000x7_S300000x1_S300000x7_1_0_0_1 : ScatterDims S150000x7 S300000x1 S300000x7 where
  updateWindowDims := [1]
  insertedWindowDims := [0]
  scatterDimsToOperandDims := [0]
  indexVectorDim := 1
  wf := scatter_S150000x7_S300000x1_S300000x7_1_0_0_1_wf
def dot_S150000x7_S7x256_S150000x256_1_0_0_1_n_n : DotDims S150000x7 S7x256 S150000x256 where
  lhsContracting := [1]
  rhsContracting := [0]
  lhsNonContracting := [0]
  rhsNonContracting := [1]
  lhsBatch := []
  rhsBatch := []
  wf := dot_S150000x7_S7x256_S150000x256_1_0_0_1_n_n_wf
def dot_S150000x256_S256x256_S150000x256_1_0_0_1_n_n : DotDims S150000x256 S256x256 S150000x256 where
  lhsContracting := [1]
  rhsContracting := [0]
  lhsNonContracting := [0]
  rhsNonContracting := [1]
  lhsBatch := []
  rhsBatch := []
  wf := dot_S150000x256_S256x256_S150000x256_1_0_0_1_n_n_wf
def gather_S150000x256_S300000x1_S300000x256_1_0_n_n_0_1_1256 : GatherDims S150000x256 S300000x1 S300000x256 where
  offsetDims := [1]
  collapsedSliceDims := [0]
  operandBatchingDims := []
  startIndicesBatchingDims := []
  startIndexMap := [0]
  indexVectorDim := 1
  sliceSizes := ![1, 256]
  wf := gather_S150000x256_S300000x1_S300000x256_1_0_n_n_0_1_1256_wf
def scatter_S150000x256_S300000x1_S300000x256_1_0_0_1 : ScatterDims S150000x256 S300000x1 S300000x256 where
  updateWindowDims := [1]
  insertedWindowDims := [0]
  scatterDimsToOperandDims := [0]
  indexVectorDim := 1
  wf := scatter_S150000x256_S300000x1_S300000x256_1_0_0_1_wf
def scatter_S6000x256_S150000x1_S150000x256_1_0_0_1 : ScatterDims S6000x256 S150000x1 S150000x256 where
  updateWindowDims := [1]
  insertedWindowDims := [0]
  scatterDimsToOperandDims := [0]
  indexVectorDim := 1
  wf := scatter_S6000x256_S150000x1_S150000x256_1_0_0_1_wf
def scatter_S6000_S150000x1_S150000_n_0_0_1 : ScatterDims S6000 S150000x1 S150000 where
  updateWindowDims := []
  insertedWindowDims := [0]
  scatterDimsToOperandDims := [0]
  indexVectorDim := 1
  wf := scatter_S6000_S150000x1_S150000_n_0_0_1_wf
def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def dot_S6000x128_S128x3_S6000x3_1_0_0_1_n_n : DotDims S6000x128 S128x3 S6000x3 where
  lhsContracting := [1]
  rhsContracting := [0]
  lhsNonContracting := [0]
  rhsNonContracting := [1]
  lhsBatch := []
  rhsBatch := []
  wf := dot_S6000x128_S128x3_S6000x3_1_0_0_1_n_n_wf

class Facts : Prop extends Facts₀ where

variable [Facts]
-- ==== Proof.Spec.lean ====
/-
  The dense arithmetic of the network, stated once on the extended reals and shared by both programs.

  A layer's multilayer perceptron acts row by row: for node `n` and output channel `h` it forms the row
  `agg n + x n`, multiplies it by the first weight matrix, adds the first bias, rectifies, multiplies by the second
  weight matrix, adds the second bias and rectifies again.  The read-out head does the same with one rectifier and
  no outer one.  Both are written for a table of any number of rows, because a row's result reads only that row:
  the same formula describes one block of 2000 rows and the whole table of 150000 rows.
-/
import Idealize.ShloMosaic.PureOps.Ideal
import Idealize.ShloMosaic.Lib.ValueIdx

noncomputable section

namespace Cert.Spec

open Idealize.ShloMosaic Idealize.ShloMosaic.ValueIdx

/-- The float zero a rectifier compares with, as the extended real the zero pattern denotes. -/
abbrev z : EReal := Ideal.ofBits .f32 0x00000000#32

/-- Row `n`, channel `h` of `relu (relu ((agg + x) · Wa + ba) · Wb + bb)`, the biases given per channel. -/
def mlpAt {N D : Nat} (agg x : (⟨2, ![N, D]⟩ : Shape).Idx → EReal) (Wa : (⟨2, ![D, 256]⟩ : Shape).Idx → EReal)
    (ba bb : Fin 256 → EReal) (Wb : (⟨2, ![256, 256]⟩ : Shape).Idx → EReal) (n : Fin N) (h : Fin 256) : EReal :=
  max ((∑ k : Fin 256, max ((∑ j : Fin D, (agg (ix2 n j) + x (ix2 n j)) * Wa (ix2 j k)) + ba k) z * Wb (ix2 k h)) + bb h) z

/-- The row formula reads only row `n` of the two tables: tables that agree on that row give the same value. -/
theorem mlpAt_congr {N N' D : Nat} (agg x : (⟨2, ![N, D]⟩ : Shape).Idx → EReal) (agg' x' : (⟨2, ![N', D]⟩ : Shape).Idx → EReal)
    (Wa : (⟨2, ![D, 256]⟩ : Shape).Idx → EReal) (ba bb : Fin 256 → EReal) (Wb : (⟨2, ![256, 256]⟩ : Shape).Idx → EReal)
    (n : Fin N) (n' : Fin N') (h : Fin 256)
    (ha : ∀ j : Fin D, agg (ix2 n j) = agg' (ix2 n' j)) (hx : ∀ j : Fin D, x (ix2 n j) = x' (ix2 n' j)) :
    mlpAt agg x Wa ba bb Wb n h = mlpAt agg' x' Wa ba bb Wb n' h := by
  unfold mlpAt
  simp only [ha, hx]

/-- Row `n`, class `h` of `relu (p · W1 + b1) · W2 + b2`, the biases given per channel. -/
def headAt {N : Nat} (p : (⟨2, ![N, 256]⟩ : Shape).Idx → EReal) (W1 : (⟨2, ![256, 128]⟩ : Shape).Idx → EReal)
    (b1 : Fin 128 → EReal) (W2 : (⟨2, ![128, 3]⟩ : Shape).Idx → EReal) (b2 : Fin 3 → EReal) (n : Fin N) (h : Fin 3) : EReal :=
  (∑ k : Fin 128, max ((∑ j : Fin 256, p (ix2 n j) * W1 (ix2 j k)) + b1 k) z * W2 (ix2 k h)) + b2 h

/-- A bias held as a one-row table, read as a plain vector. -/
def row {n : Nat} (b : (⟨2, ![1, n]⟩ : Shape).Idx → EReal) : (⟨1, ![n]⟩ : Shape).Idx → EReal :=
  fun j => b (ix2 (0 : Fin 1) ⟨(j 0).val, (j 0).isLt⟩)

/-- A whole layer: every node's row through the perceptron, the biases plain vectors of 256 channels. -/
def layer {D : Nat} (agg x : (⟨2, ![150000, D]⟩ : Shape).Idx → EReal) (Wa : (⟨2, ![D, 256]⟩ : Shape).Idx → EReal)
    (ba : (⟨1, ![256]⟩ : Shape).Idx → EReal) (Wb : (⟨2, ![256, 256]⟩ : Shape).Idx → EReal) (bb : (⟨1, ![256]⟩ : Shape).Idx → EReal) :
    (⟨2, ![150000, 256]⟩ : Shape).Idx → EReal :=
  fun i => mlpAt agg x Wa (fun k => ba (ix1 k)) (fun k => bb (ix1 k)) Wb ⟨(i 0).val, (i 0).isLt⟩ ⟨(i 1).val, (i 1).isLt⟩

/-- The read-out head on the 6000 pooled rows, the biases plain vectors. -/
def head (p : (⟨2, ![6000, 256]⟩ : Shape).Idx → EReal) (W1 : (⟨2, ![256, 128]⟩ : Shape).Idx → EReal)
    (b1 : (⟨1, ![128]⟩ : Shape).Idx → EReal) (W2 : (⟨2, ![128, 3]⟩ : Shape).Idx → EReal) (b2 : (⟨1, ![3]⟩ : Shape).Idx → EReal) :
    (⟨2, ![6000, 3]⟩ : Shape).Idx → EReal :=
  fun i => headAt p W1 (fun k => b1 (ix1 k)) W2 (fun k => b2 (ix1 k)) ⟨(i 0).val, (i 0).isLt⟩ ⟨(i 1).val, (i 1).isLt⟩

end Cert.Spec

end
-- ==== Proof.Payload.lean ====
/-
  Each block computation, read at one entry, is the row formula of the specification.

  On the extended reals a change of float format is the identity, so a block's body is plain arithmetic:
  a matrix product accumulated into a table of zeros is, at row `p` and column `q`, the sum over the
  contraction positions `k` of `lhs (p, k) * rhs (k, q)`; a one-row bias laid along every row is, at `(p, q)`,
  the bias at `(0, q)`; a rectifier is the maximum with the real the zero pattern denotes; a cast of a table to
  its own shape changes nothing.  Reading the layer body through these gives
  `max ((∑ k, max ((∑ j, (agg (p, j) + x (p, j)) * Wa (j, k)) + ba (0, k)) z * Wb (k, q)) + bb (0, q)) z`,
  and the read-out body gives the same with one rectifier and none outside: the two row formulas.
-/
import proofs.«167325_j82927228551355_1_alg».proof.Proof.Gen.KernelIdeal.Skeleton
import proofs.«167325_j82927228551355_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Payload

open Cert.KernelIdeal Cert.KernelIdeal.Gen Idealize.ShloMosaic Idealize.ShloMosaic.ValueIdx

/-! ## The four matrix products at an entry

  For each product: where the left and right operands are read at output entry `i` and contraction position `c`
  (the left at `(i 0, c)`, the right at `(c, i 1)`), then the sum re-indexed over the plain range of positions. -/

theorem lhsA_0 (i : S2000x256.Idx) (c : dot_S2000x7_S7x256_S2000x256_1_0_0_1_n_n.contr.Idx) :
    (dot_S2000x7_S7x256_S2000x256_1_0_0_1_n_n.lhsIdx i c 0).val = (i 0).val := by
  unfold DotDims.lhsIdx
  rw [dif_neg (show ¬(0 : Fin S2000x7.rank) ∈ dot_S2000x7_S7x256_S2000x256_1_0_0_1_n_n.lhsBatch by decide),
    dif_pos (show (0 : Fin S2000x7.rank) ∈ dot_S2000x7_S7x256_S2000x256_1_0_0_1_n_n.lhsNonContracting by decide)]
  rfl

theorem lhsA_1 (i : S2000x256.Idx) (c : dot_S2000x7_S7x256_S2000x256_1_0_0_1_n_n.contr.Idx) :
    (dot_S2000x7_S7x256_S2000x256_1_0_0_1_n_n.lhsIdx i c 1).val = (c ⟨0, by decide⟩).val :=
  dot_S2000x7_S7x256_S2000x256_1_0_0_1_n_n.lhsIdx_val_of_single rfl i c

theorem rhsA_0 (i : S2000x256.Idx) (c : dot_S2000x7_S7x256_S2000x256_1_0_0_1_n_n.contr.Idx) :
    (dot_S2000x7_S7x256_S2000x256_1_0_0_1_n_n.rhsIdx i c 0).val = (c ⟨0, by decide⟩).val :=
  dot_S2000x7_S7x256_S2000x256_1_0_0_1_n_n.rhsIdx_val_of_single rfl i c

theorem rhsA_1 (i : S2000x256.Idx) (c : dot_S2000x7_S7x256_S2000x256_1_0_0_1_n_n.contr.Idx) :
    (dot_S2000x7_S7x256_S2000x256_1_0_0_1_n_n.rhsIdx i c 1).val = (i 1).val := by
  unfold DotDims.rhsIdx
  rw [dif_neg (show ¬(1 : Fin S7x256.rank) ∈ dot_S2000x7_S7x256_S2000x256_1_0_0_1_n_n.rhsBatch by decide),
    dif_pos (show (1 : Fin S7x256.rank) ∈ dot_S2000x7_S7x256_S2000x256_1_0_0_1_n_n.rhsNonContracting by decide)]
  rfl

/-- The 2000×7 by 7×256 product accumulated into the zero table, at row `p` and column `q`:
    the sum over the 7 contraction positions of the left row's entry times the right column's entry. -/
theorem mmA (lhs : FVec Ideal S2000x7 .bf16) (rhs : FVec Ideal S7x256 .bf16) (p : Fin 2000) (q : Fin 256) :
    @Eq EReal (matmul (F := Ideal) dot_S2000x7_S7x256_S2000x256_1_0_0_1_n_n none lhs rhs (constant (F := Ideal) S2000x256 .f32 0x00000000#32) (ix2 p q))
      (∑ k : Fin 7, lhs (ix2 p k) * rhs (ix2 k q)) := by
  show FloatOps.matmul dot_S2000x7_S7x256_S2000x256_1_0_0_1_n_n none lhs rhs (constant (F := Ideal) S2000x256 .f32 0x00000000#32) (ix2 p q) = _
  rw [Ideal.matmul_constant_zero_apply,
    ← Equiv.sum_comp (ValueIdx.contrEquiv1 dot_S2000x7_S7x256_S2000x256_1_0_0_1_n_n 7 rfl rfl).symm]
  refine Finset.sum_congr rfl fun k _ => ?_
  have hk := ValueIdx.contrEquiv1_symm_val dot_S2000x7_S7x256_S2000x256_1_0_0_1_n_n 7 rfl rfl k
  have el : dot_S2000x7_S7x256_S2000x256_1_0_0_1_n_n.lhsIdx (ix2 p q) ((ValueIdx.contrEquiv1 dot_S2000x7_S7x256_S2000x256_1_0_0_1_n_n 7 rfl rfl).symm k) = ix2 p k :=
    funext fun a => Fin.ext (by
      match a with
      | ⟨0, _⟩ => exact lhsA_0 _ _
      | ⟨1, _⟩ => exact (lhsA_1 _ _).trans hk)
  have er : dot_S2000x7_S7x256_S2000x256_1_0_0_1_n_n.rhsIdx (ix2 p q) ((ValueIdx.contrEquiv1 dot_S2000x7_S7x256_S2000x256_1_0_0_1_n_n 7 rfl rfl).symm k) = ix2 k q :=
    funext fun a => Fin.ext (by
      match a with
      | ⟨0, _⟩ => exact (rhsA_0 _ _).trans hk
      | ⟨1, _⟩ => exact rhsA_1 _ _)
  rw [el, er]

theorem lhsB_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhsB_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c

theorem rhsB_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c

theorem rhsB_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The 2000×256 by 256×256 product accumulated into the zero table, at row `p` and column `q`:
    the sum over the 256 contraction positions of the left row's entry times the right column's entry. -/
theorem mmB (lhs : FVec Ideal S2000x256 .bf16) (rhs : FVec Ideal S256x256 .bf16) (p : Fin 2000) (q : Fin 256) :
    @Eq EReal (matmul (F := Ideal) dot_S2000x256_S256x256_S2000x256_1_0_0_1_n_n none lhs rhs (constant (F := Ideal) S2000x256 .f32 0x00000000#32) (ix2 p q))
      (∑ k : Fin 256, lhs (ix2 p k) * rhs (ix2 k q)) := by
  show FloatOps.matmul dot_S2000x256_S256x256_S2000x256_1_0_0_1_n_n none lhs rhs (constant (F := Ideal) S2000x256 .f32 0x00000000#32) (ix2 p q) = _
  rw [Ideal.matmul_constant_zero_apply,
    ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q :=
    funext fun a => Fin.ext (by
      match a with
      | ⟨0, _⟩ => exact (rhsB_0 _ _).trans hk
      | ⟨1, _⟩ => exact rhsB_1 _ _)
  rw [el, er]

theorem lhsC_0 (i : S6000x128.Idx) (c : dot_S6000x256_S256x128_S6000x128_1_0_0_1_n_n.contr.Idx) :
    (dot_S6000x256_S256x128_S6000x128_1_0_0_1_n_n.lhsIdx i c 0).val = (i 0).val := by
  unfold DotDims.lhsIdx
  rw [dif_neg (show ¬(0 : Fin S6000x256.rank) ∈ dot_S6000x256_S256x128_S6000x128_1_0_0_1_n_n.lhsBatch by decide),
    dif_pos (show (0 : Fin S6000x256.rank) ∈ dot_S6000x256_S256x128_S6000x128_1_0_0_1_n_n.lhsNonContracting by decide)]
  rfl

theorem lhsC_1 (i : S6000x128.Idx) (c : dot_S6000x256_S256x128_S6000x128_1_0_0_1_n_n.contr.Idx) :
    (dot_S6000x256_S256x128_S6000x128_1_0_0_1_n_n.lhsIdx i c 1).val = (c ⟨0, by decide⟩).val :=
  dot_S6000x256_S256x128_S6000x128_1_0_0_1_n_n.lhsIdx_val_of_single rfl i c

theorem rhsC_0 (i : S6000x128.Idx) (c : dot_S6000x256_S256x128_S6000x128_1_0_0_1_n_n.contr.Idx) :
    (dot_S6000x256_S256x128_S6000x128_1_0_0_1_n_n.rhsIdx i c 0).val = (c ⟨0, by decide⟩).val :=
  dot_S6000x256_S256x128_S6000x128_1_0_0_1_n_n.rhsIdx_val_of_single rfl i c

theorem rhsC_1 (i : S6000x128.Idx) (c : dot_S6000x256_S256x128_S6000x128_1_0_0_1_n_n.contr.Idx) :
    (dot_S6000x256_S256x128_S6000x128_1_0_0_1_n_n.rhsIdx i c 1).val = (i 1).val := by
  unfold DotDims.rhsIdx
  rw [dif_neg (show ¬(1 : Fin S256x128.rank) ∈ dot_S6000x256_S256x128_S6000x128_1_0_0_1_n_n.rhsBatch by decide),
    dif_pos (show (1 : Fin S256x128.rank) ∈ dot_S6000x256_S256x128_S6000x128_1_0_0_1_n_n.rhsNonContracting by decide)]
  rfl

/-- The 6000×256 by 256×128 product accumulated into the zero table, at row `p` and column `q`:
    the sum over the 256 contraction positions of the left row's entry times the right column's entry. -/
theorem mmC (lhs : FVec Ideal S6000x256 .bf16) (rhs : FVec Ideal S256x128 .bf16) (p : Fin 6000) (q : Fin 128) :
    @Eq EReal (matmul (F := Ideal) dot_S6000x256_S256x128_S6000x128_1_0_0_1_n_n none lhs rhs (constant (F := Ideal) S6000x128 .f32 0x00000000#32) (ix2 p q))
      (∑ k : Fin 256, lhs (ix2 p k) * rhs (ix2 k q)) := by
  show FloatOps.matmul dot_S6000x256_S256x128_S6000x128_1_0_0_1_n_n none lhs rhs (constant (F := Ideal) S6000x128 .f32 0x00000000#32) (ix2 p q) = _
  rw [Ideal.matmul_constant_zero_apply,
    ← Equiv.sum_comp (ValueIdx.contrEquiv1 dot_S6000x256_S256x128_S6000x128_1_0_0_1_n_n 256 rfl rfl).symm]
  refine Finset.sum_congr rfl fun k _ => ?_
  have hk := ValueIdx.contrEquiv1_symm_val dot_S6000x256_S256x128_S6000x128_1_0_0_1_n_n 256 rfl rfl k
  have el : dot_S6000x256_S256x128_S6000x128_1_0_0_1_n_n.lhsIdx (ix2 p q) ((ValueIdx.contrEquiv1 dot_S6000x256_S256x128_S6000x128_1_0_0_1_n_n 256 rfl rfl).symm k) = ix2 p k :=
    funext fun a => Fin.ext (by
      match a with
      | ⟨0, _⟩ => exact lhsC_0 _ _
      | ⟨1, _⟩ => exact (lhsC_1 _ _).trans hk)
  have er : dot_S6000x256_S256x128_S6000x128_1_0_0_1_n_n.rhsIdx (ix2 p q) ((ValueIdx.contrEquiv1 dot_S6000x256_S256x128_S6000x128_1_0_0_1_n_n 256 rfl rfl).symm k) = ix2 k q :=
    funext fun a => Fin.ext (by
      match a with
      | ⟨0, _⟩ => exact (rhsC_0 _ _).trans hk
      | ⟨1, _⟩ => exact rhsC_1 _ _)
  rw [el, er]

theorem lhsD_0 (i : S6000x3.Idx) (c : dot_S6000x128_S128x3_S6000x3_1_0_0_1_n_n.contr.Idx) :
    (dot_S6000x128_S128x3_S6000x3_1_0_0_1_n_n.lhsIdx i c 0).val = (i 0).val := by
  unfold DotDims.lhsIdx
  rw [dif_neg (show ¬(0 : Fin S6000x128.rank) ∈ dot_S6000x128_S128x3_S6000x3_1_0_0_1_n_n.lhsBatch by decide),
    dif_pos (show (0 : Fin S6000x128.rank) ∈ dot_S6000x128_S128x3_S6000x3_1_0_0_1_n_n.lhsNonContracting by decide)]
  rfl

theorem lhsD_1 (i : S6000x3.Idx) (c : dot_S6000x128_S128x3_S6000x3_1_0_0_1_n_n.contr.Idx) :
    (dot_S6000x128_S128x3_S6000x3_1_0_0_1_n_n.lhsIdx i c 1).val = (c ⟨0, by decide⟩).val :=
  dot_S6000x128_S128x3_S6000x3_1_0_0_1_n_n.lhsIdx_val_of_single rfl i c

theorem rhsD_0 (i : S6000x3.Idx) (c : dot_S6000x128_S128x3_S6000x3_1_0_0_1_n_n.contr.Idx) :
    (dot_S6000x128_S128x3_S6000x3_1_0_0_1_n_n.rhsIdx i c 0).val = (c ⟨0, by decide⟩).val :=
  dot_S6000x128_S128x3_S6000x3_1_0_0_1_n_n.rhsIdx_val_of_single rfl i c

theorem rhsD_1 (i : S6000x3.Idx) (c : dot_S6000x128_S128x3_S6000x3_1_0_0_1_n_n.contr.Idx) :
    (dot_S6000x128_S128x3_S6000x3_1_0_0_1_n_n.rhsIdx i c 1).val = (i 1).val := by
  unfold DotDims.rhsIdx
  rw [dif_neg (show ¬(1 : Fin S128x3.rank) ∈ dot_S6000x128_S128x3_S6000x3_1_0_0_1_n_n.rhsBatch by decide),
    dif_pos (show (1 : Fin S128x3.rank) ∈ dot_S6000x128_S128x3_S6000x3_1_0_0_1_n_n.rhsNonContracting by decide)]
  rfl

/-- The 6000×128 by 128×3 product accumulated into the zero table, at row `p` and column `q`:
    the sum over the 128 contraction positions of the left row's entry times the right column's entry. -/
theorem mmD (lhs : FVec Ideal S6000x128 .bf16) (rhs : FVec Ideal S128x3 .bf16) (p : Fin 6000) (q : Fin 3) :
    @Eq EReal (matmul (F := Ideal) dot_S6000x128_S128x3_S6000x3_1_0_0_1_n_n none lhs rhs (constant (F := Ideal) S6000x3 .f32 0x00000000#32) (ix2 p q))
      (∑ k : Fin 128, lhs (ix2 p k) * rhs (ix2 k q)) := by
  show FloatOps.matmul dot_S6000x128_S128x3_S6000x3_1_0_0_1_n_n none lhs rhs (constant (F := Ideal) S6000x3 .f32 0x00000000#32) (ix2 p q) = _
  rw [Ideal.matmul_constant_zero_apply,
    ← Equiv.sum_comp (ValueIdx.contrEquiv1 dot_S6000x128_S128x3_S6000x3_1_0_0_1_n_n 128 rfl rfl).symm]
  refine Finset.sum_congr rfl fun k _ => ?_
  have hk := ValueIdx.contrEquiv1_symm_val dot_S6000x128_S128x3_S6000x3_1_0_0_1_n_n 128 rfl rfl k
  have el : dot_S6000x128_S128x3_S6000x3_1_0_0_1_n_n.lhsIdx (ix2 p q) ((ValueIdx.contrEquiv1 dot_S6000x128_S128x3_S6000x3_1_0_0_1_n_n 128 rfl rfl).symm k) = ix2 p k :=
    funext fun a => Fin.ext (by
      match a with
      | ⟨0, _⟩ => exact lhsD_0 _ _
      | ⟨1, _⟩ => exact (lhsD_1 _ _).trans hk)
  have er : dot_S6000x128_S128x3_S6000x3_1_0_0_1_n_n.rhsIdx (ix2 p q) ((ValueIdx.contrEquiv1 dot_S6000x128_S128x3_S6000x3_1_0_0_1_n_n 128 rfl rfl).symm k) = ix2 k q :=
    funext fun a => Fin.ext (by
      match a with
      | ⟨0, _⟩ => exact (rhsD_0 _ _).trans hk
      | ⟨1, _⟩ => exact rhsD_1 _ _)
  rw [el, er]

/-! ## The block bodies at an entry -/

/-- The first layer's block (7 input channels) at entry `(p, q)` is the layer's row formula on the block's rows. -/
theorem pay0 (a x : Vec Ideal S2000x7 .f32) (Wa : Vec Ideal S7x256 .f32) (ba : Vec Ideal S1x256 .f32)
    (Wb : Vec Ideal S256x256 .f32) (bb : Vec Ideal S1x256 .f32) (p : Fin 2000) (q : Fin 256) :
    @Eq EReal (k0_pay1 (F := Ideal) a x Wa ba Wb bb (ix2 p q))
      (Cert.Spec.mlpAt a x Wa (fun k => ba (ix2 (0 : Fin 1) k)) (fun k => bb (ix2 (0 : Fin 1) k)) Wb p q) := by
  unfold k0_pay1 Cert.Spec.mlpAt
  simp only [mmA, mmB, truncf_apply, maximumf_apply, addf_apply, broadcast_apply, shapeCast_self,
    broadcastTo_1b_ab_apply]
  rfl

/-- The second layer's block (256 input channels) at entry `(p, q)` is the layer's row formula on the block's rows. -/
theorem pay1 (a x : Vec Ideal S2000x256 .f32) (Wa : Vec Ideal S256x256 .f32) (ba : Vec Ideal S1x256 .f32)
    (Wb : Vec Ideal S256x256 .f32) (bb : Vec Ideal S1x256 .f32) (p : Fin 2000) (q : Fin 256) :
    @Eq EReal (k1_pay1 (F := Ideal) a x Wa ba Wb bb (ix2 p q))
      (Cert.Spec.mlpAt a x Wa (fun k => ba (ix2 (0 : Fin 1) k)) (fun k => bb (ix2 (0 : Fin 1) k)) Wb p q) := by
  unfold k1_pay1 Cert.Spec.mlpAt
  simp only [mmB, mmB, truncf_apply, maximumf_apply, addf_apply, broadcast_apply, shapeCast_self,
    broadcastTo_1b_ab_apply]
  rfl

/-- The third layer's block at entry `(p, q)`: the same body as the second layer's. -/
theorem pay2 (a x : Vec Ideal S2000x256 .f32) (Wa : Vec Ideal S256x256 .f32) (ba : Vec Ideal S1x256 .f32)
    (Wb : Vec Ideal S256x256 .f32) (bb : Vec Ideal S1x256 .f32) (p : Fin 2000) (q : Fin 256) :
    @Eq EReal (k2_pay1 (F := Ideal) a x Wa ba Wb bb (ix2 p q))
      (Cert.Spec.mlpAt a x Wa (fun k => ba (ix2 (0 : Fin 1) k)) (fun k => bb (ix2 (0 : Fin 1) k)) Wb p q) := by
  unfold k2_pay1 Cert.Spec.mlpAt
  simp only [mmB, mmB, truncf_apply, maximumf_apply, addf_apply, broadcast_apply, shapeCast_self,
    broadcastTo_1b_ab_apply]
  rfl

/-- The fourth layer's block at entry `(p, q)`: the same body as the second layer's. -/
theorem pay3 (a x : Vec Ideal S2000x256 .f32) (Wa : Vec Ideal S256x256 .f32) (ba : Vec Ideal S1x256 .f32)
    (Wb : Vec Ideal S256x256 .f32) (bb : Vec Ideal S1x256 .f32) (p : Fin 2000) (q : Fin 256) :
    @Eq EReal (k3_pay1 (F := Ideal) a x Wa ba Wb bb (ix2 p q))
      (Cert.Spec.mlpAt a x Wa (fun k => ba (ix2 (0 : Fin 1) k)) (fun k => bb (ix2 (0 : Fin 1) k)) Wb p q) := by
  unfold k3_pay1 Cert.Spec.mlpAt
  simp only [mmB, mmB, truncf_apply, maximumf_apply, addf_apply, broadcast_apply, shapeCast_self,
    broadcastTo_1b_ab_apply]
  rfl

/-- The read-out block at entry `(p, q)`: one rectified product with bias, then a second product with bias and
    no rectifier. -/
theorem pay4 (x : Vec Ideal S6000x256 .f32) (W1 : Vec Ideal S256x128 .f32) (b1 : Vec Ideal S1x128 .f32)
    (W2 : Vec Ideal S128x3 .f32) (b2 : Vec Ideal S1x3 .f32) (p : Fin 6000) (q : Fin 3) :
    @Eq EReal (k4_pay1 (F := Ideal) x W1 b1 W2 b2 (ix2 p q))
      (Cert.Spec.headAt x W1 (fun k => b1 (ix2 (0 : Fin 1) k)) W2 (fun k => b2 (ix2 (0 : Fin 1) k)) p q) := by
  unfold k4_pay1 Cert.Spec.headAt
  simp only [mmC, mmD, truncf_apply, maximumf_apply, addf_apply, broadcast_apply, shapeCast_self,
    broadcastTo_1b_ab_apply]
  rfl

end Cert.Payload

end
-- ==== Proof.Regions.lean ====
/-
  From blocks to the whole table, for the four layers of the network.

  Each layer's kernel runs over 75 grid points.  Point `t` stages rows `2000·t … 2000·t + 1999` of the aggregated
  table and of the feature table, together with the whole of the two weight matrices and of the two bias rows, and
  writes back rows `2000·t … 2000·t + 1999` of the output table.  Taking as a hypothesis that the body's arithmetic at
  row `p`, channel `q` of a block is the specification's row formula of the staged blocks, this module shows that the
  output table after the region is the specification's `layer` of the six input arrays as the region finds them.

  The argument, layer by layer.  The block index of every window is decided once over the grid: `(t, 0)` for the three
  row-blocked windows, `(0, 0)` for the four whole-array ones.  An element of a block sits in its array, on each axis,
  at block index × block size + its coordinate inside the block; so row `p` of a staged row block is row `2000·t + p`
  of its table, and a staged weight or bias block is the whole array.  The row formula reads only one row of the two
  tables, so row `p` of the block's result is row `2000·t + p` of the layer: what point `t` writes back is block `t`
  of the layer.  Every row `r` lies in the block of point `r / 2000`, so the 75 blocks cover the table, and the table
  ends holding the layer.
-/
import proofs.«167325_j82927228551355_1_alg».proof.Proof.Gen.KernelIdeal.Frame
import proofs.«167325_j82927228551355_1_alg».proof.Proof.Spec
import Idealize.ShloMosaic.Lib.Pipeline.Value
import Idealize.ShloMosaic.Lib.ValueIdx

set_option maxRecDepth 16384

noncomputable section

namespace Cert.Regions

open Cert.KernelIdeal Cert.KernelIdeal.Gen
open Idealize.ShloMosaic Idealize.ShloMosaic.TcCoe Idealize.ShloMosaic.ValueIdx
open Idealize.ShloMosaic.Pipeline (Dat)

/-- The zero offsets of a whole-block access, however they are spelt. -/
theorem zeroOffsets : (![0, 0] : Fin 2 → Nat) = fun _ => 0 := funext fun a => by fin_cases a <;> rfl

/-! ## Layer 0 -/

/-- What the body's arithmetic is assumed to be at an index of a block: row `p`, channel `q` of the block's result is the
    specification's row formula of the loaded blocks, the two bias rows read as vectors. -/
def PayOk0 : Prop := ∀ (a x : Vec Ideal S2000x7 .f32) (Wa : Vec Ideal S7x256 .f32) (ba : Vec Ideal S1x256 .f32) (Wb : Vec Ideal S256x256 .f32) (bb : Vec Ideal S1x256 .f32) (p : Fin 2000) (q : Fin 256),
    @Eq EReal (k0_pay1 (F := Ideal) a x Wa ba Wb bb (ix2 p q)) (Cert.Spec.mlpAt a x Wa (fun k => ba (ix2 (0 : Fin 1) k)) (fun k => bb (ix2 (0 : Fin 1) k)) Wb p q)

/-- The block indices over the grid: the three row-blocked windows (the two inputs and the output) are at block
    `(t, 0)` at point `t`; the four whole-array windows stay at block `(0, 0)`. -/
theorem blockIndex0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row `p` of a block's result is the layer's row `2000·t + p`: the row formula reads only that row of the two
    tables, the block's rows are the tables' rows `2000·t …`, and the weights and biases are the whole arrays. -/
theorem blockRow0 (hp : PayOk0) (A X : S150000x7.Idx → EReal) (Wa : S7x256.Idx → EReal) (Ba : S1x256.Idx → EReal)
    (Wb : S256x256.Idx → EReal) (Bb : S1x256.Idx → EReal)
    (a x : Vec Ideal S2000x7 .f32) (wa : Vec Ideal S7x256 .f32) (ba : Vec Ideal S1x256 .f32) (wb : Vec Ideal S256x256 .f32) (bb : Vec Ideal S1x256 .f32)
    (tt : Nat) (y : S2000x256.Idx) (i : S150000x256.Idx)
    (hi0 : (i 0).val = tt * 2000 + (y 0).val) (hi1 : (i 1).val = (y 1).val)
    (ha : ∀ (p : Fin 2000) (j : Fin 7) (n : Fin 150000), n.val = tt * 2000 + p.val → a (ix2 p j) = A (ix2 n j))
    (hx : ∀ (p : Fin 2000) (j : Fin 7) (n : Fin 150000), n.val = tt * 2000 + p.val → x (ix2 p j) = X (ix2 n j))
    (hwa : wa = Wa) (hba : ba = Ba) (hwb : wb = Wb) (hbb : bb = Bb) :
    @Eq EReal (k0_pay1 (F := Ideal) a x wa ba wb bb y) (Cert.Spec.layer A X Wa (Cert.Spec.row Ba) Wb (Cert.Spec.row Bb) i) := by
  subst hwa hba hwb hbb
  obtain ⟨p, q, rfl⟩ : ∃ (p : Fin 2000) (q : Fin 256), y = ix2 p q := ⟨y 0, y 1, eq_ix2 y⟩
  rw [hp a x wa ba wb bb p q]
  have hq : (⟨(i 1).val, (i 1).isLt⟩ : Fin 256) = q := Fin.ext hi1
  show _ = Cert.Spec.mlpAt A X wa (fun k => ba (ix2 (0 : Fin 1) k)) (fun k => bb (ix2 (0 : Fin 1) k)) wb ⟨(i 0).val, (i 0).isLt⟩ ⟨(i 1).val, (i 1).isLt⟩
  rw [hq]
  exact Cert.Spec.mlpAt_congr a x A X wa _ _ wb p ⟨(i 0).val, (i 0).isLt⟩ q
    (fun j => ha p j ⟨(i 0).val, (i 0).isLt⟩ hi0) (fun j => hx p j ⟨(i 0).val, (i 0).isLt⟩ hi0)

/-- A row block of the aggregated table: its row `p` at point `t` is the array's row `2000·t + p`. -/
theorem rowBlock0_0 (V : (c : Dev nD) → (b : Ref sig .tc) → Buf (Elt Ideal) ((c : Thread nD τ).loc b)) (c : Dev nD) (t : Fin cfg0.N)
    (p : Fin 2000) (j : Fin 7) (n : Fin 150000) (hn : n.val = t.val * 2000 + p.val) :
    @Eq EReal ((iblk0 (F := Ideal) V c 0 t : Vec Ideal S2000x7 .f32) (ix2 p j)) ((V c (Pipeline.arrRef spec0 0) : S150000x7.Idx → EReal) (ix2 n j)) := by
  obtain ⟨e0, e1⟩ := (blockIndex0 t).1
  show (V c (Pipeline.arrRef spec0 0) : S150000x7.Idx → EReal) (((cfg0.win 0).blk t).view.emb (ix2 p j)) = _
  refine congrArg _ ?_
  funext a; apply Fin.ext
  match a with
  | ⟨0, _⟩ => show win0_0.index t (0 : Fin 2) * 2000 + 1 * p.val = n.val; rw [e0, hn]; omega
  | ⟨1, _⟩ => show win0_0.index t (1 : Fin 2) * 7 + 1 * j.val = j.val; rw [e1]; omega

/-- A row block of the feature table: its row `p` at point `t` is the array's row `2000·t + p`. -/
theorem rowBlock0_1 (V : (c : Dev nD) → (b : Ref sig .tc) → Buf (Elt Ideal) ((c : Thread nD τ).loc b)) (c : Dev nD) (t : Fin cfg0.N)
    (p : Fin 2000) (j : Fin 7) (n : Fin 150000) (hn : n.val = t.val * 2000 + p.val) :
    @Eq EReal ((iblk0 (F := Ideal) V c 1 t : Vec Ideal S2000x7 .f32) (ix2 p j)) ((V c (Pipeline.arrRef spec0 1) : S150000x7.Idx → EReal) (ix2 n j)) := by
  obtain ⟨e0, e1⟩ := (blockIndex0 t).2.1
  show (V c (Pipeline.arrRef spec0 1) : S150000x7.Idx → EReal) (((cfg0.win 1).blk t).view.emb (ix2 p j)) = _
  refine congrArg _ ?_
  funext a; apply Fin.ext
  match a with
  | ⟨0, _⟩ => show win0_1.index t (0 : Fin 2) * 2000 + 1 * p.val = n.val; rw [e0, hn]; omega
  | ⟨1, _⟩ => show win0_1.index t (1 : Fin 2) * 7 + 1 * j.val = j.val; rw [e1]; omega

/-- The one block of the first weight matrix is the whole array. -/
theorem wholeBlock0_2 (V : (c : Dev nD) → (b : Ref sig .tc) → Buf (Elt Ideal) ((c : Thread nD τ).loc b)) (c : Dev nD) (t : Fin cfg0.N) :
    (iblk0 (F := Ideal) V c 2 t : Vec Ideal S7x256 .f32) = (V c (Pipeline.arrRef spec0 2) : S7x256.Idx → EReal) := by
  obtain ⟨e0, e1⟩ := (blockIndex0 t).2.2.1
  funext y
  show (V c (Pipeline.arrRef spec0 2) : S7x256.Idx → EReal) (((cfg0.win 2).blk t).view.emb y) = _
  refine congrArg _ ?_
  funext a; apply Fin.ext
  match a with
  | ⟨0, _⟩ => show win0_2.index t (0 : Fin 2) * 7 + 1 * (y 0).val = (y 0).val; rw [e0]; omega
  | ⟨1, _⟩ => show win0_2.index t (1 : Fin 2) * 256 + 1 * (y 1).val = (y 1).val; rw [e1]; omega

/-- The one block of the first bias row is the whole array. -/
theorem wholeBlock0_3 (V : (c : Dev nD) → (b : Ref sig .tc) → Buf (Elt Ideal) ((c : Thread nD τ).loc b)) (c : Dev nD) (t : Fin cfg0.N) :
    (iblk0 (F := Ideal) V c 3 t : Vec Ideal S1x256 .f32) = (V c (Pipeline.arrRef spec0 3) : S1x256.Idx → EReal) := by
  obtain ⟨e0, e1⟩ := (blockIndex0 t).2.2.2.1
  funext y
  show (V c (Pipeline.arrRef spec0 3) : S1x256.Idx → EReal) (((cfg0.win 3).blk t).view.emb y) = _
  refine congrArg _ ?_
  funext a; apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The one block of the second weight matrix is the whole array. -/
theorem wholeBlock0_4 (V : (c : Dev nD) → (b : Ref sig .tc) → Buf (Elt Ideal) ((c : Thread nD τ).loc b)) (c : Dev nD) (t : Fin cfg0.N) :
    (iblk0 (F := Ideal) V c 4 t : Vec Ideal S256x256 .f32) = (V c (Pipeline.arrRef spec0 4) : S256x256.Idx → EReal) := by
  obtain ⟨e0, e1⟩ := (blockIndex0 t).2.2.2.2.1
  funext y
  show (V c (Pipeline.arrRef spec0 4) : S256x256.Idx → EReal) (((cfg0.win 4).blk t).view.emb y) = _
  refine congrArg _ ?_
  funext a; apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The one block of the second bias row is the whole array. -/
theorem wholeBlock0_5 (V : (c : Dev nD) → (b : Ref sig .tc) → Buf (Elt Ideal) ((c : Thread nD τ).loc b)) (c : Dev nD) (t : Fin cfg0.N) :
    (iblk0 (F := Ideal) V c 5 t : Vec Ideal S1x256 .f32) = (V c (Pipeline.arrRef spec0 5) : S1x256.Idx → EReal) := by
  obtain ⟨e0, e1⟩ := (blockIndex0 t).2.2.2.2.2.1
  funext y
  show (V c (Pipeline.arrRef spec0 5) : S1x256.Idx → EReal) (((cfg0.win 5).blk t).view.emb y) = _
  refine congrArg _ ?_
  funext a; apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-- The layer of the six arrays as the region finds them. -/
abbrev layer0 (V : (c : Dev nD) → (b : Ref sig .tc) → Buf (Elt Ideal) ((c : Thread nD τ).loc b)) (c : Dev nD) : S150000x256.Idx → EReal :=
  Cert.Spec.layer (V c (Pipeline.arrRef spec0 0)) (V c (Pipeline.arrRef spec0 1)) (V c (Pipeline.arrRef spec0 2)) (Cert.Spec.row (V c (Pipeline.arrRef spec0 3))) (V c (Pipeline.arrRef spec0 4)) (Cert.Spec.row (V c (Pipeline.arrRef spec0 5)))

/-- What point `t` writes back is block `t` of the layer: rows `2000·t … 2000·t + 1999`. -/
theorem writtenBack0 (hp : PayOk0) (V : (c : Dev nD) → (b : Ref sig .tc) → Buf (Elt Ideal) ((c : Thread nD τ).loc b)) (c : Dev nD) (t : Fin cfg0.N) :
    (dat0 (F := Ideal) V c).flushed 6 t = ((cfg0.win 6).blk t).view.read (Elt Ideal) (layer0 V c) := by
  show (cfg0.win 6).cut (grid0.coords t) ((dat0 (F := Ideal) V c).after 6 t) = _
  rw [after0_6]
  unfold out0_6
  rw [View.canon_unit_zero zeroOffsets]
  simp only [View.ld_unit_zero (S := S2000x7) zeroOffsets, View.ld_unit_zero (S := S7x256) zeroOffsets, View.ld_unit_zero (S := S1x256) zeroOffsets, View.ld_unit_zero (S := S256x256) zeroOffsets]
  obtain ⟨e0, e1⟩ := (blockIndex0 t).2.2.2.2.2.2
  funext y
  refine blockRow0 hp (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t)
    t.val ((cfg0.win 6).xinj (grid0.coords t) y) (((cfg0.win 6).blk t).view.emb y) ?_ ?_
    (rowBlock0_0 V c t) (rowBlock0_1 V c t) (wholeBlock0_2 V c t) (wholeBlock0_3 V c t) (wholeBlock0_4 V c t) (wholeBlock0_5 V c t)
  · show win0_6.index t (0 : Fin 2) * 2000 + 1 * (y 0).val = t.val * 2000 + (y 0).val; rw [e0]; omega
  · show win0_6.index t (1 : Fin 2) * 256 + 1 * (y 1).val = (y 1).val; rw [e1]; omega

/-- An index of the output array is in point `t`'s block iff each coordinate is in the block's range on its axis. -/
theorem inBlock0 (t : Fin cfg0.N) (i : S150000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v16).slice (win0_6.rect t)).set ↔ _
  rw [View.set_slice_whole, Rect.mem_set_unit]
  exact Iff.rfl

/-- Every row is in some point's block: row `r` in that of point `r / 2000`. -/
theorem covered0 (i : S150000x256.Idx) : ∃ t : Fin cfg0.N, (cfg0.win 6).flush t = true ∧ i ∈ ((cfg0.win 6).blk t).view.set := by
  have h0 : (i 0).val < 150000 := (i 0).isLt
  have h1 : (i 1).val < 256 := (i 1).isLt
  have hN : cfg0.N = 75 := N_0
  obtain ⟨t, ht⟩ : ∃ t : Fin cfg0.N, t.val = (i 0).val / 2000 := ⟨⟨(i 0).val / 2000, by rw [hN]; omega⟩, rfl⟩
  obtain ⟨e0, e1⟩ := (blockIndex0 t).2.2.2.2.2.2
  refine ⟨t, flush0_6 t, ?_⟩
  rw [inBlock0]
  intro a
  match a with
  | ⟨0, _⟩ => show win0_6.index t (0 : Fin 2) * 2000 ≤ (i 0).val ∧ (i 0).val < win0_6.index t (0 : Fin 2) * 2000 + 2000; rw [e0]; omega
  | ⟨1, _⟩ => show win0_6.index t (1 : Fin 2) * 256 ≤ (i 1).val ∧ (i 1).val < win0_6.index t (1 : Fin 2) * 256 + 256; rw [e1]; omega

/-- The output array after the region is the layer of the six input arrays as the region finds them. -/
theorem region0 (hp : PayOk0) (V : (c : Dev nD) → (b : Ref sig .tc) → Buf (Elt Ideal) ((c : Thread nD τ).loc b)) (c : Dev nD) :
    (dat0 (F := Ideal) V c).arrAt 6 cfg0.N = Cert.Spec.layer (V c (Pipeline.arrRef spec0 0)) (V c (Pipeline.arrRef spec0 1)) (V c (Pipeline.arrRef spec0 2)) (Cert.Spec.row (V c (Pipeline.arrRef spec0 3))) (V c (Pipeline.arrRef spec0 4)) (Cert.Spec.row (V c (Pipeline.arrRef spec0 5))) :=
  (dat0 (F := Ideal) V c).arrAt_eq_of_cover 6 (layer0 V c) (fun t _ => writtenBack0 hp V c t) covered0

/-! ## Layer 1 -/

/-- What the body's arithmetic is assumed to be at an index of a block: row `p`, channel `q` of the block's result is the
    specification's row formula of the loaded blocks, the two bias rows read as vectors. -/
def PayOk1 : Prop := ∀ (a x : Vec Ideal S2000x256 .f32) (Wa : Vec Ideal S256x256 .f32) (ba : Vec Ideal S1x256 .f32) (Wb : Vec Ideal S256x256 .f32) (bb : Vec Ideal S1x256 .f32) (p : Fin 2000) (q : Fin 256),
    @Eq EReal (k1_pay1 (F := Ideal) a x Wa ba Wb bb (ix2 p q)) (Cert.Spec.mlpAt a x Wa (fun k => ba (ix2 (0 : Fin 1) k)) (fun k => bb (ix2 (0 : Fin 1) k)) Wb p q)

/-- The block indices over the grid: the three row-blocked windows (the two inputs and the output) are at block
    `(t, 0)` at point `t`; the four whole-array windows stay at block `(0, 0)`. -/
theorem blockIndex1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row `p` of a block's result is the layer's row `2000·t + p`: the row formula reads only that row of the two
    tables, the block's rows are the tables' rows `2000·t …`, and the weights and biases are the whole arrays. -/
theorem blockRow1 (hp : PayOk1) (A X : S150000x256.Idx → EReal) (Wa : S256x256.Idx → EReal) (Ba : S1x256.Idx → EReal)
    (Wb : S256x256.Idx → EReal) (Bb : S1x256.Idx → EReal)
    (a x : Vec Ideal S2000x256 .f32) (wa : Vec Ideal S256x256 .f32) (ba : Vec Ideal S1x256 .f32) (wb : Vec Ideal S256x256 .f32) (bb : Vec Ideal S1x256 .f32)
    (tt : Nat) (y : S2000x256.Idx) (i : S150000x256.Idx)
    (hi0 : (i 0).val = tt * 2000 + (y 0).val) (hi1 : (i 1).val = (y 1).val)
    (ha : ∀ (p : Fin 2000) (j : Fin 256) (n : Fin 150000), n.val = tt * 2000 + p.val → a (ix2 p j) = A (ix2 n j))
    (hx : ∀ (p : Fin 2000) (j : Fin 256) (n : Fin 150000), n.val = tt * 2000 + p.val → x (ix2 p j) = X (ix2 n j))
    (hwa : wa = Wa) (hba : ba = Ba) (hwb : wb = Wb) (hbb : bb = Bb) :
    @Eq EReal (k1_pay1 (F := Ideal) a x wa ba wb bb y) (Cert.Spec.layer A X Wa (Cert.Spec.row Ba) Wb (Cert.Spec.row Bb) i) := by
  subst hwa hba hwb hbb
  obtain ⟨p, q, rfl⟩ : ∃ (p : Fin 2000) (q : Fin 256), y = ix2 p q := ⟨y 0, y 1, eq_ix2 y⟩
  rw [hp a x wa ba wb bb p q]
  have hq : (⟨(i 1).val, (i 1).isLt⟩ : Fin 256) = q := Fin.ext hi1
  show _ = Cert.Spec.mlpAt A X wa (fun k => ba (ix2 (0 : Fin 1) k)) (fun k => bb (ix2 (0 : Fin 1) k)) wb ⟨(i 0).val, (i 0).isLt⟩ ⟨(i 1).val, (i 1).isLt⟩
  rw [hq]
  exact Cert.Spec.mlpAt_congr a x A X wa _ _ wb p ⟨(i 0).val, (i 0).isLt⟩ q
    (fun j => ha p j ⟨(i 0).val, (i 0).isLt⟩ hi0) (fun j => hx p j ⟨(i 0).val, (i 0).isLt⟩ hi0)

/-- A row block of the aggregated table: its row `p` at point `t` is the array's row `2000·t + p`. -/
theorem rowBlock1_0 (V : (c : Dev nD) → (b : Ref sig .tc) → Buf (Elt Ideal) ((c : Thread nD τ).loc b)) (c : Dev nD) (t : Fin cfg1.N)
    (p : Fin 2000) (j : Fin 256) (n : Fin 150000) (hn : n.val = t.val * 2000 + p.val) :
    @Eq EReal ((iblk1 (F := Ideal) V c 0 t : Vec Ideal S2000x256 .f32) (ix2 p j)) ((V c (Pipeline.arrRef spec1 0) : S150000x256.Idx → EReal) (ix2 n j)) := by
  obtain ⟨e0, e1⟩ := (blockIndex1 t).1
  show (V c (Pipeline.arrRef spec1 0) : S150000x256.Idx → EReal) (((cfg1.win 0).blk t).view.emb (ix2 p j)) = _
  refine congrArg _ ?_
  funext a; apply Fin.ext
  match a with
  | ⟨0, _⟩ => show win1_0.index t (0 : Fin 2) * 2000 + 1 * p.val = n.val; rw [e0, hn]; omega
  | ⟨1, _⟩ => show win1_0.index t (1 : Fin 2) * 256 + 1 * j.val = j.val; rw [e1]; omega

/-- A row block of the feature table: its row `p` at point `t` is the array's row `2000·t + p`. -/
theorem rowBlock1_1 (V : (c : Dev nD) → (b : Ref sig .tc) → Buf (Elt Ideal) ((c : Thread nD τ).loc b)) (c : Dev nD) (t : Fin cfg1.N)
    (p : Fin 2000) (j : Fin 256) (n : Fin 150000) (hn : n.val = t.val * 2000 + p.val) :
    @Eq EReal ((iblk1 (F := Ideal) V c 1 t : Vec Ideal S2000x256 .f32) (ix2 p j)) ((V c (Pipeline.arrRef spec1 1) : S150000x256.Idx → EReal) (ix2 n j)) := by
  obtain ⟨e0, e1⟩ := (blockIndex1 t).2.1
  show (V c (Pipeline.arrRef spec1 1) : S150000x256.Idx → EReal) (((cfg1.win 1).blk t).view.emb (ix2 p j)) = _
  refine congrArg _ ?_
  funext a; apply Fin.ext
  match a with
  | ⟨0, _⟩ => show win1_1.index t (0 : Fin 2) * 2000 + 1 * p.val = n.val; rw [e0, hn]; omega
  | ⟨1, _⟩ => show win1_1.index t (1 : Fin 2) * 256 + 1 * j.val = j.val; rw [e1]; omega

/-- The one block of the first weight matrix is the whole array. -/
theorem wholeBlock1_2 (V : (c : Dev nD) → (b : Ref sig .tc) → Buf (Elt Ideal) ((c : Thread nD τ).loc b)) (c : Dev nD) (t : Fin cfg1.N) :
    (iblk1 (F := Ideal) V c 2 t : Vec Ideal S256x256 .f32) = (V c (Pipeline.arrRef spec1 2) : S256x256.Idx → EReal) := by
  obtain ⟨e0, e1⟩ := (blockIndex1 t).2.2.1
  funext y
  show (V c (Pipeline.arrRef spec1 2) : S256x256.Idx → EReal) (((cfg1.win 2).blk t).view.emb y) = _
  refine congrArg _ ?_
  funext a; apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The one block of the first bias row is the whole array. -/
theorem wholeBlock1_3 (V : (c : Dev nD) → (b : Ref sig .tc) → Buf (Elt Ideal) ((c : Thread nD τ).loc b)) (c : Dev nD) (t : Fin cfg1.N) :
    (iblk1 (F := Ideal) V c 3 t : Vec Ideal S1x256 .f32) = (V c (Pipeline.arrRef spec1 3) : S1x256.Idx → EReal) := by
  obtain ⟨e0, e1⟩ := (blockIndex1 t).2.2.2.1
  funext y
  show (V c (Pipeline.arrRef spec1 3) : S1x256.Idx → EReal) (((cfg1.win 3).blk t).view.emb y) = _
  refine congrArg _ ?_
  funext a; apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The one block of the second weight matrix is the whole array. -/
theorem wholeBlock1_4 (V : (c : Dev nD) → (b : Ref sig .tc) → Buf (Elt Ideal) ((c : Thread nD τ).loc b)) (c : Dev nD) (t : Fin cfg1.N) :
    (iblk1 (F := Ideal) V c 4 t : Vec Ideal S256x256 .f32) = (V c (Pipeline.arrRef spec1 4) : S256x256.Idx → EReal) := by
  obtain ⟨e0, e1⟩ := (blockIndex1 t).2.2.2.2.1
  funext y
  show (V c (Pipeline.arrRef spec1 4) : S256x256.Idx → EReal) (((cfg1.win 4).blk t).view.emb y) = _
  refine congrArg _ ?_
  funext a; apply Fin.ext
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- The one block of the second bias row is the whole array. -/
theorem wholeBlock1_5 (V : (c : Dev nD) → (b : Ref sig .tc) → Buf (Elt Ideal) ((c : Thread nD τ).loc b)) (c : Dev nD) (t : Fin cfg1.N) :
    (iblk1 (F := Ideal) V c 5 t : Vec Ideal S1x256 .f32) = (V c (Pipeline.arrRef spec1 5) : S1x256.Idx → EReal) := by
  obtain ⟨e0, e1⟩ := (blockIndex1 t).2.2.2.2.2.1
  funext y
  show (V c (Pipeline.arrRef spec1 5) : S1x256.Idx → EReal) (((cfg1.win 5).blk t).view.emb y) = _
  refine congrArg _ ?_
  funext a; apply Fin.ext
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

/-- The layer of the six arrays as the region finds them. -/
abbrev layer1 (V : (c : Dev nD) → (b : Ref sig .tc) → Buf (Elt Ideal) ((c : Thread nD τ).loc b)) (c : Dev nD) : S150000x256.Idx → EReal :=
  Cert.Spec.layer (V c (Pipeline.arrRef spec1 0)) (V c (Pipeline.arrRef spec1 1)) (V c (Pipeline.arrRef spec1 2)) (Cert.Spec.row (V c (Pipeline.arrRef spec1 3))) (V c (Pipeline.arrRef spec1 4)) (Cert.Spec.row (V c (Pipeline.arrRef spec1 5)))

/-- What point `t` writes back is block `t` of the layer: rows `2000·t … 2000·t + 1999`. -/
theorem writtenBack1 (hp : PayOk1) (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal) (layer1 V c) := by
  show (cfg1.win 6).cut (grid1.coords t) ((dat1 (F := Ideal) V c).after 6 t) = _
  rw [after1_6]
  unfold out1_6
  rw [View.canon_unit_zero zeroOffsets]
  simp only [View.ld_unit_zero (S := S2000x256) zeroOffsets, View.ld_unit_zero (S := S256x256) zeroOffsets, View.ld_unit_zero (S := S1x256) zeroOffsets, View.ld_unit_zero (S := S256x256) zeroOffsets]
  obtain ⟨e0, e1⟩ := (blockIndex1 t).2.2.2.2.2.2
  funext y
  refine blockRow1 hp (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t)
    t.val ((cfg1.win 6).xinj (grid1.coords t) y) (((cfg1.win 6).blk t).view.emb y) ?_ ?_
    (rowBlock1_0 V c t) (rowBlock1_1 V c t) (wholeBlock1_2 V c t) (wholeBlock1_3 V c t) (wholeBlock1_4 V c t) (wholeBlock1_5 V c t)
  · show win1_6.index t (0 : Fin 2) * 2000 + 1 * (y 0).val = t.val * 2000 + (y 0).val; rw [e0]; omega
  · show win1_6.index t (1 : Fin 2) * 256 + 1 * (y 1).val = (y 1).val; rw [e1]; omega

/-- An index of the output array is in point `t`'s block iff each coordinate is in the block's range on its axis. -/
theorem inBlock1 (t : Fin cfg1.N) (i : S150000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v29).slice (win1_6.rect t)).set ↔ _
  rw [View.set_slice_whole, Rect.mem_set_unit]
  exact Iff.rfl

/-- Every row is in some point's block: row `r` in that of point `r / 2000`. -/
theorem covered1 (i : S150000x256.Idx) : ∃ t : Fin cfg1.N, (cfg1.win 6).flush t = true ∧ i ∈ ((cfg1.win 6).blk t).view.set := by
  have h0 : (i 0).val < 150000 := (i 0).isLt
  have h1 : (i 1).val < 256 := (i 1).isLt
  have hN : cfg1.N = 75 := N_1
  obtain ⟨t, ht⟩ : ∃ t : Fin cfg1.N, t.val = (i 0).val / 2000 := ⟨⟨(i 0).val / 2000, by rw [hN]; omega⟩, rfl⟩
  obtain ⟨e0, e1⟩ := (blockIndex1 t).2.2.2.2.2.2
  refine ⟨t, flush1_6 t, ?_⟩
  rw [inBlock1]
  intro a
  match a with
  | ⟨0, _⟩ => show win1_6.index t (0 : Fin 2) * 2000 ≤ (i 0).val ∧ (i 0).val < win1_6.index t (0 : Fin 2) * 2000 + 2000; rw [e0]; omega
  | ⟨1, _⟩ => show win1_6.index t (1 : Fin 2) * 256 ≤ (i 1).val ∧ (i 1).val < win1_6.index t (1 : Fin 2) * 256 + 256; rw [e1]; omega

/-- The output array after the region is the layer of the six input arrays as the region finds them. -/
theorem region1 (hp : PayOk1) (V : (c : Dev nD) → (b : Ref sig .tc) → Buf (Elt Ideal) ((c : Thread nD τ).loc b)) (c : Dev nD) :
    (dat1 (F := Ideal) V c).arrAt 6 cfg1.N = Cert.Spec.layer (V c (Pipeline.arrRef spec1 0)) (V c (Pipeline.arrRef spec1 1)) (V c (Pipeline.arrRef spec1 2)) (Cert.Spec.row (V c (Pipeline.arrRef spec1 3))) (V c (Pipeline.arrRef spec1 4)) (Cert.Spec.row (V c (Pipeline.arrRef spec1 5))) :=
  (dat1 (F := Ideal) V c).arrAt_eq_of_cover 6 (layer1 V c) (fun t _ => writtenBack1 hp V c t) covered1

/-! ## Layer 2 -/

/-- What the body's arithmetic is assumed to be at an index of a block: row `p`, channel `q` of the block's result is the
    specification's row formula of the loaded blocks, the two bias rows read as vectors. -/
def PayOk2 : Prop := ∀ (a x : Vec Ideal S2000x256 .f32) (Wa : Vec Ideal S256x256 .f32) (ba : Vec Ideal S1x256 .f32) (Wb : Vec Ideal S256x256 .f32) (bb : Vec Ideal S1x256 .f32) (p : Fin 2000) (q : Fin 256),
    @Eq EReal (k2_pay1 (F := Ideal) a x Wa ba Wb bb (ix2 p q)) (Cert.Spec.mlpAt a x Wa (fun k => ba (ix2 (0 : Fin 1) k)) (fun k => bb (ix2 (0 : Fin 1) k)) Wb p q)

/-- The block indices over the grid: the three row-blocked windows (the two inputs and the output) are at block
    `(t, 0)` at point `t`; the four whole-array windows stay at block `(0, 0)`. -/
theorem blockIndex2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row `p` of a block's result is the layer's row `2000·t + p`: the row formula reads only that row of the two
    tables, the block's rows are the tables' rows `2000·t …`, and the weights and biases are the whole arrays. -/
theorem blockRow2 (hp : PayOk2) (A X : S150000x256.Idx → EReal) (Wa : S256x256.Idx → EReal) (Ba : S1x256.Idx → EReal)
    (Wb : S256x256.Idx → EReal) (Bb : S1x256.Idx → EReal)
    (a x : Vec Ideal S2000x256 .f32) (wa : Vec Ideal S256x256 .f32) (ba : Vec Ideal S1x256 .f32) (wb : Vec Ideal S256x256 .f32) (bb : Vec Ideal S1x256 .f32)
    (tt : Nat) (y : S2000x256.Idx) (i : S150000x256.Idx)
    (hi0 : (i 0).val = tt * 2000 + (y 0).val) (hi1 : (i 1).val = (y 1).val)
    (ha : ∀ (p : Fin 2000) (j : Fin 256) (n : Fin 150000), n.val = tt * 2000 + p.val → a (ix2 p j) = A (ix2 n j))
    (hx : ∀ (p : Fin 2000) (j : Fin 256) (n : Fin 150000), n.val = tt * 2000 + p.val → x (ix2 p j) = X (ix2 n j))
    (hwa : wa = Wa) (hba : ba = Ba) (hwb : wb = Wb) (hbb : bb = Bb) :
    @Eq EReal (k2_pay1 (F := Ideal) a x wa ba wb bb y) (Cert.Spec.layer A X Wa (Cert.Spec.row Ba) Wb (Cert.Spec.row Bb) i) := by
  subst hwa hba hwb hbb
  obtain ⟨p, q, rfl⟩ : ∃ (p : Fin 2000) (q : Fin 256), y = ix2 p q := ⟨y 0, y 1, eq_ix2 y⟩
  rw [hp a x wa ba wb bb p q]
  have hq : (⟨(i 1).val, (i 1).isLt⟩ : Fin 256) = q := Fin.ext hi1
  show _ = Cert.Spec.mlpAt A X wa (fun k => ba (ix2 (0 : Fin 1) k)) (fun k => bb (ix2 (0 : Fin 1) k)) wb ⟨(i 0).val, (i 0).isLt⟩ ⟨(i 1).val, (i 1).isLt⟩
  rw [hq]
  exact Cert.Spec.mlpAt_congr a x A X wa _ _ wb p ⟨(i 0).val, (i 0).isLt⟩ q
    (fun j => ha p j ⟨(i 0).val, (i 0).isLt⟩ hi0) (fun j => hx p j ⟨(i 0).val, (i 0).isLt⟩ hi0)

/-- A row block of the aggregated table: its row `p` at point `t` is the array's row `2000·t + p`. -/
theorem rowBlock2_0 (V : (c : Dev nD) → (b : Ref sig .tc) → Buf (Elt Ideal) ((c : Thread nD τ).loc b)) (c : Dev nD) (t : Fin cfg2.N)
    (p : Fin 2000) (j : Fin 256) (n : Fin 150000) (hn : n.val = t.val * 2000 + p.val) :
    @Eq EReal ((iblk2 (F := Ideal) V c 0 t : Vec Ideal S2000x256 .f32) (ix2 p j)) ((V c (Pipeline.arrRef spec2 0) : S150000x256.Idx → EReal) (ix2 n j)) := by
  obtain ⟨e0, e1⟩ := (blockIndex2 t).1
  show (V c (Pipeline.arrRef spec2 0) : S150000x256.Idx → EReal) (((cfg2.win 0).blk t).view.emb (ix2 p j)) = _
  refine congrArg _ ?_
  funext a; apply Fin.ext
  match a with
  | ⟨0, _⟩ => show win2_0.index t (0 : Fin 2) * 2000 + 1 * p.val = n.val; rw [e0, hn]; omega
  | ⟨1, _⟩ => show win2_0.index t (1 : Fin 2) * 256 + 1 * j.val = j.val; rw [e1]; omega

/-- A row block of the feature table: its row `p` at point `t` is the array's row `2000·t + p`. -/
theorem rowBlock2_1 (V : (c : Dev nD) → (b : Ref sig .tc) → Buf (Elt Ideal) ((c : Thread nD τ).loc b)) (c : Dev nD) (t : Fin cfg2.N)
    (p : Fin 2000) (j : Fin 256) (n : Fin 150000) (hn : n.val = t.val * 2000 + p.val) :
    @Eq EReal ((iblk2 (F := Ideal) V c 1 t : Vec Ideal S2000x256 .f32) (ix2 p j)) ((V c (Pipeline.arrRef spec2 1) : S150000x256.Idx → EReal) (ix2 n j)) := by
  obtain ⟨e0, e1⟩ := (blockIndex2 t).2.1
  show (V c (Pipeline.arrRef spec2 1) : S150000x256.Idx → EReal) (((cfg2.win 1).blk t).view.emb (ix2 p j)) = _
  refine congrArg _ ?_
  funext a; apply Fin.ext
  match a with
  | ⟨0, _⟩ => show win2_1.index t (0 : Fin 2) * 2000 + 1 * p.val = n.val; rw [e0, hn]; omega
  | ⟨1, _⟩ => show win2_1.index t (1 : Fin 2) * 256 + 1 * j.val = j.val; rw [e1]; omega

/-- The one block of the first weight matrix is the whole array. -/
theorem wholeBlock2_2 (V : (c : Dev nD) → (b : Ref sig .tc) → Buf (Elt Ideal) ((c : Thread nD τ).loc b)) (c : Dev nD) (t : Fin cfg2.N) :
    (iblk2 (F := Ideal) V c 2 t : Vec Ideal S256x256 .f32) = (V c (Pipeline.arrRef spec2 2) : S256x256.Idx → EReal) := by
  obtain ⟨e0, e1⟩ := (blockIndex2 t).2.2.1
  funext y
  show (V c (Pipeline.arrRef spec2 2) : S256x256.Idx → EReal) (((cfg2.win 2).blk t).view.emb y) = _
  refine congrArg _ ?_
  funext a; apply Fin.ext
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- The one block of the first bias row is the whole array. -/
theorem wholeBlock2_3 (V : (c : Dev nD) → (b : Ref sig .tc) → Buf (Elt Ideal) ((c : Thread nD τ).loc b)) (c : Dev nD) (t : Fin cfg2.N) :
    (iblk2 (F := Ideal) V c 3 t : Vec Ideal S1x256 .f32) = (V c (Pipeline.arrRef spec2 3) : S1x256.Idx → EReal) := by
  obtain ⟨e0, e1⟩ := (blockIndex2 t).2.2.2.1
  funext y
  show (V c (Pipeline.arrRef spec2 3) : S1x256.Idx → EReal) (((cfg2.win 3).blk t).view.emb y) = _
  refine congrArg _ ?_
  funext a; apply Fin.ext
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

/-- The one block of the second weight matrix is the whole array. -/
theorem wholeBlock2_4 (V : (c : Dev nD) → (b : Ref sig .tc) → Buf (Elt Ideal) ((c : Thread nD τ).loc b)) (c : Dev nD) (t : Fin cfg2.N) :
    (iblk2 (F := Ideal) V c 4 t : Vec Ideal S256x256 .f32) = (V c (Pipeline.arrRef spec2 4) : S256x256.Idx → EReal) := by
  obtain ⟨e0, e1⟩ := (blockIndex2 t).2.2.2.2.1
  funext y
  show (V c (Pipeline.arrRef spec2 4) : S256x256.Idx → EReal) (((cfg2.win 4).blk t).view.emb y) = _
  refine congrArg _ ?_
  funext a; apply Fin.ext
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

/-- The one block of the second bias row is the whole array. -/
theorem wholeBlock2_5 (V : (c : Dev nD) → (b : Ref sig .tc) → Buf (Elt Ideal) ((c : Thread nD τ).loc b)) (c : Dev nD) (t : Fin cfg2.N) :
    (iblk2 (F := Ideal) V c 5 t : Vec Ideal S1x256 .f32) = (V c (Pipeline.arrRef spec2 5) : S1x256.Idx → EReal) := by
  obtain ⟨e0, e1⟩ := (blockIndex2 t).2.2.2.2.2.1
  funext y
  show (V c (Pipeline.arrRef spec2 5) : S1x256.Idx → EReal) (((cfg2.win 5).blk t).view.emb y) = _
  refine congrArg _ ?_
  funext a; apply Fin.ext
  match a with
  | ⟨0, _⟩ => show win2_5.index t (0 : Fin 2) * 1 + 1 * (y 0).val = (y 0).val; rw [e0]; omega
  | ⟨1, _⟩ => show win2_5.index t (1 : Fin 2) * 256 + 1 * (y 1).val = (y 1).val; rw [e1]; omega

/-- The layer of the six arrays as the region finds them. -/
abbrev layer2 (V : (c : Dev nD) → (b : Ref sig .tc) → Buf (Elt Ideal) ((c : Thread nD τ).loc b)) (c : Dev nD) : S150000x256.Idx → EReal :=
  Cert.Spec.layer (V c (Pipeline.arrRef spec2 0)) (V c (Pipeline.arrRef spec2 1)) (V c (Pipeline.arrRef spec2 2)) (Cert.Spec.row (V c (Pipeline.arrRef spec2 3))) (V c (Pipeline.arrRef spec2 4)) (Cert.Spec.row (V c (Pipeline.arrRef spec2 5)))

/-- What point `t` writes back is block `t` of the layer: rows `2000·t … 2000·t + 1999`. -/
theorem writtenBack2 (hp : PayOk2) (V : (c : Dev nD) → (b : Ref sig .tc) → Buf (Elt Ideal) ((c : Thread nD τ).loc b)) (c : Dev nD) (t : Fin cfg2.N) :
    (dat2 (F := Ideal) V c).flushed 6 t = ((cfg2.win 6).blk t).view.read (Elt Ideal) (layer2 V c) := by
  show (cfg2.win 6).cut (grid2.coords t) ((dat2 (F := Ideal) V c).after 6 t) = _
  rw [after2_6]
  unfold out2_6
  rw [View.canon_unit_zero zeroOffsets]
  simp only [View.ld_unit_zero (S := S2000x256) zeroOffsets, View.ld_unit_zero (S := S256x256) zeroOffsets, View.ld_unit_zero (S := S1x256) zeroOffsets, View.ld_unit_zero (S := S256x256) zeroOffsets]
  obtain ⟨e0, e1⟩ := (blockIndex2 t).2.2.2.2.2.2
  funext y
  refine blockRow2 hp (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t)
    t.val ((cfg2.win 6).xinj (grid2.coords t) y) (((cfg2.win 6).blk t).view.emb y) ?_ ?_
    (rowBlock2_0 V c t) (rowBlock2_1 V c t) (wholeBlock2_2 V c t) (wholeBlock2_3 V c t) (wholeBlock2_4 V c t) (wholeBlock2_5 V c t)
  · show win2_6.index t (0 : Fin 2) * 2000 + 1 * (y 0).val = t.val * 2000 + (y 0).val; rw [e0]; omega
  · show win2_6.index t (1 : Fin 2) * 256 + 1 * (y 1).val = (y 1).val; rw [e1]; omega

/-- An index of the output array is in point `t`'s block iff each coordinate is in the block's range on its axis. -/
theorem inBlock2 (t : Fin cfg2.N) (i : S150000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v42).slice (win2_6.rect t)).set ↔ _
  rw [View.set_slice_whole, Rect.mem_set_unit]
  exact Iff.rfl

/-- Every row is in some point's block: row `r` in that of point `r / 2000`. -/
theorem covered2 (i : S150000x256.Idx) : ∃ t : Fin cfg2.N, (cfg2.win 6).flush t = true ∧ i ∈ ((cfg2.win 6).blk t).view.set := by
  have h0 : (i 0).val < 150000 := (i 0).isLt
  have h1 : (i 1).val < 256 := (i 1).isLt
  have hN : cfg2.N = 75 := N_2
  obtain ⟨t, ht⟩ : ∃ t : Fin cfg2.N, t.val = (i 0).val / 2000 := ⟨⟨(i 0).val / 2000, by rw [hN]; omega⟩, rfl⟩
  obtain ⟨e0, e1⟩ := (blockIndex2 t).2.2.2.2.2.2
  refine ⟨t, flush2_6 t, ?_⟩
  rw [inBlock2]
  intro a
  match a with
  | ⟨0, _⟩ => show win2_6.index t (0 : Fin 2) * 2000 ≤ (i 0).val ∧ (i 0).val < win2_6.index t (0 : Fin 2) * 2000 + 2000; rw [e0]; omega
  | ⟨1, _⟩ => show win2_6.index t (1 : Fin 2) * 256 ≤ (i 1).val ∧ (i 1).val < win2_6.index t (1 : Fin 2) * 256 + 256; rw [e1]; omega

/-- The output array after the region is the layer of the six input arrays as the region finds them. -/
theorem region2 (hp : PayOk2) (V : (c : Dev nD) → (b : Ref sig .tc) → Buf (Elt Ideal) ((c : Thread nD τ).loc b)) (c : Dev nD) :
    (dat2 (F := Ideal) V c).arrAt 6 cfg2.N = Cert.Spec.layer (V c (Pipeline.arrRef spec2 0)) (V c (Pipeline.arrRef spec2 1)) (V c (Pipeline.arrRef spec2 2)) (Cert.Spec.row (V c (Pipeline.arrRef spec2 3))) (V c (Pipeline.arrRef spec2 4)) (Cert.Spec.row (V c (Pipeline.arrRef spec2 5))) :=
  (dat2 (F := Ideal) V c).arrAt_eq_of_cover 6 (layer2 V c) (fun t _ => writtenBack2 hp V c t) covered2

/-! ## Layer 3 -/

/-- What the body's arithmetic is assumed to be at an index of a block: row `p`, channel `q` of the block's result is the
    specification's row formula of the loaded blocks, the two bias rows read as vectors. -/
def PayOk3 : Prop := ∀ (a x : Vec Ideal S2000x256 .f32) (Wa : Vec Ideal S256x256 .f32) (ba : Vec Ideal S1x256 .f32) (Wb : Vec Ideal S256x256 .f32) (bb : Vec Ideal S1x256 .f32) (p : Fin 2000) (q : Fin 256),
    @Eq EReal (k3_pay1 (F := Ideal) a x Wa ba Wb bb (ix2 p q)) (Cert.Spec.mlpAt a x Wa (fun k => ba (ix2 (0 : Fin 1) k)) (fun k => bb (ix2 (0 : Fin 1) k)) Wb p q)

/-- The block indices over the grid: the three row-blocked windows (the two inputs and the output) are at block
    `(t, 0)` at point `t`; the four whole-array windows stay at block `(0, 0)`. -/
theorem blockIndex3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- Row `p` of a block's result is the layer's row `2000·t + p`: the row formula reads only that row of the two
    tables, the block's rows are the tables' rows `2000·t …`, and the weights and biases are the whole arrays. -/
theorem blockRow3 (hp : PayOk3) (A X : S150000x256.Idx → EReal) (Wa : S256x256.Idx → EReal) (Ba : S1x256.Idx → EReal)
    (Wb : S256x256.Idx → EReal) (Bb : S1x256.Idx → EReal)
    (a x : Vec Ideal S2000x256 .f32) (wa : Vec Ideal S256x256 .f32) (ba : Vec Ideal S1x256 .f32) (wb : Vec Ideal S256x256 .f32) (bb : Vec Ideal S1x256 .f32)
    (tt : Nat) (y : S2000x256.Idx) (i : S150000x256.Idx)
    (hi0 : (i 0).val = tt * 2000 + (y 0).val) (hi1 : (i 1).val = (y 1).val)
    (ha : ∀ (p : Fin 2000) (j : Fin 256) (n : Fin 150000), n.val = tt * 2000 + p.val → a (ix2 p j) = A (ix2 n j))
    (hx : ∀ (p : Fin 2000) (j : Fin 256) (n : Fin 150000), n.val = tt * 2000 + p.val → x (ix2 p j) = X (ix2 n j))
    (hwa : wa = Wa) (hba : ba = Ba) (hwb : wb = Wb) (hbb : bb = Bb) :
    @Eq EReal (k3_pay1 (F := Ideal) a x wa ba wb bb y) (Cert.Spec.layer A X Wa (Cert.Spec.row Ba) Wb (Cert.Spec.row Bb) i) := by
  subst hwa hba hwb hbb
  obtain ⟨p, q, rfl⟩ : ∃ (p : Fin 2000) (q : Fin 256), y = ix2 p q := ⟨y 0, y 1, eq_ix2 y⟩
  rw [hp a x wa ba wb bb p q]
  have hq : (⟨(i 1).val, (i 1).isLt⟩ : Fin 256) = q := Fin.ext hi1
  show _ = Cert.Spec.mlpAt A X wa (fun k => ba (ix2 (0 : Fin 1) k)) (fun k => bb (ix2 (0 : Fin 1) k)) wb ⟨(i 0).val, (i 0).isLt⟩ ⟨(i 1).val, (i 1).isLt⟩
  rw [hq]
  exact Cert.Spec.mlpAt_congr a x A X wa _ _ wb p ⟨(i 0).val, (i 0).isLt⟩ q
    (fun j => ha p j ⟨(i 0).val, (i 0).isLt⟩ hi0) (fun j => hx p j ⟨(i 0).val, (i 0).isLt⟩ hi0)

/-- A row block of the aggregated table: its row `p` at point `t` is the array's row `2000·t + p`. -/
theorem rowBlock3_0 (V : (c : Dev nD) → (b : Ref sig .tc) → Buf (Elt Ideal) ((c : Thread nD τ).loc b)) (c : Dev nD) (t : Fin cfg3.N)
    (p : Fin 2000) (j : Fin 256) (n : Fin 150000) (hn : n.val = t.val * 2000 + p.val) :
    @Eq EReal ((iblk3 (F := Ideal) V c 0 t : Vec Ideal S2000x256 .f32) (ix2 p j)) ((V c (Pipeline.arrRef spec3 0) : S150000x256.Idx → EReal) (ix2 n j)) := by
  obtain ⟨e0, e1⟩ := (blockIndex3 t).1
  show (V c (Pipeline.arrRef spec3 0) : S150000x256.Idx → EReal) (((cfg3.win 0).blk t).view.emb (ix2 p j)) = _
  refine congrArg _ ?_
  funext a; apply Fin.ext
  match a with
  | ⟨0, _⟩ => show win3_0.index t (0 : Fin 2) * 2000 + 1 * p.val = n.val; rw [e0, hn]; omega
  | ⟨1, _⟩ => show win3_0.index t (1 : Fin 2) * 256 + 1 * j.val = j.val; rw [e1]; omega

/-- A row block of the feature table: its row `p` at point `t` is the array's row `2000·t + p`. -/
theorem rowBlock3_1 (V : (c : Dev nD) → (b : Ref sig .tc) → Buf (Elt Ideal) ((c : Thread nD τ).loc b)) (c : Dev nD) (t : Fin cfg3.N)
    (p : Fin 2000) (j : Fin 256) (n : Fin 150000) (hn : n.val = t.val * 2000 + p.val) :
    @Eq EReal ((iblk3 (F := Ideal) V c 1 t : Vec Ideal S2000x256 .f32) (ix2 p j)) ((V c (Pipeline.arrRef spec3 1) : S150000x256.Idx → EReal) (ix2 n j)) := by
  obtain ⟨e0, e1⟩ := (blockIndex3 t).2.1
  show (V c (Pipeline.arrRef spec3 1) : S150000x256.Idx → EReal) (((cfg3.win 1).blk t).view.emb (ix2 p j)) = _
  refine congrArg _ ?_
  funext a; apply Fin.ext
  match a with
  | ⟨0, _⟩ => show win3_1.index t (0 : Fin 2) * 2000 + 1 * p.val = n.val; rw [e0, hn]; omega
  | ⟨1, _⟩ => show win3_1.index t (1 : Fin 2) * 256 + 1 * j.val = j.val; rw [e1]; omega

/-- The one block of the first weight matrix is the whole array. -/
theorem wholeBlock3_2 (V : (c : Dev nD) → (b : Ref sig .tc) → Buf (Elt Ideal) ((c : Thread nD τ).loc b)) (c : Dev nD) (t : Fin cfg3.N) :
    (iblk3 (F := Ideal) V c 2 t : Vec Ideal S256x256 .f32) = (V c (Pipeline.arrRef spec3 2) : S256x256.Idx → EReal) := by
  obtain ⟨e0, e1⟩ := (blockIndex3 t).2.2.1
  funext y
  show (V c (Pipeline.arrRef spec3 2) : S256x256.Idx → EReal) (((cfg3.win 2).blk t).view.emb y) = _
  refine congrArg _ ?_
  funext a; apply Fin.ext
  match a with
  | ⟨0, _⟩ => show win3_2.index t (0 : Fin 2) * 256 + 1 * (y 0).val = (y 0).val; rw [e0]; omega
  | ⟨1, _⟩ => show win3_2.index t (1 : Fin 2) * 256 + 1 * (y 1).val = (y 1).val; rw [e1]; omega

/-- The one block of the first bias row is the whole array. -/
theorem wholeBlock3_3 (V : (c : Dev nD) → (b : Ref sig .tc) → Buf (Elt Ideal) ((c : Thread nD τ).loc b)) (c : Dev nD) (t : Fin cfg3.N) :
    (iblk3 (F := Ideal) V c 3 t : Vec Ideal S1x256 .f32) = (V c (Pipeline.arrRef spec3 3) : S1x256.Idx → EReal) := by
  obtain ⟨e0, e1⟩ := (blockIndex3 t).2.2.2.1
  funext y
  show (V c (Pipeline.arrRef spec3 3) : S1x256.Idx → EReal) (((cfg3.win 3).blk t).view.emb y) = _
  refine congrArg _ ?_
  funext a; apply Fin.ext
  match a with
  | ⟨0, _⟩ => show win3_3.index t (0 : Fin 2) * 1 + 1 * (y 0).val = (y 0).val; rw [e0]; omega
  | ⟨1, _⟩ => show win3_3.index t (1 : Fin 2) * 256 + 1 * (y 1).val = (y 1).val; rw [e1]; omega

/-- The one block of the second weight matrix is the whole array. -/
theorem wholeBlock3_4 (V : (c : Dev nD) → (b : Ref sig .tc) → Buf (Elt Ideal) ((c : Thread nD τ).loc b)) (c : Dev nD) (t : Fin cfg3.N) :
    (iblk3 (F := Ideal) V c 4 t : Vec Ideal S256x256 .f32) = (V c (Pipeline.arrRef spec3 4) : S256x256.Idx → EReal) := by
  obtain ⟨e0, e1⟩ := (blockIndex3 t).2.2.2.2.1
  funext y
  show (V c (Pipeline.arrRef spec3 4) : S256x256.Idx → EReal) (((cfg3.win 4).blk t).view.emb y) = _
  refine congrArg _ ?_
  funext a; apply Fin.ext
  match a with
  | ⟨0, _⟩ => show win3_4.index t (0 : Fin 2) * 256 + 1 * (y 0).val = (y 0).val; rw [e0]; omega
  | ⟨1, _⟩ => show win3_4.index t (1 : Fin 2) * 256 + 1 * (y 1).val = (y 1).val; rw [e1]; omega

/-- The one block of the second bias row is the whole array. -/
theorem wholeBlock3_5 (V : (c : Dev nD) → (b : Ref sig .tc) → Buf (Elt Ideal) ((c : Thread nD τ).loc b)) (c : Dev nD) (t : Fin cfg3.N) :
    (iblk3 (F := Ideal) V c 5 t : Vec Ideal S1x256 .f32) = (V c (Pipeline.arrRef spec3 5) : S1x256.Idx → EReal) := by
  obtain ⟨e0, e1⟩ := (blockIndex3 t).2.2.2.2.2.1
  funext y
  show (V c (Pipeline.arrRef spec3 5) : S1x256.Idx → EReal) (((cfg3.win 5).blk t).view.emb y) = _
  refine congrArg _ ?_
  funext a; apply Fin.ext
  match a with
  | ⟨0, _⟩ => show win3_5.index t (0 : Fin 2) * 1 + 1 * (y 0).val = (y 0).val; rw [e0]; omega
  | ⟨1, _⟩ => show win3_5.index t (1 : Fin 2) * 256 + 1 * (y 1).val = (y 1).val; rw [e1]; omega

/-- The layer of the six arrays as the region finds them. -/
abbrev layer3 (V : (c : Dev nD) → (b : Ref sig .tc) → Buf (Elt Ideal) ((c : Thread nD τ).loc b)) (c : Dev nD) : S150000x256.Idx → EReal :=
  Cert.Spec.layer (V c (Pipeline.arrRef spec3 0)) (V c (Pipeline.arrRef spec3 1)) (V c (Pipeline.arrRef spec3 2)) (Cert.Spec.row (V c (Pipeline.arrRef spec3 3))) (V c (Pipeline.arrRef spec3 4)) (Cert.Spec.row (V c (Pipeline.arrRef spec3 5)))

/-- What point `t` writes back is block `t` of the layer: rows `2000·t … 2000·t + 1999`. -/
theorem writtenBack3 (hp : PayOk3) (V : (c : Dev nD) → (b : Ref sig .tc) → Buf (Elt Ideal) ((c : Thread nD τ).loc b)) (c : Dev nD) (t : Fin cfg3.N) :
    (dat3 (F := Ideal) V c).flushed 6 t = ((cfg3.win 6).blk t).view.read (Elt Ideal) (layer3 V c) := by
  show (cfg3.win 6).cut (grid3.coords t) ((dat3 (F := Ideal) V c).after 6 t) = _
  rw [after3_6]
  unfold out3_6
  rw [View.canon_unit_zero zeroOffsets]
  simp only [View.ld_unit_zero (S := S2000x256) zeroOffsets, View.ld_unit_zero (S := S256x256) zeroOffsets, View.ld_unit_zero (S := S1x256) zeroOffsets, View.ld_unit_zero (S := S256x256) zeroOffsets]
  obtain ⟨e0, e1⟩ := (blockIndex3 t).2.2.2.2.2.2
  funext y
  refine blockRow3 hp (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
    (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t)
    t.val ((cfg3.win 6).xinj (grid3.coords t) y) (((cfg3.win 6).blk t).view.emb y) ?_ ?_
    (rowBlock3_0 V c t) (rowBlock3_1 V c t) (wholeBlock3_2 V c t) (wholeBlock3_3 V c t) (wholeBlock3_4 V c t) (wholeBlock3_5 V c t)
  · show win3_6.index t (0 : Fin 2) * 2000 + 1 * (y 0).val = t.val * 2000 + (y 0).val; rw [e0]; omega
  · show win3_6.index t (1 : Fin 2) * 256 + 1 * (y 1).val = (y 1).val; rw [e1]; omega

/-- An index of the output array is in point `t`'s block iff each coordinate is in the block's range on its axis. -/
theorem inBlock3 (t : Fin cfg3.N) (i : S150000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v55).slice (win3_6.rect t)).set ↔ _
  rw [View.set_slice_whole, Rect.mem_set_unit]
  exact Iff.rfl

/-- Every row is in some point's block: row `r` in that of point `r / 2000`. -/
theorem covered3 (i : S150000x256.Idx) : ∃ t : Fin cfg3.N, (cfg3.win 6).flush t = true ∧ i ∈ ((cfg3.win 6).blk t).view.set := by
  have h0 : (i 0).val < 150000 := (i 0).isLt
  have h1 : (i 1).val < 256 := (i 1).isLt
  have hN : cfg3.N = 75 := N_3
  obtain ⟨t, ht⟩ : ∃ t : Fin cfg3.N, t.val = (i 0).val / 2000 := ⟨⟨(i 0).val / 2000, by rw [hN]; omega⟩, rfl⟩
  obtain ⟨e0, e1⟩ := (blockIndex3 t).2.2.2.2.2.2
  refine ⟨t, flush3_6 t, ?_⟩
  rw [inBlock3]
  intro a
  match a with
  | ⟨0, _⟩ => show win3_6.index t (0 : Fin 2) * 2000 ≤ (i 0).val ∧ (i 0).val < win3_6.index t (0 : Fin 2) * 2000 + 2000; rw [e0]; omega
  | ⟨1, _⟩ => show win3_6.index t (1 : Fin 2) * 256 ≤ (i 1).val ∧ (i 1).val < win3_6.index t (1 : Fin 2) * 256 + 256; rw [e1]; omega

/-- The output array after the region is the layer of the six input arrays as the region finds them. -/
theorem region3 (hp : PayOk3) (V : (c : Dev nD) → (b : Ref sig .tc) → Buf (Elt Ideal) ((c : Thread nD τ).loc b)) (c : Dev nD) :
    (dat3 (F := Ideal) V c).arrAt 6 cfg3.N = Cert.Spec.layer (V c (Pipeline.arrRef spec3 0)) (V c (Pipeline.arrRef spec3 1)) (V c (Pipeline.arrRef spec3 2)) (Cert.Spec.row (V c (Pipeline.arrRef spec3 3))) (V c (Pipeline.arrRef spec3 4)) (Cert.Spec.row (V c (Pipeline.arrRef spec3 5))) :=
  (dat3 (F := Ideal) V c).arrAt_eq_of_cover 6 (layer3 V c) (fun t _ => writtenBack3 hp V c t) covered3

end Cert.Regions

end
-- ==== Proof.RegionHead.lean ====
/-
  The read-out head, from its one block to its result array.

  The head runs at a single grid point, and each of its six windows takes its whole array as its block: the pooled
  table of 6000 rows by 256 channels, the first weight matrix (256 by 128) with its bias row, the second weight
  matrix (128 by 3) with its bias row, and the result of 6000 rows by 3 classes.  A block's element sits in its
  array at block index times block size plus its coordinate inside the block; here every block index is zero, so
  each block read is the array itself and the one block written back covers every index of the result.  Given that
  the body's arithmetic at an index is the specification's row formula, the result array after the region is
  therefore the specification's head of the five input arrays as the region finds them.
-/
import proofs.«167325_j82927228551355_1_alg».proof.Proof.Gen.KernelIdeal.Frame
import proofs.«167325_j82927228551355_1_alg».proof.Proof.Spec
import Idealize.ShloMosaic.Lib.Pipeline.Value
import Idealize.ShloMosaic.Lib.ValueIdx

noncomputable section

namespace Cert.RegionHead

open Cert.KernelIdeal Cert.KernelIdeal.Gen Idealize.ShloMosaic Idealize.ShloMosaic.ValueIdx Idealize.ShloMosaic.TcCoe
open Idealize.ShloMosaic.Pipeline (Dat)

/-- The body's arithmetic read at row `p`, class `q` of its result: the specification's row formula of the five loaded
    blocks, the two biases read off their one-row tables. -/
def PayOk4 : Prop := ∀ (x : Vec Ideal S6000x256 .f32) (W1 : Vec Ideal S256x128 .f32) (b1 : Vec Ideal S1x128 .f32) (W2 : Vec Ideal S128x3 .f32) (b2 : Vec Ideal S1x3 .f32) (p : Fin 6000) (q : Fin 3),
    @Eq EReal (k4_pay1 (F := Ideal) x W1 b1 W2 b2 (ix2 p q)) (Cert.Spec.headAt x W1 (fun k => b1 (ix2 (0 : Fin 1) k)) W2 (fun k => b2 (ix2 (0 : Fin 1) k)) p q)

-- the buffer contents when the region is entered
variable (V : (c : Dev nD) → (b : Ref sig .tc) → Buf (Elt Ideal) ((c : Thread nD τ).loc b))

/-- The body loads and stores at offsets zero on both axes. -/
theorem zeroOffsets : (![0, 0] : Fin 2 → Nat) = fun _ => 0 := funext fun a => by fin_cases a <;> rfl

/-- The read-out as one function of the five arrays: the specification's head, the biases' one-row tables read as
    vectors. -/
abbrev readout (p : S6000x256.Idx → EReal) (W1 : S256x128.Idx → EReal) (b1 : S1x128.Idx → EReal) (W2 : S128x3.Idx → EReal)
    (b2 : S1x3.Idx → EReal) : S6000x3.Idx → EReal :=
  Cert.Spec.head p W1 (Cert.Spec.row b1) W2 (Cert.Spec.row b2)

/-- Every window's block index is zero on both axes, at every point of the grid (decided: there is one point). -/
theorem blockIndex : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-! ## Each input block is its whole array -/

/-- The pooled table's block is the pooled table. -/
theorem pooledBlock (c : Dev nD) (t : Fin cfg4.N) :
    (iblk4 (F := Ideal) V c 0 t : S6000x256.Idx → EReal) = V c main_v67 := by
  funext y
  show V c main_v67 (((cfg4.win 0).blk t).view.emb y) = V c main_v67 y
  refine congrArg _ ?_
  obtain ⟨e0, e1, -⟩ := blockIndex t
  funext a; apply Fin.ext
  match a with
  | ⟨0, _⟩ => show win4_0.index t (0 : Fin 2) * 6000 + 1 * (y 0).val = (y 0).val; omega
  | ⟨1, _⟩ => show win4_0.index t (1 : Fin 2) * 256 + 1 * (y 1).val = (y 1).val; omega

/-- The first weight matrix's block is the matrix. -/
theorem weight1Block (c : Dev nD) (t : Fin cfg4.N) :
    (iblk4 (F := Ideal) V c 1 t : S256x128.Idx → EReal) = V c main_arg19 := by
  funext y
  show V c main_arg19 (((cfg4.win 1).blk t).view.emb y) = V c main_arg19 y
  refine congrArg _ ?_
  obtain ⟨-, -, e0, e1, -⟩ := blockIndex t
  funext a; apply Fin.ext
  match a with
  | ⟨0, _⟩ => show win4_1.index t (0 : Fin 2) * 256 + 1 * (y 0).val = (y 0).val; omega
  | ⟨1, _⟩ => show win4_1.index t (1 : Fin 2) * 128 + 1 * (y 1).val = (y 1).val; omega

/-- The first bias row's block is the row. -/
theorem bias1Block (c : Dev nD) (t : Fin cfg4.N) :
    (iblk4 (F := Ideal) V c 2 t : S1x128.Idx → EReal) = V c main_v68 := by
  funext y
  show V c main_v68 (((cfg4.win 2).blk t).view.emb y) = V c main_v68 y
  refine congrArg _ ?_
  obtain ⟨-, -, -, -, e0, e1, -⟩ := blockIndex t
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The second weight matrix's block is the matrix. -/
theorem weight2Block (c : Dev nD) (t : Fin cfg4.N) :
    (iblk4 (F := Ideal) V c 3 t : S128x3.Idx → EReal) = V c main_arg21 := by
  funext y
  show V c main_arg21 (((cfg4.win 3).blk t).view.emb y) = V c main_arg21 y
  refine congrArg _ ?_
  obtain ⟨-, -, -, -, -, -, e0, e1, -⟩ := blockIndex t
  funext a; apply Fin.ext
  match a with
  | ⟨0, _⟩ => show win4_3.index t (0 : Fin 2) * 128 + 1 * (y 0).val = (y 0).val; omega
  | ⟨1, _⟩ => show win4_3.index t (1 : Fin 2) * 3 + 1 * (y 1).val = (y 1).val; omega

/-- The second bias row's block is the row. -/
theorem bias2Block (c : Dev nD) (t : Fin cfg4.N) :
    (iblk4 (F := Ideal) V c 4 t : S1x3.Idx → EReal) = V c main_v69 := by
  funext y
  show V c main_v69 (((cfg4.win 4).blk t).view.emb y) = V c main_v69 y
  refine congrArg _ ?_
  obtain ⟨-, -, -, -, -, -, -, -, e0, e1, -⟩ := blockIndex t
  funext a; apply Fin.ext
  match a with
  | ⟨0, _⟩ => show win4_4.index t (0 : Fin 2) * 1 + 1 * (y 0).val = (y 0).val; omega
  | ⟨1, _⟩ => show win4_4.index t (1 : Fin 2) * 3 + 1 * (y 1).val = (y 1).val; omega

/-! ## The result block -/

/-- An element of the result's block sits in the result array at its own coordinates. -/
theorem resultEmb (t : Fin cfg4.N) (j : S6000x3.Idx) : ((cfg4.win 5).blk t).view.emb j = j := by
  obtain ⟨-, -, -, -, -, -, -, -, -, -, e0, e1⟩ := blockIndex t
  funext a; apply Fin.ext
  match a with
  | ⟨0, _⟩ => show win4_5.index t (0 : Fin 2) * 6000 + 1 * (j 0).val = (j 0).val; omega
  | ⟨1, _⟩ => show win4_5.index t (1 : Fin 2) * 3 + 1 * (j 1).val = (j 1).val; omega

/-- The row formula with the biases read off their one-row tables is the specification's head at that index. -/
theorem headAt_eq_readout (x : S6000x256.Idx → EReal) (W1 : S256x128.Idx → EReal) (b1 : S1x128.Idx → EReal)
    (W2 : S128x3.Idx → EReal) (b2 : S1x3.Idx → EReal) (p : Fin 6000) (q : Fin 3) :
    Cert.Spec.headAt x W1 (fun k => b1 (ix2 (0 : Fin 1) k)) W2 (fun k => b2 (ix2 (0 : Fin 1) k)) p q
      = readout x W1 b1 W2 b2 (ix2 p q) := rfl

/-- What the one grid point writes back is the result's block of the read-out of the five arrays as the region
    finds them. -/
theorem flushed_eq (hp : PayOk4) (c : Dev nD) (t : Fin cfg4.N) :
    (dat4 (F := Ideal) V c).flushed 5 t
      = ((cfg4.win 5).blk t).view.read (Elt Ideal)
          (readout (V c main_v67) (V c main_arg19) (V c main_v68) (V c main_arg21) (V c main_v69)) := by
  show (cfg4.win 5).cut (grid4.coords t) ((dat4 (F := Ideal) V c).after 5 t) = _
  rw [after4_5]
  unfold out4_5
  rw [View.canon_unit_zero zeroOffsets]
  simp only [View.ld_unit_zero (S := S6000x256) zeroOffsets, View.ld_unit_zero (S := S256x128) zeroOffsets,
    View.ld_unit_zero (S := S1x128) zeroOffsets, View.ld_unit_zero (S := S128x3) zeroOffsets,
    View.ld_unit_zero (S := S1x3) zeroOffsets]
  rw [pooledBlock, weight1Block, bias1Block, weight2Block, bias2Block]
  funext j
  show k4_pay1 (F := Ideal) (V c main_v67) (V c main_arg19) (V c main_v68) (V c main_arg21) (V c main_v69) j
    = readout (V c main_v67) (V c main_arg19) (V c main_v68) (V c main_arg21) (V c main_v69) (((cfg4.win 5).blk t).view.emb j)
  rw [resultEmb]
  obtain ⟨p, q, rfl⟩ : ∃ (p : Fin 6000) (q : Fin 3), j = ix2 p q := ⟨j 0, j 1, eq_ix2 j⟩
  exact (hp _ _ _ _ _ p q).trans (headAt_eq_readout _ _ _ _ _ p q)

/-! ## The one block covers the result -/

/-- An index of the result is in the point's block iff each coordinate is in the block's range on its axis. -/
theorem mem_block (t : Fin cfg4.N) (i : S6000x3.Idx) :
    i ∈ ((cfg4.win 5).blk t).view.set ↔ ∀ a : Fin 2, win4_5.index t a * S6000x3.size a ≤ (i a).val ∧ (i a).val < win4_5.index t a * S6000x3.size a + S6000x3.size a := by
  show i ∈ ((View.whole main_v70).slice (win4_5.rect t)).set ↔ _
  rw [View.set_slice_whole, Rect.mem_set_unit]
  exact Iff.rfl

/-- Every index of the result is in the single point's block, which is written back. -/
theorem covered (i : S6000x3.Idx) :
    ∃ t : Fin cfg4.N, (cfg4.win 5).flush t = true ∧ i ∈ ((cfg4.win 5).blk t).view.set := by
  have hi0 : (i 0).val < 6000 := (i 0).isLt
  have hi1 : (i 1).val < 3 := (i 1).isLt
  obtain ⟨-, -, -, -, -, -, -, -, -, -, e0, e1⟩ := blockIndex t4_0
  refine ⟨t4_0, flush4_5 t4_0, ?_⟩
  rw [mem_block]
  intro a
  match a with
  | ⟨0, _⟩ => show win4_5.index t4_0 (0 : Fin 2) * 6000 ≤ (i 0).val ∧ (i 0).val < win4_5.index t4_0 (0 : Fin 2) * 6000 + 6000; omega
  | ⟨1, _⟩ => show win4_5.index t4_0 (1 : Fin 2) * 3 ≤ (i 1).val ∧ (i 1).val < win4_5.index t4_0 (1 : Fin 2) * 3 + 3; omega

/-! ## The result array after the region -/

/-- The result array after the region is the specification's head of the five input arrays as the region finds
    them. -/
theorem region4 (hp : PayOk4) (V : (c : Dev nD) → (b : Ref sig .tc) → Buf (Elt Ideal) ((c : Thread nD τ).loc b)) (c : Dev nD) :
    (dat4 (F := Ideal) V c).arrAt 5 cfg4.N = Cert.Spec.head (V c (Pipeline.arrRef spec4 0)) (V c (Pipeline.arrRef spec4 1)) (Cert.Spec.row (V c (Pipeline.arrRef spec4 2))) (V c (Pipeline.arrRef spec4 3)) (Cert.Spec.row (V c (Pipeline.arrRef spec4 4))) :=
  (dat4 (F := Ideal) V c).arrAt_eq_of_cover 5
    (readout (V c main_v67) (V c main_arg19) (V c main_v68) (V c main_arg21) (V c main_v69))
    (fun t _ => flushed_eq V hp c t) covered

end Cert.RegionHead

end
-- ==== Proof.RefLayers.lean ====
/-
  The reference program's dense arithmetic is the specification's.

  Each of the four layers of the reference is, index by index, the shared row formula: at node `n` and channel `h`
  the second rectifier of (the sum over `k` of the first rectifier at `(n, k)` times the second weight at `(k, h)`)
  plus the second bias, where the first rectifier at `(n, k)` is the row `agg n + x n` against column `k` of the first
  weight matrix plus the first bias. The head is the same with one rectifier and a plain affine map outside.

  Two kinds of fact are used and nothing else. A matrix product read at an index is the sum, over the contracted
  coordinate, of the left operand at (row, k) times the right at (k, column); a bias broadcast along the rows reads
  the bias at the column. On the extended reals the float sum, product and maximum are `+`, `*` and `max`, and the
  rectifier's zero is the extended real the zero pattern denotes. The neighbour sums (gather then scatter-add) and
  the pooled quotient are never opened: they enter as the tables they are, and the same tables stand on the
  specification's side.

  Every proof has the same two steps. The inner half (`hiddenN`) reads the first rectifier at an index given by its
  two coordinates; the outer half (`layerN`) reads the second rectifier at an arbitrary index, names that index's
  coordinates, and cites the inner half under the sum.
-/
import proofs.«167325_j82927228551355_1_alg».proof.Proof.Gen.ReferenceIdeal.Read
import proofs.«167325_j82927228551355_1_alg».proof.Proof.Spec

noncomputable section

namespace Cert.RefLayers

open scoped BigOperators
open Cert.ReferenceIdeal Cert.ReferenceIdeal.Read Idealize.ShloMosaic Idealize.ShloMosaic.ValueIdx

variable (x0 : (⟨S150000x7, .f32⟩ : BufTy).Contents (Elt Ideal)) (x1 : (⟨S2x300000, .i32⟩ : BufTy).Contents (Elt Ideal))
    (x2 : (⟨S150000, .i32⟩ : BufTy).Contents (Elt Ideal)) (x3 : (⟨S7x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S256x256, .f32⟩ : BufTy).Contents (Elt Ideal))
    (x14 : (⟨S256, .f32⟩ : BufTy).Contents (Elt Ideal)) (x15 : (⟨S256x256, .f32⟩ : BufTy).Contents (Elt Ideal))
    (x16 : (⟨S256, .f32⟩ : BufTy).Contents (Elt Ideal)) (x17 : (⟨S256x256, .f32⟩ : BufTy).Contents (Elt Ideal))
    (x18 : (⟨S256, .f32⟩ : BufTy).Contents (Elt Ideal)) (x19 : (⟨S256x128, .f32⟩ : BufTy).Contents (Elt Ideal))
    (x20 : (⟨S128, .f32⟩ : BufTy).Contents (Elt Ideal)) (x21 : (⟨S128x3, .f32⟩ : BufTy).Contents (Elt Ideal))
    (x22 : (⟨S3, .f32⟩ : BufTy).Contents (Elt Ideal))

/-! ### The first layer -/

/-- The inner half of the first layer at row `n`, channel `c`: the row `agg n + h n` against column `c` of the first
    weight matrix, plus the first bias, rectified. The aggregate stays the opaque table it is. -/
theorem hidden1 (n : Fin 150000) (c : Fin 256) :
    val_main_v19 (F := Ideal) x0 x1 x3 x4 (ix2 n c) =
      max ((∑ j : Fin 7, (val_main_v13 (F := Ideal) x0 x1 (ix2 n j) + x0 (ix2 n j)) * x3 (ix2 j c)) + x4 (ix1 c)) Cert.Spec.z := by
  have el : ∀ j : Fin 7, lidx_main_v15 (ix2 n c) j = ix2 n j :=
    fun j => funext fun a => by match a with | ⟨0, _⟩ => rfl | ⟨1, _⟩ => rfl
  have er : ∀ j : Fin 7, ridx_main_v15 (ix2 n c) j = ix2 j c :=
    fun j => funext fun a => by match a with | ⟨0, _⟩ => rfl | ⟨1, _⟩ => rfl
  have eb : idx_main_v16 (idx_main_v17 (ix2 n c)) = ix1 c :=
    funext fun a => by match a with | ⟨0, _⟩ => rfl
  rw [val_main_v19_apply, val_main_v18_apply, val_main_v15_apply, val_main_v17_apply, val_main_v16_apply,
    val_main_call0_v0_apply, val_main_call0_cst_apply, eb]
  refine congrArg (fun t => max (t + x4 (ix1 c)) Cert.Spec.z) (Finset.sum_congr rfl fun j _ => ?_)
  rw [val_main_v14_apply, el, er]
  rfl

/-- The first layer of the reference is the specification's layer on its own aggregate and its own input table. -/
theorem layer1 :
    @Eq (S150000x256.Idx → EReal) (val_main_v24 (F := Ideal) x0 x1 x3 x4 x5 x6)
      (Cert.Spec.layer (val_main_v13 (F := Ideal) x0 x1) x0 x3 x4 x5 x6) := by
  funext i
  have el : ∀ k : Fin 256, lidx_main_v20 i k = ix2 (⟨(i 0).val, (i 0).isLt⟩ : Fin 150000) k :=
    fun k => funext fun a => by match a with | ⟨0, _⟩ => rfl | ⟨1, _⟩ => rfl
  have er : ∀ k : Fin 256, ridx_main_v20 i k = ix2 k (⟨(i 1).val, (i 1).isLt⟩ : Fin 256) :=
    fun k => funext fun a => by match a with | ⟨0, _⟩ => rfl | ⟨1, _⟩ => rfl
  have eb : idx_main_v21 (idx_main_v22 i) = ix1 (⟨(i 1).val, (i 1).isLt⟩ : Fin 256) :=
    funext fun a => by match a with | ⟨0, _⟩ => rfl
  rw [val_main_v24_apply, val_main_v23_apply, val_main_v20_apply, val_main_v22_apply, val_main_v21_apply,
    val_main_call1_v0_apply, val_main_call1_cst_apply, eb]
  unfold Cert.Spec.layer Cert.Spec.mlpAt
  show max ((∑ k : Fin 256, _) + _) _ = max ((∑ k : Fin 256, _) + _) _
  refine congrArg₂ max (congrArg₂ (· + ·) (Finset.sum_congr rfl fun k _ => ?_) rfl) rfl
  rw [el, er, hidden1]

/-! ### The second layer -/

/-- The inner half of the second layer at row `n`, channel `c`: the row `agg n + h n` against column `c` of the first
    weight matrix, plus the first bias, rectified. The aggregate stays the opaque table it is. -/
theorem hidden2 (n : Fin 150000) (c : Fin 256) :
    val_main_v40 (F := Ideal) x0 x1 x3 x4 x5 x6 x7 x8 (ix2 n c) =
      max ((∑ j : Fin 256, (val_main_v34 (F := Ideal) x0 x1 x3 x4 x5 x6 (ix2 n j) + val_main_v24 (F := Ideal) x0 x1 x3 x4 x5 x6 (ix2 n j)) * x7 (ix2 j c)) + x8 (ix1 c)) Cert.Spec.z := by
  have el : ∀ j : Fin 256, lidx_main_v36 (ix2 n c) j = ix2 n j :=
    fun j => funext fun a => by match a with | ⟨0, _⟩ => rfl | ⟨1, _⟩ => rfl
  have er : ∀ j : Fin 256, ridx_main_v36 (ix2 n c) j = ix2 j c :=
    fun j => funext fun a => by match a with | ⟨0, _⟩ => rfl | ⟨1, _⟩ => rfl
  have eb : idx_main_v37 (idx_main_v38 (ix2 n c)) = ix1 c :=
    funext fun a => by match a with | ⟨0, _⟩ => rfl
  rw [val_main_v40_apply, val_main_v39_apply, val_main_v36_apply, val_main_v38_apply, val_main_v37_apply,
    val_main_call2_v0_apply, val_main_call2_cst_apply, eb]
  refine congrArg (fun t => max (t + x8 (ix1 c)) Cert.Spec.z) (Finset.sum_congr rfl fun j _ => ?_)
  rw [val_main_v35_apply, el, er]
  rfl

/-- The second layer of the reference is the specification's layer on its own aggregate and its own input table. -/
theorem layer2 :
    @Eq (S150000x256.Idx → EReal) (val_main_v45 (F := Ideal) x0 x1 x3 x4 x5 x6 x7 x8 x9 x10)
      (Cert.Spec.layer (val_main_v34 (F := Ideal) x0 x1 x3 x4 x5 x6) (val_main_v24 (F := Ideal) x0 x1 x3 x4 x5 x6) x7 x8 x9 x10) := by
  funext i
  have el : ∀ k : Fin 256, lidx_main_v41 i k = ix2 (⟨(i 0).val, (i 0).isLt⟩ : Fin 150000) k :=
    fun k => funext fun a => by match a with | ⟨0, _⟩ => rfl | ⟨1, _⟩ => rfl
  have er : ∀ k : Fin 256, ridx_main_v41 i k = ix2 k (⟨(i 1).val, (i 1).isLt⟩ : Fin 256) :=
    fun k => funext fun a => by match a with | ⟨0, _⟩ => rfl | ⟨1, _⟩ => rfl
  have eb : idx_main_v42 (idx_main_v43 i) = ix1 (⟨(i 1).val, (i 1).isLt⟩ : Fin 256) :=
    funext fun a => by match a with | ⟨0, _⟩ => rfl
  rw [val_main_v45_apply, val_main_v44_apply, val_main_v41_apply, val_main_v43_apply, val_main_v42_apply,
    val_main_call3_v0_apply, val_main_call3_cst_apply, eb]
  unfold Cert.Spec.layer Cert.Spec.mlpAt
  show max ((∑ k : Fin 256, _) + _) _ = max ((∑ k : Fin 256, _) + _) _
  refine congrArg₂ max (congrArg₂ (· + ·) (Finset.sum_congr rfl fun k _ => ?_) rfl) rfl
  rw [el, er, hidden2]

/-! ### The third layer -/

/-- The inner half of the third layer at row `n`, channel `c`: the row `agg n + h n` against column `c` of the first
    weight matrix, plus the first bias, rectified. The aggregate stays the opaque table it is. -/
theorem hidden3 (n : Fin 150000) (c : Fin 256) :
    val_main_v61 (F := Ideal) x0 x1 x3 x4 x5 x6 x7 x8 x9 x10 x11 x12 (ix2 n c) =
      max ((∑ j : Fin 256, (val_main_v55 (F := Ideal) x0 x1 x3 x4 x5 x6 x7 x8 x9 x10 (ix2 n j) + val_main_v45 (F := Ideal) x0 x1 x3 x4 x5 x6 x7 x8 x9 x10 (ix2 n j)) * x11 (ix2 j c)) + x12 (ix1 c)) Cert.Spec.z := by
  have el : ∀ j : Fin 256, lidx_main_v57 (ix2 n c) j = ix2 n j :=
    fun j => funext fun a => by match a with | ⟨0, _⟩ => rfl | ⟨1, _⟩ => rfl
  have er : ∀ j : Fin 256, ridx_main_v57 (ix2 n c) j = ix2 j c :=
    fun j => funext fun a => by match a with | ⟨0, _⟩ => rfl | ⟨1, _⟩ => rfl
  have eb : idx_main_v58 (idx_main_v59 (ix2 n c)) = ix1 c :=
    funext fun a => by match a with | ⟨0, _⟩ => rfl
  rw [val_main_v61_apply, val_main_v60_apply, val_main_v57_apply, val_main_v59_apply, val_main_v58_apply,
    val_main_call4_v0_apply, val_main_call4_cst_apply, eb]
  refine congrArg (fun t => max (t + x12 (ix1 c)) Cert.Spec.z) (Finset.sum_congr rfl fun j _ => ?_)
  rw [val_main_v56_apply, el, er]
  rfl

/-- The third layer of the reference is the specification's layer on its own aggregate and its own input table. -/
theorem layer3 :
    @Eq (S150000x256.Idx → EReal) (val_main_v66 (F := Ideal) x0 x1 x3 x4 x5 x6 x7 x8 x9 x10 x11 x12 x13 x14)
      (Cert.Spec.layer (val_main_v55 (F := Ideal) x0 x1 x3 x4 x5 x6 x7 x8 x9 x10) (val_main_v45 (F := Ideal) x0 x1 x3 x4 x5 x6 x7 x8 x9 x10) x11 x12 x13 x14) := by
  funext i
  have el : ∀ k : Fin 256, lidx_main_v62 i k = ix2 (⟨(i 0).val, (i 0).isLt⟩ : Fin 150000) k :=
    fun k => funext fun a => by match a with | ⟨0, _⟩ => rfl | ⟨1, _⟩ => rfl
  have er : ∀ k : Fin 256, ridx_main_v62 i k = ix2 k (⟨(i 1).val, (i 1).isLt⟩ : Fin 256) :=
    fun k => funext fun a => by match a with | ⟨0, _⟩ => rfl | ⟨1, _⟩ => rfl
  have eb : idx_main_v63 (idx_main_v64 i) = ix1 (⟨(i 1).val, (i 1).isLt⟩ : Fin 256) :=
    funext fun a => by match a with | ⟨0, _⟩ => rfl
  rw [val_main_v66_apply, val_main_v65_apply, val_main_v62_apply, val_main_v64_apply, val_main_v63_apply,
    val_main_call5_v0_apply, val_main_call5_cst_apply, eb]
  unfold Cert.Spec.layer Cert.Spec.mlpAt
  show max ((∑ k : Fin 256, _) + _) _ = max ((∑ k : Fin 256, _) + _) _
  refine congrArg₂ max (congrArg₂ (· + ·) (Finset.sum_congr rfl fun k _ => ?_) rfl) rfl
  rw [el, er, hidden3]

/-! ### The fourth layer -/

/-- The inner half of the fourth layer at row `n`, channel `c`: the row `agg n + h n` against column `c` of the first
    weight matrix, plus the first bias, rectified. The aggregate stays the opaque table it is. -/
theorem hidden4 (n : Fin 150000) (c : Fin 256) :
    val_main_v82 (F := Ideal) x0 x1 x3 x4 x5 x6 x7 x8 x9 x10 x11 x12 x13 x14 x15 x16 (ix2 n c) =
      max ((∑ j : Fin 256, (val_main_v76 (F := Ideal) x0 x1 x3 x4 x5 x6 x7 x8 x9 x10 x11 x12 x13 x14 (ix2 n j) + val_main_v66 (F := Ideal) x0 x1 x3 x4 x5 x6 x7 x8 x9 x10 x11 x12 x13 x14 (ix2 n j)) * x15 (ix2 j c)) + x16 (ix1 c)) Cert.Spec.z := by
  have el : ∀ j : Fin 256, lidx_main_v78 (ix2 n c) j = ix2 n j :=
    fun j => funext fun a => by match a with | ⟨0, _⟩ => rfl | ⟨1, _⟩ => rfl
  have er : ∀ j : Fin 256, ridx_main_v78 (ix2 n c) j = ix2 j c :=
    fun j => funext fun a => by match a with | ⟨0, _⟩ => rfl | ⟨1, _⟩ => rfl
  have eb : idx_main_v79 (idx_main_v80 (ix2 n c)) = ix1 c :=
    funext fun a => by match a with | ⟨0, _⟩ => rfl
  rw [val_main_v82_apply, val_main_v81_apply, val_main_v78_apply, val_main_v80_apply, val_main_v79_apply,
    val_main_call6_v0_apply, val_main_call6_cst_apply, eb]
  refine congrArg (fun t => max (t + x16 (ix1 c)) Cert.Spec.z) (Finset.sum_congr rfl fun j _ => ?_)
  rw [val_main_v77_apply, el, er]
  rfl

/-- The fourth layer of the reference is the specification's layer on its own aggregate and its own input table. -/
theorem layer4 :
    @Eq (S150000x256.Idx → EReal) (val_main_v87 (F := Ideal) x0 x1 x3 x4 x5 x6 x7 x8 x9 x10 x11 x12 x13 x14 x15 x16 x17 x18)
      (Cert.Spec.layer (val_main_v76 (F := Ideal) x0 x1 x3 x4 x5 x6 x7 x8 x9 x10 x11 x12 x13 x14) (val_main_v66 (F := Ideal) x0 x1 x3 x4 x5 x6 x7 x8 x9 x10 x11 x12 x13 x14) x15 x16 x17 x18) := by
  funext i
  have el : ∀ k : Fin 256, lidx_main_v83 i k = ix2 (⟨(i 0).val, (i 0).isLt⟩ : Fin 150000) k :=
    fun k => funext fun a => by match a with | ⟨0, _⟩ => rfl | ⟨1, _⟩ => rfl
  have er : ∀ k : Fin 256, ridx_main_v83 i k = ix2 k (⟨(i 1).val, (i 1).isLt⟩ : Fin 256) :=
    fun k => funext fun a => by match a with | ⟨0, _⟩ => rfl | ⟨1, _⟩ => rfl
  have eb : idx_main_v84 (idx_main_v85 i) = ix1 (⟨(i 1).val, (i 1).isLt⟩ : Fin 256) :=
    funext fun a => by match a with | ⟨0, _⟩ => rfl
  rw [val_main_v87_apply, val_main_v86_apply, val_main_v83_apply, val_main_v85_apply, val_main_v84_apply,
    val_main_call7_v0_apply, val_main_call7_cst_apply, eb]
  unfold Cert.Spec.layer Cert.Spec.mlpAt
  show max ((∑ k : Fin 256, _) + _) _ = max ((∑ k : Fin 256, _) + _) _
  refine congrArg₂ max (congrArg₂ (· + ·) (Finset.sum_congr rfl fun k _ => ?_) rfl) rfl
  rw [el, er, hidden4]

/-! ### The read-out head -/

/-- The inner half of the head at pooled row `n`, channel `c`: the pooled row against column `c` of the first weight
    matrix, plus the first bias, rectified. The pooled table stays the opaque quotient it is. -/
theorem hiddenHead (n : Fin 6000) (c : Fin 128) :
    val_main_v104 (F := Ideal) x0 x1 x2 x3 x4 x5 x6 x7 x8 x9 x10 x11 x12 x13 x14 x15 x16 x17 x18 x19 x20 (ix2 n c) =
      max ((∑ j : Fin 256, val_main_v99 (F := Ideal) x0 x1 x2 x3 x4 x5 x6 x7 x8 x9 x10 x11 x12 x13 x14 x15 x16 x17 x18 (ix2 n j) * x19 (ix2 j c)) + x20 (ix1 c)) Cert.Spec.z := by
  have el : ∀ j : Fin 256, lidx_main_v100 (ix2 n c) j = ix2 n j :=
    fun j => funext fun a => by match a with | ⟨0, _⟩ => rfl | ⟨1, _⟩ => rfl
  have er : ∀ j : Fin 256, ridx_main_v100 (ix2 n c) j = ix2 j c :=
    fun j => funext fun a => by match a with | ⟨0, _⟩ => rfl | ⟨1, _⟩ => rfl
  have eb : idx_main_v101 (idx_main_v102 (ix2 n c)) = ix1 c :=
    funext fun a => by match a with | ⟨0, _⟩ => rfl
  rw [val_main_v104_apply, val_main_v103_apply, val_main_v100_apply, val_main_v102_apply, val_main_v101_apply,
    val_main_call8_v0_apply, val_main_call8_cst_apply, eb]
  refine congrArg (fun t => max (t + x20 (ix1 c)) Cert.Spec.z) (Finset.sum_congr rfl fun j _ => ?_)
  rw [el, er]

/-- The head of the reference is the specification's head on its own pooled table. -/
theorem headR :
    @Eq (S6000x3.Idx → EReal) (val_main_v108 (F := Ideal) x0 x1 x2 x3 x4 x5 x6 x7 x8 x9 x10 x11 x12 x13 x14 x15 x16 x17 x18 x19 x20 x21 x22)
      (Cert.Spec.head (val_main_v99 (F := Ideal) x0 x1 x2 x3 x4 x5 x6 x7 x8 x9 x10 x11 x12 x13 x14 x15 x16 x17 x18) x19 x20 x21 x22) := by
  funext i
  have el : ∀ k : Fin 128, lidx_main_v105 i k = ix2 (⟨(i 0).val, (i 0).isLt⟩ : Fin 6000) k :=
    fun k => funext fun a => by match a with | ⟨0, _⟩ => rfl | ⟨1, _⟩ => rfl
  have er : ∀ k : Fin 128, ridx_main_v105 i k = ix2 k (⟨(i 1).val, (i 1).isLt⟩ : Fin 3) :=
    fun k => funext fun a => by match a with | ⟨0, _⟩ => rfl | ⟨1, _⟩ => rfl
  have eb : idx_main_v106 (idx_main_v107 i) = ix1 (⟨(i 1).val, (i 1).isLt⟩ : Fin 3) :=
    funext fun a => by match a with | ⟨0, _⟩ => rfl
  rw [val_main_v108_apply, val_main_v105_apply, val_main_v107_apply, val_main_v106_apply, eb]
  unfold Cert.Spec.head Cert.Spec.headAt
  show (∑ k : Fin 128, _) + _ = (∑ k : Fin 128, _) + _
  refine congrArg₂ (· + ·) (Finset.sum_congr rfl fun k _ => ?_) rfl
  rw [el, er, hiddenHead]

end Cert.RefLayers

end
-- ==== Proof.Glue.lean ====
/-
  The host operations between the kernel regions, read as values.

  Each stretch of host operations is a straight line of pure array operations; run from any buffer contents it
  leaves each buffer it writes at its operation's value of the operands and every other buffer untouched.  The
  neighbourhood aggregation (a gather of rows by the edges' sources and a scatter-add into the edges' targets) and the
  mean pooling are the same operations, with the same dimension records, as the reference applies, so they are named
  here by the reference's own stage functions of the program's arguments and never opened.  A bias enters a kernel
  as a one-row table; read back as a vector it is the bias.
-/
import proofs.«167325_j82927228551355_1_alg».proof.Proof.Gen.KernelIdeal.Launch
import proofs.«167325_j82927228551355_1_alg».proof.Proof.Gen.ReferenceIdeal.Read
import proofs.«167325_j82927228551355_1_alg».proof.Proof.Spec
import Idealize.ShloMosaic.PureOps.Ideal
import Idealize.ShloMosaic.Lib.StableHlo.Run
import Idealize.ShloMosaic.Lib.Pipeline.Value

set_option maxRecDepth 16384

noncomputable section

namespace Cert.Glue

open Cert.KernelIdeal Cert.KernelIdeal.Gen
open Idealize.ShloMosaic Idealize.ShloMosaic.TcCoe Idealize.ShloMosaic.StableHlo Idealize.ShloMosaic.ValueIdx
open Idealize.SL Idealize.SL.Sem

/-- Reshaping a vector of `n` entries to a one-row table and reading the row back gives the vector. -/
theorem row_reshape {n : Nat} (v : (⟨1, ![n]⟩ : Shape).Idx → EReal) (h : (⟨1, ![n]⟩ : Shape).ShapeCasts ⟨2, ![1, n]⟩) :
    Cert.Spec.row (shapeCast ⟨2, ![1, n]⟩ v h) = v := by
  funext j
  unfold Cert.Spec.row
  refine (shapeCast_addUnit_apply ![n] v h _).trans (congrArg v ?_)
  funext a
  match a with
  | ⟨0, _⟩ => rfl

variable (m : (ℓ : Loc nD τ sig) → Buf (Elt Ideal) ℓ) (c : Dev nD) (Wv : Valuation τ sig (Elt Ideal))

/-! ## The first stretch: from the launch contents -/

/-- The first layer's aggregate is the reference's, of the same node features and edge list. -/
theorem s0_agg : StableHlo.after (hostOps0 (F := Ideal)) Wv (Proc.devRef .tc main_v13)
    = Cert.ReferenceIdeal.Read.val_main_v13 (F := Ideal) (Wv (Proc.devRef .tc main_arg0)) (Wv (Proc.devRef .tc main_arg1)) := by
  simp only [hostOps0]; after_results_simp; rfl
/-- The edges' sources, as the reference slices them out of the edge list. -/
theorem s0_src : StableHlo.after (hostOps0 (F := Ideal)) Wv (Proc.devRef .tc main_v1)
    = Cert.ReferenceIdeal.Read.val_main_v1 (F := Ideal) (Wv (Proc.devRef .tc main_arg1)) := by
  simp only [hostOps0]; after_results_simp; rfl
/-- The edges' targets. -/
theorem s0_dst : StableHlo.after (hostOps0 (F := Ideal)) Wv (Proc.devRef .tc main_v3)
    = Cert.ReferenceIdeal.Read.val_main_v3 (F := Ideal) (Wv (Proc.devRef .tc main_arg1)) := by
  simp only [hostOps0]; after_results_simp; rfl
theorem s0_b1 : @Eq ((⟨1, ![256]⟩ : Shape).Idx → EReal) (Cert.Spec.row (StableHlo.after (hostOps0 (F := Ideal)) Wv (Proc.devRef .tc main_v14))) (Wv (Proc.devRef .tc main_arg4)) := by
  simp only [hostOps0]; after_results_simp; exact row_reshape _ _
theorem s0_b2 : @Eq ((⟨1, ![256]⟩ : Shape).Idx → EReal) (Cert.Spec.row (StableHlo.after (hostOps0 (F := Ideal)) Wv (Proc.devRef .tc main_v15))) (Wv (Proc.devRef .tc main_arg6)) := by
  simp only [hostOps0]; after_results_simp; exact row_reshape _ _
theorem s0_keep_arg0 : StableHlo.after (hostOps0 (F := Ideal)) Wv (Proc.devRef .tc main_arg0) = Wv (Proc.devRef .tc main_arg0) := by
  simp only [hostOps0]; after_results_simp
theorem s0_keep_arg3 : StableHlo.after (hostOps0 (F := Ideal)) Wv (Proc.devRef .tc main_arg3) = Wv (Proc.devRef .tc main_arg3) := by
  simp only [hostOps0]; after_results_simp
theorem s0_keep_arg5 : StableHlo.after (hostOps0 (F := Ideal)) Wv (Proc.devRef .tc main_arg5) = Wv (Proc.devRef .tc main_arg5) := by
  simp only [hostOps0]; after_results_simp
theorem s0_keep_arg2 : StableHlo.after (hostOps0 (F := Ideal)) Wv (Proc.devRef .tc main_arg2) = Wv (Proc.devRef .tc main_arg2) := by
  simp only [hostOps0]; after_results_simp
theorem s0_keep_arg7 : StableHlo.after (hostOps0 (F := Ideal)) Wv (Proc.devRef .tc main_arg7) = Wv (Proc.devRef .tc main_arg7) := by
  simp only [hostOps0]; after_results_simp
theorem s0_keep_arg8 : StableHlo.after (hostOps0 (F := Ideal)) Wv (Proc.devRef .tc main_arg8) = Wv (Proc.devRef .tc main_arg8) := by
  simp only [hostOps0]; after_results_simp
theorem s0_keep_arg9 : StableHlo.after (hostOps0 (F := Ideal)) Wv (Proc.devRef .tc main_arg9) = Wv (Proc.devRef .tc main_arg9) := by
  simp only [hostOps0]; after_results_simp
theorem s0_keep_arg10 : StableHlo.after (hostOps0 (F := Ideal)) Wv (Proc.devRef .tc main_arg10) = Wv (Proc.devRef .tc main_arg10) := by
  simp only [hostOps0]; after_results_simp
theorem s0_keep_arg11 : StableHlo.after (hostOps0 (F := Ideal)) Wv (Proc.devRef .tc main_arg11) = Wv (Proc.devRef .tc main_arg11) := by
  simp only [hostOps0]; after_results_simp
theorem s0_keep_arg12 : StableHlo.after (hostOps0 (F := Ideal)) Wv (Proc.devRef .tc main_arg12) = Wv (Proc.devRef .tc main_arg12) := by
  simp only [hostOps0]; after_results_simp
theorem s0_keep_arg13 : StableHlo.after (hostOps0 (F := Ideal)) Wv (Proc.devRef .tc main_arg13) = Wv (Proc.devRef .tc main_arg13) := by
  simp only [hostOps0]; after_results_simp
theorem s0_keep_arg14 : StableHlo.after (hostOps0 (F := Ideal)) Wv (Proc.devRef .tc main_arg14) = Wv (Proc.devRef .tc main_arg14) := by
  simp only [hostOps0]; after_results_simp
theorem s0_keep_arg15 : StableHlo.after (hostOps0 (F := Ideal)) Wv (Proc.devRef .tc main_arg15) = Wv (Proc.devRef .tc main_arg15) := by
  simp only [hostOps0]; after_results_simp
theorem s0_keep_arg16 : StableHlo.after (hostOps0 (F := Ideal)) Wv (Proc.devRef .tc main_arg16) = Wv (Proc.devRef .tc main_arg16) := by
  simp only [hostOps0]; after_results_simp
theorem s0_keep_arg17 : StableHlo.after (hostOps0 (F := Ideal)) Wv (Proc.devRef .tc main_arg17) = Wv (Proc.devRef .tc main_arg17) := by
  simp only [hostOps0]; after_results_simp
theorem s0_keep_arg18 : StableHlo.after (hostOps0 (F := Ideal)) Wv (Proc.devRef .tc main_arg18) = Wv (Proc.devRef .tc main_arg18) := by
  simp only [hostOps0]; after_results_simp
theorem s0_keep_arg19 : StableHlo.after (hostOps0 (F := Ideal)) Wv (Proc.devRef .tc main_arg19) = Wv (Proc.devRef .tc main_arg19) := by
  simp only [hostOps0]; after_results_simp
theorem s0_keep_arg20 : StableHlo.after (hostOps0 (F := Ideal)) Wv (Proc.devRef .tc main_arg20) = Wv (Proc.devRef .tc main_arg20) := by
  simp only [hostOps0]; after_results_simp
theorem s0_keep_arg21 : StableHlo.after (hostOps0 (F := Ideal)) Wv (Proc.devRef .tc main_arg21) = Wv (Proc.devRef .tc main_arg21) := by
  simp only [hostOps0]; after_results_simp
theorem s0_keep_arg22 : StableHlo.after (hostOps0 (F := Ideal)) Wv (Proc.devRef .tc main_arg22) = Wv (Proc.devRef .tc main_arg22) := by
  simp only [hostOps0]; after_results_simp

/-! ## The second stretch -/

/-- Layer 2's aggregate is the reference's, once the previous layer's output and the edges' endpoints are the reference's. -/
theorem s1_agg
    (hout : Wv (Proc.devRef .tc main_v16) = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
    (hsrc : Wv (Proc.devRef .tc main_v1) = Cert.ReferenceIdeal.Read.val_main_v1 (F := Ideal) (m ((c : Thread nD τ).loc main_arg1)))
    (hdst : Wv (Proc.devRef .tc main_v3) = Cert.ReferenceIdeal.Read.val_main_v3 (F := Ideal) (m ((c : Thread nD τ).loc main_arg1))) :
    StableHlo.after (hostOps1 (F := Ideal)) Wv (Proc.devRef .tc main_v26)
      = Cert.ReferenceIdeal.Read.val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  simp only [hostOps1]; after_results_simp; rw [hout, hsrc, hdst]; rfl
theorem s1_b1 : @Eq ((⟨1, ![256]⟩ : Shape).Idx → EReal) (Cert.Spec.row (StableHlo.after (hostOps1 (F := Ideal)) Wv (Proc.devRef .tc main_v27))) (Wv (Proc.devRef .tc main_arg8)) := by
  simp only [hostOps1]; after_results_simp; exact row_reshape _ _
theorem s1_b2 : @Eq ((⟨1, ![256]⟩ : Shape).Idx → EReal) (Cert.Spec.row (StableHlo.after (hostOps1 (F := Ideal)) Wv (Proc.devRef .tc main_v28))) (Wv (Proc.devRef .tc main_arg10)) := by
  simp only [hostOps1]; after_results_simp; exact row_reshape _ _
theorem s1_keep_v16 : StableHlo.after (hostOps1 (F := Ideal)) Wv (Proc.devRef .tc main_v16) = Wv (Proc.devRef .tc main_v16) := by
  simp only [hostOps1]; after_results_simp
theorem s1_keep_v1 : StableHlo.after (hostOps1 (F := Ideal)) Wv (Proc.devRef .tc main_v1) = Wv (Proc.devRef .tc main_v1) := by
  simp only [hostOps1]; after_results_simp
theorem s1_keep_v3 : StableHlo.after (hostOps1 (F := Ideal)) Wv (Proc.devRef .tc main_v3) = Wv (Proc.devRef .tc main_v3) := by
  simp only [hostOps1]; after_results_simp
theorem s1_keep_arg7 : StableHlo.after (hostOps1 (F := Ideal)) Wv (Proc.devRef .tc main_arg7) = Wv (Proc.devRef .tc main_arg7) := by
  simp only [hostOps1]; after_results_simp
theorem s1_keep_arg9 : StableHlo.after (hostOps1 (F := Ideal)) Wv (Proc.devRef .tc main_arg9) = Wv (Proc.devRef .tc main_arg9) := by
  simp only [hostOps1]; after_results_simp
theorem s1_keep_arg2 : StableHlo.after (hostOps1 (F := Ideal)) Wv (Proc.devRef .tc main_arg2) = Wv (Proc.devRef .tc main_arg2) := by
  simp only [hostOps1]; after_results_simp
theorem s1_keep_arg11 : StableHlo.after (hostOps1 (F := Ideal)) Wv (Proc.devRef .tc main_arg11) = Wv (Proc.devRef .tc main_arg11) := by
  simp only [hostOps1]; after_results_simp
theorem s1_keep_arg12 : StableHlo.after (hostOps1 (F := Ideal)) Wv (Proc.devRef .tc main_arg12) = Wv (Proc.devRef .tc main_arg12) := by
  simp only [hostOps1]; after_results_simp
theorem s1_keep_arg13 : StableHlo.after (hostOps1 (F := Ideal)) Wv (Proc.devRef .tc main_arg13) = Wv (Proc.devRef .tc main_arg13) := by
  simp only [hostOps1]; after_results_simp
theorem s1_keep_arg14 : StableHlo.after (hostOps1 (F := Ideal)) Wv (Proc.devRef .tc main_arg14) = Wv (Proc.devRef .tc main_arg14) := by
  simp only [hostOps1]; after_results_simp
theorem s1_keep_arg15 : StableHlo.after (hostOps1 (F := Ideal)) Wv (Proc.devRef .tc main_arg15) = Wv (Proc.devRef .tc main_arg15) := by
  simp only [hostOps1]; after_results_simp
theorem s1_keep_arg16 : StableHlo.after (hostOps1 (F := Ideal)) Wv (Proc.devRef .tc main_arg16) = Wv (Proc.devRef .tc main_arg16) := by
  simp only [hostOps1]; after_results_simp
theorem s1_keep_arg17 : StableHlo.after (hostOps1 (F := Ideal)) Wv (Proc.devRef .tc main_arg17) = Wv (Proc.devRef .tc main_arg17) := by
  simp only [hostOps1]; after_results_simp
theorem s1_keep_arg18 : StableHlo.after (hostOps1 (F := Ideal)) Wv (Proc.devRef .tc main_arg18) = Wv (Proc.devRef .tc main_arg18) := by
  simp only [hostOps1]; after_results_simp
theorem s1_keep_arg19 : StableHlo.after (hostOps1 (F := Ideal)) Wv (Proc.devRef .tc main_arg19) = Wv (Proc.devRef .tc main_arg19) := by
  simp only [hostOps1]; after_results_simp
theorem s1_keep_arg20 : StableHlo.after (hostOps1 (F := Ideal)) Wv (Proc.devRef .tc main_arg20) = Wv (Proc.devRef .tc main_arg20) := by
  simp only [hostOps1]; after_results_simp
theorem s1_keep_arg21 : StableHlo.after (hostOps1 (F := Ideal)) Wv (Proc.devRef .tc main_arg21) = Wv (Proc.devRef .tc main_arg21) := by
  simp only [hostOps1]; after_results_simp
theorem s1_keep_arg22 : StableHlo.after (hostOps1 (F := Ideal)) Wv (Proc.devRef .tc main_arg22) = Wv (Proc.devRef .tc main_arg22) := by
  simp only [hostOps1]; after_results_simp

/-! ## The third stretch -/

/-- Layer 3's aggregate is the reference's, once the previous layer's output and the edges' endpoints are the reference's. -/
theorem s2_agg
    (hout : Wv (Proc.devRef .tc main_v29) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (hsrc : Wv (Proc.devRef .tc main_v1) = Cert.ReferenceIdeal.Read.val_main_v1 (F := Ideal) (m ((c : Thread nD τ).loc main_arg1)))
    (hdst : Wv (Proc.devRef .tc main_v3) = Cert.ReferenceIdeal.Read.val_main_v3 (F := Ideal) (m ((c : Thread nD τ).loc main_arg1))) :
    StableHlo.after (hostOps2 (F := Ideal)) Wv (Proc.devRef .tc main_v39)
      = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  simp only [hostOps2]; after_results_simp; rw [hout, hsrc, hdst]; rfl
theorem s2_b1 : @Eq ((⟨1, ![256]⟩ : Shape).Idx → EReal) (Cert.Spec.row (StableHlo.after (hostOps2 (F := Ideal)) Wv (Proc.devRef .tc main_v40))) (Wv (Proc.devRef .tc main_arg12)) := by
  simp only [hostOps2]; after_results_simp; exact row_reshape _ _
theorem s2_b2 : @Eq ((⟨1, ![256]⟩ : Shape).Idx → EReal) (Cert.Spec.row (StableHlo.after (hostOps2 (F := Ideal)) Wv (Proc.devRef .tc main_v41))) (Wv (Proc.devRef .tc main_arg14)) := by
  simp only [hostOps2]; after_results_simp; exact row_reshape _ _
theorem s2_keep_v29 : StableHlo.after (hostOps2 (F := Ideal)) Wv (Proc.devRef .tc main_v29) = Wv (Proc.devRef .tc main_v29) := by
  simp only [hostOps2]; after_results_simp
theorem s2_keep_v1 : StableHlo.after (hostOps2 (F := Ideal)) Wv (Proc.devRef .tc main_v1) = Wv (Proc.devRef .tc main_v1) := by
  simp only [hostOps2]; after_results_simp
theorem s2_keep_v3 : StableHlo.after (hostOps2 (F := Ideal)) Wv (Proc.devRef .tc main_v3) = Wv (Proc.devRef .tc main_v3) := by
  simp only [hostOps2]; after_results_simp
theorem s2_keep_arg11 : StableHlo.after (hostOps2 (F := Ideal)) Wv (Proc.devRef .tc main_arg11) = Wv (Proc.devRef .tc main_arg11) := by
  simp only [hostOps2]; after_results_simp
theorem s2_keep_arg13 : StableHlo.after (hostOps2 (F := Ideal)) Wv (Proc.devRef .tc main_arg13) = Wv (Proc.devRef .tc main_arg13) := by
  simp only [hostOps2]; after_results_simp
theorem s2_keep_arg2 : StableHlo.after (hostOps2 (F := Ideal)) Wv (Proc.devRef .tc main_arg2) = Wv (Proc.devRef .tc main_arg2) := by
  simp only [hostOps2]; after_results_simp
theorem s2_keep_arg15 : StableHlo.after (hostOps2 (F := Ideal)) Wv (Proc.devRef .tc main_arg15) = Wv (Proc.devRef .tc main_arg15) := by
  simp only [hostOps2]; after_results_simp
theorem s2_keep_arg16 : StableHlo.after (hostOps2 (F := Ideal)) Wv (Proc.devRef .tc main_arg16) = Wv (Proc.devRef .tc main_arg16) := by
  simp only [hostOps2]; after_results_simp
theorem s2_keep_arg17 : StableHlo.after (hostOps2 (F := Ideal)) Wv (Proc.devRef .tc main_arg17) = Wv (Proc.devRef .tc main_arg17) := by
  simp only [hostOps2]; after_results_simp
theorem s2_keep_arg18 : StableHlo.after (hostOps2 (F := Ideal)) Wv (Proc.devRef .tc main_arg18) = Wv (Proc.devRef .tc main_arg18) := by
  simp only [hostOps2]; after_results_simp
theorem s2_keep_arg19 : StableHlo.after (hostOps2 (F := Ideal)) Wv (Proc.devRef .tc main_arg19) = Wv (Proc.devRef .tc main_arg19) := by
  simp only [hostOps2]; after_results_simp
theorem s2_keep_arg20 : StableHlo.after (hostOps2 (F := Ideal)) Wv (Proc.devRef .tc main_arg20) = Wv (Proc.devRef .tc main_arg20) := by
  simp only [hostOps2]; after_results_simp
theorem s2_keep_arg21 : StableHlo.after (hostOps2 (F := Ideal)) Wv (Proc.devRef .tc main_arg21) = Wv (Proc.devRef .tc main_arg21) := by
  simp only [hostOps2]; after_results_simp
theorem s2_keep_arg22 : StableHlo.after (hostOps2 (F := Ideal)) Wv (Proc.devRef .tc main_arg22) = Wv (Proc.devRef .tc main_arg22) := by
  simp only [hostOps2]; after_results_simp

/-! ## The fourth stretch -/

/-- Layer 4's aggregate is the reference's, once the previous layer's output and the edges' endpoints are the reference's. -/
theorem s3_agg
    (hout : Wv (Proc.devRef .tc main_v42) = Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (hsrc : Wv (Proc.devRef .tc main_v1) = Cert.ReferenceIdeal.Read.val_main_v1 (F := Ideal) (m ((c : Thread nD τ).loc main_arg1)))
    (hdst : Wv (Proc.devRef .tc main_v3) = Cert.ReferenceIdeal.Read.val_main_v3 (F := Ideal) (m ((c : Thread nD τ).loc main_arg1))) :
    StableHlo.after (hostOps3 (F := Ideal)) Wv (Proc.devRef .tc main_v52)
      = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  simp only [hostOps3]; after_results_simp; rw [hout, hsrc, hdst]; rfl
theorem s3_b1 : @Eq ((⟨1, ![256]⟩ : Shape).Idx → EReal) (Cert.Spec.row (StableHlo.after (hostOps3 (F := Ideal)) Wv (Proc.devRef .tc main_v53))) (Wv (Proc.devRef .tc main_arg16)) := by
  simp only [hostOps3]; after_results_simp; exact row_reshape _ _
theorem s3_b2 : @Eq ((⟨1, ![256]⟩ : Shape).Idx → EReal) (Cert.Spec.row (StableHlo.after (hostOps3 (F := Ideal)) Wv (Proc.devRef .tc main_v54))) (Wv (Proc.devRef .tc main_arg18)) := by
  simp only [hostOps3]; after_results_simp; exact row_reshape _ _
theorem s3_keep_v42 : StableHlo.after (hostOps3 (F := Ideal)) Wv (Proc.devRef .tc main_v42) = Wv (Proc.devRef .tc main_v42) := by
  simp only [hostOps3]; after_results_simp
theorem s3_keep_arg15 : StableHlo.after (hostOps3 (F := Ideal)) Wv (Proc.devRef .tc main_arg15) = Wv (Proc.devRef .tc main_arg15) := by
  simp only [hostOps3]; after_results_simp
theorem s3_keep_arg17 : StableHlo.after (hostOps3 (F := Ideal)) Wv (Proc.devRef .tc main_arg17) = Wv (Proc.devRef .tc main_arg17) := by
  simp only [hostOps3]; after_results_simp
theorem s3_keep_arg2 : StableHlo.after (hostOps3 (F := Ideal)) Wv (Proc.devRef .tc main_arg2) = Wv (Proc.devRef .tc main_arg2) := by
  simp only [hostOps3]; after_results_simp
theorem s3_keep_arg19 : StableHlo.after (hostOps3 (F := Ideal)) Wv (Proc.devRef .tc main_arg19) = Wv (Proc.devRef .tc main_arg19) := by
  simp only [hostOps3]; after_results_simp
theorem s3_keep_arg20 : StableHlo.after (hostOps3 (F := Ideal)) Wv (Proc.devRef .tc main_arg20) = Wv (Proc.devRef .tc main_arg20) := by
  simp only [hostOps3]; after_results_simp
theorem s3_keep_arg21 : StableHlo.after (hostOps3 (F := Ideal)) Wv (Proc.devRef .tc main_arg21) = Wv (Proc.devRef .tc main_arg21) := by
  simp only [hostOps3]; after_results_simp
theorem s3_keep_arg22 : StableHlo.after (hostOps3 (F := Ideal)) Wv (Proc.devRef .tc main_arg22) = Wv (Proc.devRef .tc main_arg22) := by
  simp only [hostOps3]; after_results_simp

/-! ## The last stretch: mean pooling -/

/-- The pooled table is the reference's, once the last layer's output and the graph assignment are the reference's. -/
theorem s4_pool
    (hout : Wv (Proc.devRef .tc main_v55) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)))
    (hbatch : Wv (Proc.devRef .tc main_arg2) = (m ((c : Thread nD τ).loc main_arg2))) :
    StableHlo.after (hostOps4 (F := Ideal)) Wv (Proc.devRef .tc main_v67)
      = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  simp only [hostOps4]; after_results_simp; rw [hout, hbatch]; rfl
theorem s4_b1 : @Eq ((⟨1, ![128]⟩ : Shape).Idx → EReal) (Cert.Spec.row (StableHlo.after (hostOps4 (F := Ideal)) Wv (Proc.devRef .tc main_v68))) (Wv (Proc.devRef .tc main_arg20)) := by
  simp only [hostOps4]; after_results_simp; exact row_reshape _ _
theorem s4_b2 : @Eq ((⟨1, ![3]⟩ : Shape).Idx → EReal) (Cert.Spec.row (StableHlo.after (hostOps4 (F := Ideal)) Wv (Proc.devRef .tc main_v69))) (Wv (Proc.devRef .tc main_arg22)) := by
  simp only [hostOps4]; after_results_simp; exact row_reshape _ _
theorem s4_keep_arg19 : StableHlo.after (hostOps4 (F := Ideal)) Wv (Proc.devRef .tc main_arg19) = Wv (Proc.devRef .tc main_arg19) := by
  simp only [hostOps4]; after_results_simp
theorem s4_keep_arg21 : StableHlo.after (hostOps4 (F := Ideal)) Wv (Proc.devRef .tc main_arg21) = Wv (Proc.devRef .tc main_arg21) := by
  simp only [hostOps4]; after_results_simp

end Cert.Glue

end
-- ==== Proof.KRun.lean ====
/-
  The kernel program's run with its result named.

  The program is ten segments: five stretches of host operations alternating with five kernel regions.  The buffer
  contents at each boundary are a fold from the launch memory: a stretch applies its operations, a region replaces
  its arrays by what its write-backs leave.  Every weakly fair execution ends with every unscoped buffer at the last
  boundary's contents; read at the result buffer this names the result, and read at each argument it gives the
  argument back unchanged.
-/
import proofs.«167325_j82927228551355_1_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument array ends as launched. -/
theorem run : θ_run defs (onTc (τ := τ) (main (F := F))) ⟨m, fun _ => 0, ρ⟩ (fun r => ∀ c : Dev nD,
      r.2.mem ((c.tc : Thread nD τ).loc main_v70) = W10 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c)⟩)

end Cert.KRun

end
-- ==== Proof.Walk.lean ====
/-
  The kernel program's result, followed back through its ten segments to the launch memory.

  At each boundary between segments the buffers the rest of the program still reads are named: the edges' endpoints
  as the reference slices them, the weights and biases and the graph assignment as launched, and each layer's output.
  A stretch of host operations leaves the aggregate (or the pooled table) the reference forms from the same
  operands; a kernel region leaves the layer's perceptron of its six input arrays, which is the reference's layer.
  So each layer's output is the reference's stage of the launched arguments, and so is the result.
-/
import proofs.«167325_j82927228551355_1_alg».proof.Proof.Gen.KernelIdeal.Frame
import proofs.«167325_j82927228551355_1_alg».proof.Proof.Glue

set_option maxRecDepth 16384

noncomputable section

namespace Cert.Walk

open Cert.KernelIdeal Cert.KernelIdeal.Gen
open Idealize.ShloMosaic Idealize.ShloMosaic.TcCoe Idealize.ShloMosaic.StableHlo
open Idealize.SL Idealize.SL.Sem

/-! ## What the two sides owe: a region leaves the layer of its inputs; the reference's layer is the same formula -/

def RegionOk0 : Prop := ∀ (V : (c : Dev nD) → (b : Ref sig .tc) → Buf (Elt Ideal) ((c : Thread nD τ).loc b)) (c : Dev nD),
    (dat0 (F := Ideal) V c).arrAt 6 cfg0.N = Cert.Spec.layer (V c (Pipeline.arrRef spec0 0)) (V c (Pipeline.arrRef spec0 1)) (V c (Pipeline.arrRef spec0 2)) (Cert.Spec.row (V c (Pipeline.arrRef spec0 3))) (V c (Pipeline.arrRef spec0 4)) (Cert.Spec.row (V c (Pipeline.arrRef spec0 5)))
def RegionOk1 : Prop := ∀ (V : (c : Dev nD) → (b : Ref sig .tc) → Buf (Elt Ideal) ((c : Thread nD τ).loc b)) (c : Dev nD),
    (dat1 (F := Ideal) V c).arrAt 6 cfg1.N = Cert.Spec.layer (V c (Pipeline.arrRef spec1 0)) (V c (Pipeline.arrRef spec1 1)) (V c (Pipeline.arrRef spec1 2)) (Cert.Spec.row (V c (Pipeline.arrRef spec1 3))) (V c (Pipeline.arrRef spec1 4)) (Cert.Spec.row (V c (Pipeline.arrRef spec1 5)))
def RegionOk2 : Prop := ∀ (V : (c : Dev nD) → (b : Ref sig .tc) → Buf (Elt Ideal) ((c : Thread nD τ).loc b)) (c : Dev nD),
    (dat2 (F := Ideal) V c).arrAt 6 cfg2.N = Cert.Spec.layer (V c (Pipeline.arrRef spec2 0)) (V c (Pipeline.arrRef spec2 1)) (V c (Pipeline.arrRef spec2 2)) (Cert.Spec.row (V c (Pipeline.arrRef spec2 3))) (V c (Pipeline.arrRef spec2 4)) (Cert.Spec.row (V c (Pipeline.arrRef spec2 5)))
def RegionOk3 : Prop := ∀ (V : (c : Dev nD) → (b : Ref sig .tc) → Buf (Elt Ideal) ((c : Thread nD τ).loc b)) (c : Dev nD),
    (dat3 (F := Ideal) V c).arrAt 6 cfg3.N = Cert.Spec.layer (V c (Pipeline.arrRef spec3 0)) (V c (Pipeline.arrRef spec3 1)) (V c (Pipeline.arrRef spec3 2)) (Cert.Spec.row (V c (Pipeline.arrRef spec3 3))) (V c (Pipeline.arrRef spec3 4)) (Cert.Spec.row (V c (Pipeline.arrRef spec3 5)))
def RegionOk4 : Prop := ∀ (V : (c : Dev nD) → (b : Ref sig .tc) → Buf (Elt Ideal) ((c : Thread nD τ).loc b)) (c : Dev nD),
    (dat4 (F := Ideal) V c).arrAt 5 cfg4.N = Cert.Spec.head (V c (Pipeline.arrRef spec4 0)) (V c (Pipeline.arrRef spec4 1)) (Cert.Spec.row (V c (Pipeline.arrRef spec4 2))) (V c (Pipeline.arrRef spec4 3)) (Cert.Spec.row (V c (Pipeline.arrRef spec4 4)))

def LayerOk1 : Prop := ∀ (x0 : (⟨Cert.ReferenceIdeal.S150000x7, .f32⟩ : BufTy).Contents (Elt Ideal)) (x1 : (⟨Cert.ReferenceIdeal.S2x300000, .i32⟩ : BufTy).Contents (Elt Ideal)) (x3 : (⟨Cert.ReferenceIdeal.S7x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)),
    @Eq (Cert.ReferenceIdeal.S150000x256.Idx → EReal) (Cert.ReferenceIdeal.Read.val_main_v24 (F := Ideal) x0 x1 x3 x4 x5 x6)
      (Cert.Spec.layer (Cert.ReferenceIdeal.Read.val_main_v13 (F := Ideal) x0 x1) x0 x3 x4 x5 x6)
def LayerOk2 : Prop := ∀ (x0 : (⟨Cert.ReferenceIdeal.S150000x7, .f32⟩ : BufTy).Contents (Elt Ideal)) (x1 : (⟨Cert.ReferenceIdeal.S2x300000, .i32⟩ : BufTy).Contents (Elt Ideal)) (x3 : (⟨Cert.ReferenceIdeal.S7x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)),
    @Eq (Cert.ReferenceIdeal.S150000x256.Idx → EReal) (Cert.ReferenceIdeal.Read.val_main_v45 (F := Ideal) x0 x1 x3 x4 x5 x6 x7 x8 x9 x10)
      (Cert.Spec.layer (Cert.ReferenceIdeal.Read.val_main_v34 (F := Ideal) x0 x1 x3 x4 x5 x6) (Cert.ReferenceIdeal.Read.val_main_v24 (F := Ideal) x0 x1 x3 x4 x5 x6) x7 x8 x9 x10)
def LayerOk3 : Prop := ∀ (x0 : (⟨Cert.ReferenceIdeal.S150000x7, .f32⟩ : BufTy).Contents (Elt Ideal)) (x1 : (⟨Cert.ReferenceIdeal.S2x300000, .i32⟩ : BufTy).Contents (Elt Ideal)) (x3 : (⟨Cert.ReferenceIdeal.S7x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)),
    @Eq (Cert.ReferenceIdeal.S150000x256.Idx → EReal) (Cert.ReferenceIdeal.Read.val_main_v66 (F := Ideal) x0 x1 x3 x4 x5 x6 x7 x8 x9 x10 x11 x12 x13 x14)
      (Cert.Spec.layer (Cert.ReferenceIdeal.Read.val_main_v55 (F := Ideal) x0 x1 x3 x4 x5 x6 x7 x8 x9 x10) (Cert.ReferenceIdeal.Read.val_main_v45 (F := Ideal) x0 x1 x3 x4 x5 x6 x7 x8 x9 x10) x11 x12 x13 x14)
def LayerOk4 : Prop := ∀ (x0 : (⟨Cert.ReferenceIdeal.S150000x7, .f32⟩ : BufTy).Contents (Elt Ideal)) (x1 : (⟨Cert.ReferenceIdeal.S2x300000, .i32⟩ : BufTy).Contents (Elt Ideal)) (x3 : (⟨Cert.ReferenceIdeal.S7x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x256, .f32⟩ : BufTy).Contents (Elt Ideal)) (x16 : (⟨Cert.ReferenceIdeal.S256, .f32⟩ : BufTy).Contents (Elt Ideal)) (x17 : (⟨Cert.ReferenceIdeal.S256x256, .f32⟩ : BufTy).Contents (Elt Ideal)) (x18 : (⟨Cert.ReferenceIdeal.S256, .f32⟩ : BufTy).Contents (Elt Ideal)),
    @Eq (Cert.ReferenceIdeal.S150000x256.Idx → EReal) (Cert.ReferenceIdeal.Read.val_main_v87 (F := Ideal) x0 x1 x3 x4 x5 x6 x7 x8 x9 x10 x11 x12 x13 x14 x15 x16 x17 x18)
      (Cert.Spec.layer (Cert.ReferenceIdeal.Read.val_main_v76 (F := Ideal) x0 x1 x3 x4 x5 x6 x7 x8 x9 x10 x11 x12 x13 x14) (Cert.ReferenceIdeal.Read.val_main_v66 (F := Ideal) x0 x1 x3 x4 x5 x6 x7 x8 x9 x10 x11 x12 x13 x14) x15 x16 x17 x18)
def HeadOk : Prop := ∀ (x0 : (⟨Cert.ReferenceIdeal.S150000x7, .f32⟩ : BufTy).Contents (Elt Ideal)) (x1 : (⟨Cert.ReferenceIdeal.S2x300000, .i32⟩ : BufTy).Contents (Elt Ideal)) (x2 : (⟨Cert.ReferenceIdeal.S150000, .i32⟩ : BufTy).Contents (Elt Ideal)) (x3 : (⟨Cert.ReferenceIdeal.S7x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S256, .f32⟩ : BufTy).Contents (Elt Ideal)) (x13 : (⟨Cert.ReferenceIdeal.S256x256, .f32⟩ : BufTy).Contents (Elt Ideal)) (x14 : (⟨Cert.ReferenceIdeal.S256, .f32⟩ : BufTy).Contents (Elt Ideal)) (x15 : (⟨Cert.ReferenceIdeal.S256x256, .f32⟩ : BufTy).Contents (Elt Ideal)) (x16 : (⟨Cert.ReferenceIdeal.S256, .f32⟩ : BufTy).Contents (Elt Ideal)) (x17 : (⟨Cert.ReferenceIdeal.S256x256, .f32⟩ : BufTy).Contents (Elt Ideal)) (x18 : (⟨Cert.ReferenceIdeal.S256, .f32⟩ : BufTy).Contents (Elt Ideal)) (x19 : (⟨Cert.ReferenceIdeal.S256x128, .f32⟩ : BufTy).Contents (Elt Ideal)) (x20 : (⟨Cert.ReferenceIdeal.S128, .f32⟩ : BufTy).Contents (Elt Ideal)) (x21 : (⟨Cert.ReferenceIdeal.S128x3, .f32⟩ : BufTy).Contents (Elt Ideal)) (x22 : (⟨Cert.ReferenceIdeal.S3, .f32⟩ : BufTy).Contents (Elt Ideal)),
    @Eq (Cert.ReferenceIdeal.S6000x3.Idx → EReal) (Cert.ReferenceIdeal.Read.val_main_v108 (F := Ideal) x0 x1 x2 x3 x4 x5 x6 x7 x8 x9 x10 x11 x12 x13 x14 x15 x16 x17 x18 x19 x20 x21 x22)
      (Cert.Spec.head (Cert.ReferenceIdeal.Read.val_main_v99 (F := Ideal) x0 x1 x2 x3 x4 x5 x6 x7 x8 x9 x10 x11 x12 x13 x14 x15 x16 x17 x18) x19 x20 x21 x22)

/-- Equal inputs give equal layers. -/
theorem layer_congr {D : Nat} {a a' x x' : (⟨2, ![150000, D]⟩ : Shape).Idx → EReal} {Wa Wa' : (⟨2, ![D, 256]⟩ : Shape).Idx → EReal}
    {ba ba' bb bb' : (⟨1, ![256]⟩ : Shape).Idx → EReal} {Wb Wb' : (⟨2, ![256, 256]⟩ : Shape).Idx → EReal}
    (h0 : a = a') (h1 : x = x') (h2 : Wa = Wa') (h3 : ba = ba') (h4 : Wb = Wb') (h5 : bb = bb') :
    Cert.Spec.layer a x Wa ba Wb bb = Cert.Spec.layer a' x' Wa' ba' Wb' bb' := by
  subst h0 h1 h2 h3 h4 h5; rfl

/-- Equal inputs give equal read-outs. -/
theorem head_congr {p p' : (⟨2, ![6000, 256]⟩ : Shape).Idx → EReal} {W1 W1' : (⟨2, ![256, 128]⟩ : Shape).Idx → EReal}
    {b1 b1' : (⟨1, ![128]⟩ : Shape).Idx → EReal} {W2 W2' : (⟨2, ![128, 3]⟩ : Shape).Idx → EReal} {b2 b2' : (⟨1, ![3]⟩ : Shape).Idx → EReal}
    (h0 : p = p') (h1 : W1 = W1') (h2 : b1 = b1') (h3 : W2 = W2') (h4 : b2 = b2') :
    Cert.Spec.head p W1 b1 W2 b2 = Cert.Spec.head p' W1' b1' W2' b2' := by
  subst h0 h1 h2 h3 h4; rfl

variable (m : (ℓ : Loc nD τ sig) → Buf (Elt Ideal) ℓ) (ρ : Dev nD → PrngReg) (c : Dev nD)

/-! ## The buffers the later segments read, boundary by boundary -/

theorem B1_v1 : W1 m ρ c (Proc.devRef .tc main_v1) = Cert.ReferenceIdeal.Read.val_main_v1 (F := Ideal) (m ((c : Thread nD τ).loc main_arg1)) := Glue.s0_src (W0 m ρ c)
theorem B1_v3 : W1 m ρ c (Proc.devRef .tc main_v3) = Cert.ReferenceIdeal.Read.val_main_v3 (F := Ideal) (m ((c : Thread nD τ).loc main_arg1)) := Glue.s0_dst (W0 m ρ c)
theorem B1_arg2 : W1 m ρ c (Proc.devRef .tc main_arg2) = (m ((c : Thread nD τ).loc main_arg2)) := Glue.s0_keep_arg2 (W0 m ρ c)
theorem B1_arg7 : W1 m ρ c (Proc.devRef .tc main_arg7) = (m ((c : Thread nD τ).loc main_arg7)) := Glue.s0_keep_arg7 (W0 m ρ c)
theorem B1_arg8 : W1 m ρ c (Proc.devRef .tc main_arg8) = (m ((c : Thread nD τ).loc main_arg8)) := Glue.s0_keep_arg8 (W0 m ρ c)
theorem B1_arg9 : W1 m ρ c (Proc.devRef .tc main_arg9) = (m ((c : Thread nD τ).loc main_arg9)) := Glue.s0_keep_arg9 (W0 m ρ c)
theorem B1_arg10 : W1 m ρ c (Proc.devRef .tc main_arg10) = (m ((c : Thread nD τ).loc main_arg10)) := Glue.s0_keep_arg10 (W0 m ρ c)
theorem B1_arg11 : W1 m ρ c (Proc.devRef .tc main_arg11) = (m ((c : Thread nD τ).loc main_arg11)) := Glue.s0_keep_arg11 (W0 m ρ c)
theorem B1_arg12 : W1 m ρ c (Proc.devRef .tc main_arg12) = (m ((c : Thread nD τ).loc main_arg12)) := Glue.s0_keep_arg12 (W0 m ρ c)
theorem B1_arg13 : W1 m ρ c (Proc.devRef .tc main_arg13) = (m ((c : Thread nD τ).loc main_arg13)) := Glue.s0_keep_arg13 (W0 m ρ c)
theorem B1_arg14 : W1 m ρ c (Proc.devRef .tc main_arg14) = (m ((c : Thread nD τ).loc main_arg14)) := Glue.s0_keep_arg14 (W0 m ρ c)
theorem B1_arg15 : W1 m ρ c (Proc.devRef .tc main_arg15) = (m ((c : Thread nD τ).loc main_arg15)) := Glue.s0_keep_arg15 (W0 m ρ c)
theorem B1_arg16 : W1 m ρ c (Proc.devRef .tc main_arg16) = (m ((c : Thread nD τ).loc main_arg16)) := Glue.s0_keep_arg16 (W0 m ρ c)
theorem B1_arg17 : W1 m ρ c (Proc.devRef .tc main_arg17) = (m ((c : Thread nD τ).loc main_arg17)) := Glue.s0_keep_arg17 (W0 m ρ c)
theorem B1_arg18 : W1 m ρ c (Proc.devRef .tc main_arg18) = (m ((c : Thread nD τ).loc main_arg18)) := Glue.s0_keep_arg18 (W0 m ρ c)
theorem B1_arg19 : W1 m ρ c (Proc.devRef .tc main_arg19) = (m ((c : Thread nD τ).loc main_arg19)) := Glue.s0_keep_arg19 (W0 m ρ c)
theorem B1_arg20 : W1 m ρ c (Proc.devRef .tc main_arg20) = (m ((c : Thread nD τ).loc main_arg20)) := Glue.s0_keep_arg20 (W0 m ρ c)
theorem B1_arg21 : W1 m ρ c (Proc.devRef .tc main_arg21) = (m ((c : Thread nD τ).loc main_arg21)) := Glue.s0_keep_arg21 (W0 m ρ c)
theorem B1_arg22 : W1 m ρ c (Proc.devRef .tc main_arg22) = (m ((c : Thread nD τ).loc main_arg22)) := Glue.s0_keep_arg22 (W0 m ρ c)

theorem B2_v1 : W2 m ρ c (Proc.devRef .tc main_v1) = Cert.ReferenceIdeal.Read.val_main_v1 (F := Ideal) (m ((c : Thread nD τ).loc main_arg1)) := (W2_of_ne m ρ c main_v1 (by decide)).trans (B1_v1 m ρ c)
theorem B2_v3 : W2 m ρ c (Proc.devRef .tc main_v3) = Cert.ReferenceIdeal.Read.val_main_v3 (F := Ideal) (m ((c : Thread nD τ).loc main_arg1)) := (W2_of_ne m ρ c main_v3 (by decide)).trans (B1_v3 m ρ c)
theorem B2_arg2 : W2 m ρ c (Proc.devRef .tc main_arg2) = (m ((c : Thread nD τ).loc main_arg2)) := (W2_of_ne m ρ c main_arg2 (by decide)).trans (B1_arg2 m ρ c)
theorem B2_arg7 : W2 m ρ c (Proc.devRef .tc main_arg7) = (m ((c : Thread nD τ).loc main_arg7)) := (W2_of_ne m ρ c main_arg7 (by decide)).trans (B1_arg7 m ρ c)
theorem B2_arg8 : W2 m ρ c (Proc.devRef .tc main_arg8) = (m ((c : Thread nD τ).loc main_arg8)) := (W2_of_ne m ρ c main_arg8 (by decide)).trans (B1_arg8 m ρ c)
theorem B2_arg9 : W2 m ρ c (Proc.devRef .tc main_arg9) = (m ((c : Thread nD τ).loc main_arg9)) := (W2_of_ne m ρ c main_arg9 (by decide)).trans (B1_arg9 m ρ c)
theorem B2_arg10 : W2 m ρ c (Proc.devRef .tc main_arg10) = (m ((c : Thread nD τ).loc main_arg10)) := (W2_of_ne m ρ c main_arg10 (by decide)).trans (B1_arg10 m ρ c)
theorem B2_arg11 : W2 m ρ c (Proc.devRef .tc main_arg11) = (m ((c : Thread nD τ).loc main_arg11)) := (W2_of_ne m ρ c main_arg11 (by decide)).trans (B1_arg11 m ρ c)
theorem B2_arg12 : W2 m ρ c (Proc.devRef .tc main_arg12) = (m ((c : Thread nD τ).loc main_arg12)) := (W2_of_ne m ρ c main_arg12 (by decide)).trans (B1_arg12 m ρ c)
theorem B2_arg13 : W2 m ρ c (Proc.devRef .tc main_arg13) = (m ((c : Thread nD τ).loc main_arg13)) := (W2_of_ne m ρ c main_arg13 (by decide)).trans (B1_arg13 m ρ c)
theorem B2_arg14 : W2 m ρ c (Proc.devRef .tc main_arg14) = (m ((c : Thread nD τ).loc main_arg14)) := (W2_of_ne m ρ c main_arg14 (by decide)).trans (B1_arg14 m ρ c)
theorem B2_arg15 : W2 m ρ c (Proc.devRef .tc main_arg15) = (m ((c : Thread nD τ).loc main_arg15)) := (W2_of_ne m ρ c main_arg15 (by decide)).trans (B1_arg15 m ρ c)
theorem B2_arg16 : W2 m ρ c (Proc.devRef .tc main_arg16) = (m ((c : Thread nD τ).loc main_arg16)) := (W2_of_ne m ρ c main_arg16 (by decide)).trans (B1_arg16 m ρ c)
theorem B2_arg17 : W2 m ρ c (Proc.devRef .tc main_arg17) = (m ((c : Thread nD τ).loc main_arg17)) := (W2_of_ne m ρ c main_arg17 (by decide)).trans (B1_arg17 m ρ c)
theorem B2_arg18 : W2 m ρ c (Proc.devRef .tc main_arg18) = (m ((c : Thread nD τ).loc main_arg18)) := (W2_of_ne m ρ c main_arg18 (by decide)).trans (B1_arg18 m ρ c)
theorem B2_arg19 : W2 m ρ c (Proc.devRef .tc main_arg19) = (m ((c : Thread nD τ).loc main_arg19)) := (W2_of_ne m ρ c main_arg19 (by decide)).trans (B1_arg19 m ρ c)
theorem B2_arg20 : W2 m ρ c (Proc.devRef .tc main_arg20) = (m ((c : Thread nD τ).loc main_arg20)) := (W2_of_ne m ρ c main_arg20 (by decide)).trans (B1_arg20 m ρ c)
theorem B2_arg21 : W2 m ρ c (Proc.devRef .tc main_arg21) = (m ((c : Thread nD τ).loc main_arg21)) := (W2_of_ne m ρ c main_arg21 (by decide)).trans (B1_arg21 m ρ c)
theorem B2_arg22 : W2 m ρ c (Proc.devRef .tc main_arg22) = (m ((c : Thread nD τ).loc main_arg22)) := (W2_of_ne m ρ c main_arg22 (by decide)).trans (B1_arg22 m ρ c)

theorem B3_v1 : W3 m ρ c (Proc.devRef .tc main_v1) = Cert.ReferenceIdeal.Read.val_main_v1 (F := Ideal) (m ((c : Thread nD τ).loc main_arg1)) := (Glue.s1_keep_v1 (W2 m ρ c)).trans (B2_v1 m ρ c)
theorem B3_v3 : W3 m ρ c (Proc.devRef .tc main_v3) = Cert.ReferenceIdeal.Read.val_main_v3 (F := Ideal) (m ((c : Thread nD τ).loc main_arg1)) := (Glue.s1_keep_v3 (W2 m ρ c)).trans (B2_v3 m ρ c)
theorem B3_arg2 : W3 m ρ c (Proc.devRef .tc main_arg2) = (m ((c : Thread nD τ).loc main_arg2)) := (Glue.s1_keep_arg2 (W2 m ρ c)).trans (B2_arg2 m ρ c)
theorem B3_arg7 : W3 m ρ c (Proc.devRef .tc main_arg7) = (m ((c : Thread nD τ).loc main_arg7)) := (Glue.s1_keep_arg7 (W2 m ρ c)).trans (B2_arg7 m ρ c)
theorem B3_arg9 : W3 m ρ c (Proc.devRef .tc main_arg9) = (m ((c : Thread nD τ).loc main_arg9)) := (Glue.s1_keep_arg9 (W2 m ρ c)).trans (B2_arg9 m ρ c)
theorem B3_arg11 : W3 m ρ c (Proc.devRef .tc main_arg11) = (m ((c : Thread nD τ).loc main_arg11)) := (Glue.s1_keep_arg11 (W2 m ρ c)).trans (B2_arg11 m ρ c)
theorem B3_arg12 : W3 m ρ c (Proc.devRef .tc main_arg12) = (m ((c : Thread nD τ).loc main_arg12)) := (Glue.s1_keep_arg12 (W2 m ρ c)).trans (B2_arg12 m ρ c)
theorem B3_arg13 : W3 m ρ c (Proc.devRef .tc main_arg13) = (m ((c : Thread nD τ).loc main_arg13)) := (Glue.s1_keep_arg13 (W2 m ρ c)).trans (B2_arg13 m ρ c)
theorem B3_arg14 : W3 m ρ c (Proc.devRef .tc main_arg14) = (m ((c : Thread nD τ).loc main_arg14)) := (Glue.s1_keep_arg14 (W2 m ρ c)).trans (B2_arg14 m ρ c)
theorem B3_arg15 : W3 m ρ c (Proc.devRef .tc main_arg15) = (m ((c : Thread nD τ).loc main_arg15)) := (Glue.s1_keep_arg15 (W2 m ρ c)).trans (B2_arg15 m ρ c)
theorem B3_arg16 : W3 m ρ c (Proc.devRef .tc main_arg16) = (m ((c : Thread nD τ).loc main_arg16)) := (Glue.s1_keep_arg16 (W2 m ρ c)).trans (B2_arg16 m ρ c)
theorem B3_arg17 : W3 m ρ c (Proc.devRef .tc main_arg17) = (m ((c : Thread nD τ).loc main_arg17)) := (Glue.s1_keep_arg17 (W2 m ρ c)).trans (B2_arg17 m ρ c)
theorem B3_arg18 : W3 m ρ c (Proc.devRef .tc main_arg18) = (m ((c : Thread nD τ).loc main_arg18)) := (Glue.s1_keep_arg18 (W2 m ρ c)).trans (B2_arg18 m ρ c)
theorem B3_arg19 : W3 m ρ c (Proc.devRef .tc main_arg19) = (m ((c : Thread nD τ).loc main_arg19)) := (Glue.s1_keep_arg19 (W2 m ρ c)).trans (B2_arg19 m ρ c)
theorem B3_arg20 : W3 m ρ c (Proc.devRef .tc main_arg20) = (m ((c : Thread nD τ).loc main_arg20)) := (Glue.s1_keep_arg20 (W2 m ρ c)).trans (B2_arg20 m ρ c)
theorem B3_arg21 : W3 m ρ c (Proc.devRef .tc main_arg21) = (m ((c : Thread nD τ).loc main_arg21)) := (Glue.s1_keep_arg21 (W2 m ρ c)).trans (B2_arg21 m ρ c)
theorem B3_arg22 : W3 m ρ c (Proc.devRef .tc main_arg22) = (m ((c : Thread nD τ).loc main_arg22)) := (Glue.s1_keep_arg22 (W2 m ρ c)).trans (B2_arg22 m ρ c)

theorem B4_v1 : W4 m ρ c (Proc.devRef .tc main_v1) = Cert.ReferenceIdeal.Read.val_main_v1 (F := Ideal) (m ((c : Thread nD τ).loc main_arg1)) := (W4_of_ne m ρ c main_v1 (by decide)).trans (B3_v1 m ρ c)
theorem B4_v3 : W4 m ρ c (Proc.devRef .tc main_v3) = Cert.ReferenceIdeal.Read.val_main_v3 (F := Ideal) (m ((c : Thread nD τ).loc main_arg1)) := (W4_of_ne m ρ c main_v3 (by decide)).trans (B3_v3 m ρ c)
theorem B4_arg2 : W4 m ρ c (Proc.devRef .tc main_arg2) = (m ((c : Thread nD τ).loc main_arg2)) := (W4_of_ne m ρ c main_arg2 (by decide)).trans (B3_arg2 m ρ c)
theorem B4_arg11 : W4 m ρ c (Proc.devRef .tc main_arg11) = (m ((c : Thread nD τ).loc main_arg11)) := (W4_of_ne m ρ c main_arg11 (by decide)).trans (B3_arg11 m ρ c)
theorem B4_arg12 : W4 m ρ c (Proc.devRef .tc main_arg12) = (m ((c : Thread nD τ).loc main_arg12)) := (W4_of_ne m ρ c main_arg12 (by decide)).trans (B3_arg12 m ρ c)
theorem B4_arg13 : W4 m ρ c (Proc.devRef .tc main_arg13) = (m ((c : Thread nD τ).loc main_arg13)) := (W4_of_ne m ρ c main_arg13 (by decide)).trans (B3_arg13 m ρ c)
theorem B4_arg14 : W4 m ρ c (Proc.devRef .tc main_arg14) = (m ((c : Thread nD τ).loc main_arg14)) := (W4_of_ne m ρ c main_arg14 (by decide)).trans (B3_arg14 m ρ c)
theorem B4_arg15 : W4 m ρ c (Proc.devRef .tc main_arg15) = (m ((c : Thread nD τ).loc main_arg15)) := (W4_of_ne m ρ c main_arg15 (by decide)).trans (B3_arg15 m ρ c)
theorem B4_arg16 : W4 m ρ c (Proc.devRef .tc main_arg16) = (m ((c : Thread nD τ).loc main_arg16)) := (W4_of_ne m ρ c main_arg16 (by decide)).trans (B3_arg16 m ρ c)
theorem B4_arg17 : W4 m ρ c (Proc.devRef .tc main_arg17) = (m ((c : Thread nD τ).loc main_arg17)) := (W4_of_ne m ρ c main_arg17 (by decide)).trans (B3_arg17 m ρ c)
theorem B4_arg18 : W4 m ρ c (Proc.devRef .tc main_arg18) = (m ((c : Thread nD τ).loc main_arg18)) := (W4_of_ne m ρ c main_arg18 (by decide)).trans (B3_arg18 m ρ c)
theorem B4_arg19 : W4 m ρ c (Proc.devRef .tc main_arg19) = (m ((c : Thread nD τ).loc main_arg19)) := (W4_of_ne m ρ c main_arg19 (by decide)).trans (B3_arg19 m ρ c)
theorem B4_arg20 : W4 m ρ c (Proc.devRef .tc main_arg20) = (m ((c : Thread nD τ).loc main_arg20)) := (W4_of_ne m ρ c main_arg20 (by decide)).trans (B3_arg20 m ρ c)
theorem B4_arg21 : W4 m ρ c (Proc.devRef .tc main_arg21) = (m ((c : Thread nD τ).loc main_arg21)) := (W4_of_ne m ρ c main_arg21 (by decide)).trans (B3_arg21 m ρ c)
theorem B4_arg22 : W4 m ρ c (Proc.devRef .tc main_arg22) = (m ((c : Thread nD τ).loc main_arg22)) := (W4_of_ne m ρ c main_arg22 (by decide)).trans (B3_arg22 m ρ c)

theorem B5_v1 : W5 m ρ c (Proc.devRef .tc main_v1) = Cert.ReferenceIdeal.Read.val_main_v1 (F := Ideal) (m ((c : Thread nD τ).loc main_arg1)) := (Glue.s2_keep_v1 (W4 m ρ c)).trans (B4_v1 m ρ c)
theorem B5_v3 : W5 m ρ c (Proc.devRef .tc main_v3) = Cert.ReferenceIdeal.Read.val_main_v3 (F := Ideal) (m ((c : Thread nD τ).loc main_arg1)) := (Glue.s2_keep_v3 (W4 m ρ c)).trans (B4_v3 m ρ c)
theorem B5_arg2 : W5 m ρ c (Proc.devRef .tc main_arg2) = (m ((c : Thread nD τ).loc main_arg2)) := (Glue.s2_keep_arg2 (W4 m ρ c)).trans (B4_arg2 m ρ c)
theorem B5_arg11 : W5 m ρ c (Proc.devRef .tc main_arg11) = (m ((c : Thread nD τ).loc main_arg11)) := (Glue.s2_keep_arg11 (W4 m ρ c)).trans (B4_arg11 m ρ c)
theorem B5_arg13 : W5 m ρ c (Proc.devRef .tc main_arg13) = (m ((c : Thread nD τ).loc main_arg13)) := (Glue.s2_keep_arg13 (W4 m ρ c)).trans (B4_arg13 m ρ c)
theorem B5_arg15 : W5 m ρ c (Proc.devRef .tc main_arg15) = (m ((c : Thread nD τ).loc main_arg15)) := (Glue.s2_keep_arg15 (W4 m ρ c)).trans (B4_arg15 m ρ c)
theorem B5_arg16 : W5 m ρ c (Proc.devRef .tc main_arg16) = (m ((c : Thread nD τ).loc main_arg16)) := (Glue.s2_keep_arg16 (W4 m ρ c)).trans (B4_arg16 m ρ c)
theorem B5_arg17 : W5 m ρ c (Proc.devRef .tc main_arg17) = (m ((c : Thread nD τ).loc main_arg17)) := (Glue.s2_keep_arg17 (W4 m ρ c)).trans (B4_arg17 m ρ c)
theorem B5_arg18 : W5 m ρ c (Proc.devRef .tc main_arg18) = (m ((c : Thread nD τ).loc main_arg18)) := (Glue.s2_keep_arg18 (W4 m ρ c)).trans (B4_arg18 m ρ c)
theorem B5_arg19 : W5 m ρ c (Proc.devRef .tc main_arg19) = (m ((c : Thread nD τ).loc main_arg19)) := (Glue.s2_keep_arg19 (W4 m ρ c)).trans (B4_arg19 m ρ c)
theorem B5_arg20 : W5 m ρ c (Proc.devRef .tc main_arg20) = (m ((c : Thread nD τ).loc main_arg20)) := (Glue.s2_keep_arg20 (W4 m ρ c)).trans (B4_arg20 m ρ c)
theorem B5_arg21 : W5 m ρ c (Proc.devRef .tc main_arg21) = (m ((c : Thread nD τ).loc main_arg21)) := (Glue.s2_keep_arg21 (W4 m ρ c)).trans (B4_arg21 m ρ c)
theorem B5_arg22 : W5 m ρ c (Proc.devRef .tc main_arg22) = (m ((c : Thread nD τ).loc main_arg22)) := (Glue.s2_keep_arg22 (W4 m ρ c)).trans (B4_arg22 m ρ c)

theorem B6_v1 : W6 m ρ c (Proc.devRef .tc main_v1) = Cert.ReferenceIdeal.Read.val_main_v1 (F := Ideal) (m ((c : Thread nD τ).loc main_arg1)) := (W6_of_ne m ρ c main_v1 (by decide)).trans (B5_v1 m ρ c)
theorem B6_v3 : W6 m ρ c (Proc.devRef .tc main_v3) = Cert.ReferenceIdeal.Read.val_main_v3 (F := Ideal) (m ((c : Thread nD τ).loc main_arg1)) := (W6_of_ne m ρ c main_v3 (by decide)).trans (B5_v3 m ρ c)
theorem B6_arg2 : W6 m ρ c (Proc.devRef .tc main_arg2) = (m ((c : Thread nD τ).loc main_arg2)) := (W6_of_ne m ρ c main_arg2 (by decide)).trans (B5_arg2 m ρ c)
theorem B6_arg15 : W6 m ρ c (Proc.devRef .tc main_arg15) = (m ((c : Thread nD τ).loc main_arg15)) := (W6_of_ne m ρ c main_arg15 (by decide)).trans (B5_arg15 m ρ c)
theorem B6_arg16 : W6 m ρ c (Proc.devRef .tc main_arg16) = (m ((c : Thread nD τ).loc main_arg16)) := (W6_of_ne m ρ c main_arg16 (by decide)).trans (B5_arg16 m ρ c)
theorem B6_arg17 : W6 m ρ c (Proc.devRef .tc main_arg17) = (m ((c : Thread nD τ).loc main_arg17)) := (W6_of_ne m ρ c main_arg17 (by decide)).trans (B5_arg17 m ρ c)
theorem B6_arg18 : W6 m ρ c (Proc.devRef .tc main_arg18) = (m ((c : Thread nD τ).loc main_arg18)) := (W6_of_ne m ρ c main_arg18 (by decide)).trans (B5_arg18 m ρ c)
theorem B6_arg19 : W6 m ρ c (Proc.devRef .tc main_arg19) = (m ((c : Thread nD τ).loc main_arg19)) := (W6_of_ne m ρ c main_arg19 (by decide)).trans (B5_arg19 m ρ c)
theorem B6_arg20 : W6 m ρ c (Proc.devRef .tc main_arg20) = (m ((c : Thread nD τ).loc main_arg20)) := (W6_of_ne m ρ c main_arg20 (by decide)).trans (B5_arg20 m ρ c)
theorem B6_arg21 : W6 m ρ c (Proc.devRef .tc main_arg21) = (m ((c : Thread nD τ).loc main_arg21)) := (W6_of_ne m ρ c main_arg21 (by decide)).trans (B5_arg21 m ρ c)
theorem B6_arg22 : W6 m ρ c (Proc.devRef .tc main_arg22) = (m ((c : Thread nD τ).loc main_arg22)) := (W6_of_ne m ρ c main_arg22 (by decide)).trans (B5_arg22 m ρ c)

theorem B7_arg2 : W7 m ρ c (Proc.devRef .tc main_arg2) = (m ((c : Thread nD τ).loc main_arg2)) := (Glue.s3_keep_arg2 (W6 m ρ c)).trans (B6_arg2 m ρ c)
theorem B7_arg15 : W7 m ρ c (Proc.devRef .tc main_arg15) = (m ((c : Thread nD τ).loc main_arg15)) := (Glue.s3_keep_arg15 (W6 m ρ c)).trans (B6_arg15 m ρ c)
theorem B7_arg17 : W7 m ρ c (Proc.devRef .tc main_arg17) = (m ((c : Thread nD τ).loc main_arg17)) := (Glue.s3_keep_arg17 (W6 m ρ c)).trans (B6_arg17 m ρ c)
theorem B7_arg19 : W7 m ρ c (Proc.devRef .tc main_arg19) = (m ((c : Thread nD τ).loc main_arg19)) := (Glue.s3_keep_arg19 (W6 m ρ c)).trans (B6_arg19 m ρ c)
theorem B7_arg20 : W7 m ρ c (Proc.devRef .tc main_arg20) = (m ((c : Thread nD τ).loc main_arg20)) := (Glue.s3_keep_arg20 (W6 m ρ c)).trans (B6_arg20 m ρ c)
theorem B7_arg21 : W7 m ρ c (Proc.devRef .tc main_arg21) = (m ((c : Thread nD τ).loc main_arg21)) := (Glue.s3_keep_arg21 (W6 m ρ c)).trans (B6_arg21 m ρ c)
theorem B7_arg22 : W7 m ρ c (Proc.devRef .tc main_arg22) = (m ((c : Thread nD τ).loc main_arg22)) := (Glue.s3_keep_arg22 (W6 m ρ c)).trans (B6_arg22 m ρ c)

theorem B8_arg2 : W8 m ρ c (Proc.devRef .tc main_arg2) = (m ((c : Thread nD τ).loc main_arg2)) := (W8_of_ne m ρ c main_arg2 (by decide)).trans (B7_arg2 m ρ c)
theorem B8_arg19 : W8 m ρ c (Proc.devRef .tc main_arg19) = (m ((c : Thread nD τ).loc main_arg19)) := (W8_of_ne m ρ c main_arg19 (by decide)).trans (B7_arg19 m ρ c)
theorem B8_arg20 : W8 m ρ c (Proc.devRef .tc main_arg20) = (m ((c : Thread nD τ).loc main_arg20)) := (W8_of_ne m ρ c main_arg20 (by decide)).trans (B7_arg20 m ρ c)
theorem B8_arg21 : W8 m ρ c (Proc.devRef .tc main_arg21) = (m ((c : Thread nD τ).loc main_arg21)) := (W8_of_ne m ρ c main_arg21 (by decide)).trans (B7_arg21 m ρ c)
theorem B8_arg22 : W8 m ρ c (Proc.devRef .tc main_arg22) = (m ((c : Thread nD τ).loc main_arg22)) := (W8_of_ne m ρ c main_arg22 (by decide)).trans (B7_arg22 m ρ c)

theorem B9_arg19 : W9 m ρ c (Proc.devRef .tc main_arg19) = (m ((c : Thread nD τ).loc main_arg19)) := (Glue.s4_keep_arg19 (W8 m ρ c)).trans (B8_arg19 m ρ c)
theorem B9_arg21 : W9 m ρ c (Proc.devRef .tc main_arg21) = (m ((c : Thread nD τ).loc main_arg21)) := (Glue.s4_keep_arg21 (W8 m ρ c)).trans (B8_arg21 m ρ c)

/-! ## Each layer's output -/

/-- Layer 1's output is the reference's stage of the launched arguments. -/
theorem O2 (hr0 : RegionOk0) (hl1 : LayerOk1) : W2 m ρ c (Proc.devRef .tc main_v16) = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e0 : V1 m ρ c (Pipeline.arrRef spec0 0) = Cert.ReferenceIdeal.Read.val_main_v13 (F := Ideal) (m ((c : Thread nD τ).loc main_arg0)) (m ((c : Thread nD τ).loc main_arg1)) := Glue.s0_agg (W0 m ρ c)
  have e1 : V1 m ρ c (Pipeline.arrRef spec0 1) = (m ((c : Thread nD τ).loc main_arg0)) := Glue.s0_keep_arg0 (W0 m ρ c)
  have e2 : V1 m ρ c (Pipeline.arrRef spec0 2) = (m ((c : Thread nD τ).loc main_arg3)) := Glue.s0_keep_arg3 (W0 m ρ c)
  have e3 : Cert.Spec.row (V1 m ρ c (Pipeline.arrRef spec0 3)) = (m ((c : Thread nD τ).loc main_arg4)) := Glue.s0_b1 (W0 m ρ c)
  have e4 : V1 m ρ c (Pipeline.arrRef spec0 4) = (m ((c : Thread nD τ).loc main_arg5)) := Glue.s0_keep_arg5 (W0 m ρ c)
  have e5 : Cert.Spec.row (V1 m ρ c (Pipeline.arrRef spec0 5)) = (m ((c : Thread nD τ).loc main_arg6)) := Glue.s0_b2 (W0 m ρ c)
  refine (W2_arr m ρ c 6).trans ((hr0 (V1 m ρ) c).trans ?_)
  exact (layer_congr e0 e1 e2 e3 e4 e5).trans (hl1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm
/-- Layer 2's output is the reference's stage of the launched arguments. -/
theorem O4 (hr0 : RegionOk0) (hl1 : LayerOk1) (hr1 : RegionOk1) (hl2 : LayerOk2) : W4 m ρ c (Proc.devRef .tc main_v29) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e0 : V3 m ρ c (Pipeline.arrRef spec1 0) = Cert.ReferenceIdeal.Read.val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := Glue.s1_agg m c (W2 m ρ c) (O2 m ρ c hr0 hl1) (B2_v1 m ρ c) (B2_v3 m ρ c)
  have e1 : V3 m ρ c (Pipeline.arrRef spec1 1) = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (Glue.s1_keep_v16 (W2 m ρ c)).trans (O2 m ρ c hr0 hl1)
  have e2 : V3 m ρ c (Pipeline.arrRef spec1 2) = (m ((c : Thread nD τ).loc main_arg7)) := B3_arg7 m ρ c
  have e3 : Cert.Spec.row (V3 m ρ c (Pipeline.arrRef spec1 3)) = (m ((c : Thread nD τ).loc main_arg8)) := (Glue.s1_b1 (W2 m ρ c)).trans (B2_arg8 m ρ c)
  have e4 : V3 m ρ c (Pipeline.arrRef spec1 4) = (m ((c : Thread nD τ).loc main_arg9)) := B3_arg9 m ρ c
  have e5 : Cert.Spec.row (V3 m ρ c (Pipeline.arrRef spec1 5)) = (m ((c : Thread nD τ).loc main_arg10)) := (Glue.s1_b2 (W2 m ρ c)).trans (B2_arg10 m ρ c)
  refine (W4_arr m ρ c 6).trans ((hr1 (V3 m ρ) c).trans ?_)
  exact (layer_congr e0 e1 e2 e3 e4 e5).trans (hl2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm
/-- Layer 3's output is the reference's stage of the launched arguments. -/
theorem O6 (hr0 : RegionOk0) (hl1 : LayerOk1) (hr1 : RegionOk1) (hl2 : LayerOk2) (hr2 : RegionOk2) (hl3 : LayerOk3) : W6 m ρ c (Proc.devRef .tc main_v42) = Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e0 : V5 m ρ c (Pipeline.arrRef spec2 0) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := Glue.s2_agg m c (W4 m ρ c) (O4 m ρ c hr0 hl1 hr1 hl2) (B4_v1 m ρ c) (B4_v3 m ρ c)
  have e1 : V5 m ρ c (Pipeline.arrRef spec2 1) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (Glue.s2_keep_v29 (W4 m ρ c)).trans (O4 m ρ c hr0 hl1 hr1 hl2)
  have e2 : V5 m ρ c (Pipeline.arrRef spec2 2) = (m ((c : Thread nD τ).loc main_arg11)) := B5_arg11 m ρ c
  have e3 : Cert.Spec.row (V5 m ρ c (Pipeline.arrRef spec2 3)) = (m ((c : Thread nD τ).loc main_arg12)) := (Glue.s2_b1 (W4 m ρ c)).trans (B4_arg12 m ρ c)
  have e4 : V5 m ρ c (Pipeline.arrRef spec2 4) = (m ((c : Thread nD τ).loc main_arg13)) := B5_arg13 m ρ c
  have e5 : Cert.Spec.row (V5 m ρ c (Pipeline.arrRef spec2 5)) = (m ((c : Thread nD τ).loc main_arg14)) := (Glue.s2_b2 (W4 m ρ c)).trans (B4_arg14 m ρ c)
  refine (W6_arr m ρ c 6).trans ((hr2 (V5 m ρ) c).trans ?_)
  exact (layer_congr e0 e1 e2 e3 e4 e5).trans (hl3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))).symm
/-- Layer 4's output is the reference's stage of the launched arguments. -/
theorem O8 (hr0 : RegionOk0) (hl1 : LayerOk1) (hr1 : RegionOk1) (hl2 : LayerOk2) (hr2 : RegionOk2) (hl3 : LayerOk3) (hr3 : RegionOk3) (hl4 : LayerOk4) : W8 m ρ c (Proc.devRef .tc main_v55) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have e0 : V7 m ρ c (Pipeline.arrRef spec3 0) = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := Glue.s3_agg m c (W6 m ρ c) (O6 m ρ c hr0 hl1 hr1 hl2 hr2 hl3) (B6_v1 m ρ c) (B6_v3 m ρ c)
  have e1 : V7 m ρ c (Pipeline.arrRef spec3 1) = Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := (Glue.s3_keep_v42 (W6 m ρ c)).trans (O6 m ρ c hr0 hl1 hr1 hl2 hr2 hl3)
  have e2 : V7 m ρ c (Pipeline.arrRef spec3 2) = (m ((c : Thread nD τ).loc main_arg15)) := B7_arg15 m ρ c
  have e3 : Cert.Spec.row (V7 m ρ c (Pipeline.arrRef spec3 3)) = (m ((c : Thread nD τ).loc main_arg16)) := (Glue.s3_b1 (W6 m ρ c)).trans (B6_arg16 m ρ c)
  have e4 : V7 m ρ c (Pipeline.arrRef spec3 4) = (m ((c : Thread nD τ).loc main_arg17)) := B7_arg17 m ρ c
  have e5 : Cert.Spec.row (V7 m ρ c (Pipeline.arrRef spec3 5)) = (m ((c : Thread nD τ).loc main_arg18)) := (Glue.s3_b2 (W6 m ρ c)).trans (B6_arg18 m ρ c)
  refine (W8_arr m ρ c 6).trans ((hr3 (V7 m ρ) c).trans ?_)
  exact (layer_congr e0 e1 e2 e3 e4 e5).trans (hl4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).symm
/-! ## The result -/

/-- The result buffer at the last boundary is the reference's result stage of the launched arguments. -/
theorem result (hr0 : RegionOk0) (hl1 : LayerOk1) (hr1 : RegionOk1) (hl2 : LayerOk2) (hr2 : RegionOk2) (hl3 : LayerOk3)
    (hr3 : RegionOk3) (hl4 : LayerOk4) (hr4 : RegionOk4) (hh : HeadOk) :
    W10 m ρ c (Proc.devRef .tc main_v70) = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  have e0 : V9 m ρ c (Pipeline.arrRef spec4 0) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
    Glue.s4_pool m c (W8 m ρ c) (O8 m ρ c hr0 hl1 hr1 hl2 hr2 hl3 hr3 hl4) (B8_arg2 m ρ c)
  have e1 : V9 m ρ c (Pipeline.arrRef spec4 1) = (m ((c : Thread nD τ).loc main_arg19)) := B9_arg19 m ρ c
  have e2 : Cert.Spec.row (V9 m ρ c (Pipeline.arrRef spec4 2)) = (m ((c : Thread nD τ).loc main_arg20)) := (Glue.s4_b1 (W8 m ρ c)).trans (B8_arg20 m ρ c)
  have e3 : V9 m ρ c (Pipeline.arrRef spec4 3) = (m ((c : Thread nD τ).loc main_arg21)) := B9_arg21 m ρ c
  have e4 : Cert.Spec.row (V9 m ρ c (Pipeline.arrRef spec4 4)) = (m ((c : Thread nD τ).loc main_arg22)) := (Glue.s4_b2 (W8 m ρ c)).trans (B8_arg22 m ρ c)
  refine (W10_arr m ρ c 5).trans ((hr4 (V9 m ρ) c).trans ?_)
  exact (head_congr e0 e1 e2 e3 e4).trans (hh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))).symm

end Cert.Walk

end
-- ==== Proof.lean ====
/-
  The certificate of a four-layer graph network: four kernel regions, one per layer, each computing
  relu (relu ((agg + h) · Wa + ba) · Wb + bb) on blocks of 2000 of the 150000 node rows, and a read-out head
  relu (pooled · W1 + b1) · W2 + b2 on the 6000 pooled rows, against a reference that computes the same in whole-array
  operations.  Between the regions both programs apply the same host operations (the neighbourhood aggregation as a
  gather and a scatter-add, and the mean pooling); those are carried as the reference's own stages and never opened.

  The claim has five parts.  The three frames are the generated ones (the reference's is its generated run with the
  result dropped).  There is nothing to preserve: the idealization rewrote nothing.  For the algebraic part, at the
  exact reals a change of float format is the identity and a matrix product into a zero accumulator is the plain sum
  over the contracted axis, so each kernel body at a row and channel is the row formula of the specification
  (Payload); a region's 75 blocks tile its output table and a row's value reads only that row of the inputs, so the
  table after the region is the specification's layer of the region's input arrays (Regions, RegionHead); the
  reference's stages are the same formula (RefLayers); the host stretches give both sides the same aggregate from
  the same operands (Glue); and following the kernel program's result back through its ten segments (KRun, Walk)
  names it as the reference's result stage of the launched arguments.  No law of the extended reals beyond reading
  both matrix products as the same sums is needed, and finiteness of the inputs is never used.
-/
import proofs.«167325_j82927228551355_1_alg».proof.Defs
import proofs.«167325_j82927228551355_1_alg».proof.Proof.Gen.Kernel
import proofs.«167325_j82927228551355_1_alg».proof.Proof.Gen.Kernel.Frame
import proofs.«167325_j82927228551355_1_alg».proof.Proof.Gen.KernelIdeal
import proofs.«167325_j82927228551355_1_alg».proof.Proof.Gen.KernelIdeal.Frame
import proofs.«167325_j82927228551355_1_alg».proof.Proof.Gen.ReferenceIdeal
import proofs.«167325_j82927228551355_1_alg».proof.Proof.Gen.Pre_finite_inputs
import proofs.«167325_j82927228551355_1_alg».proof.Proof.Gen.ReferenceIdeal.Run
import proofs.«167325_j82927228551355_1_alg».proof.Proof.Gen.ReferenceIdeal.Read
import proofs.«167325_j82927228551355_1_alg».proof.Proof.Spec
import proofs.«167325_j82927228551355_1_alg».proof.Proof.Payload
import proofs.«167325_j82927228551355_1_alg».proof.Proof.Regions
import proofs.«167325_j82927228551355_1_alg».proof.Proof.RegionHead
import proofs.«167325_j82927228551355_1_alg».proof.Proof.RefLayers
import proofs.«167325_j82927228551355_1_alg».proof.Proof.Glue
import proofs.«167325_j82927228551355_1_alg».proof.Proof.KRun
import proofs.«167325_j82927228551355_1_alg».proof.Proof.Walk
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's result at the last boundary is the reference's result stage of the launched arguments. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W10 m ρ c (Proc.devRef .tc Cert.KernelIdeal.main_v70)
      = Cert.ReferenceIdeal.Read.val_main_v108 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) (m ((c : Thread Cert.KernelIdeal.nD Cert.KernelIdeal.τ).loc Cert.KernelIdeal.main_arg20)) (m ((c : Thread Cert.KernelIdeal.nD Cert.KernelIdeal.τ).loc Cert.KernelIdeal.main_arg21)) (m ((c : Thread Cert.KernelIdeal.nD Cert.KernelIdeal.τ).loc Cert.KernelIdeal.main_arg22)) :=
  Cert.Walk.result m ρ c
    (Cert.Regions.region0 Cert.Payload.pay0) Cert.RefLayers.layer1
    (Cert.Regions.region1 Cert.Payload.pay1) Cert.RefLayers.layer2
    (Cert.Regions.region2 Cert.Payload.pay2) Cert.RefLayers.layer3
    (Cert.Regions.region3 Cert.Payload.pay3) Cert.RefLayers.layer4
    (Cert.RegionHead.region4 Cert.Payload.pay4) Cert.RefLayers.headR

/-- A function of twenty-three arguments takes equal arguments to equal values. -/
theorem congr23 {α0 α1 α2 α3 α4 α5 α6 α7 α8 α9 α10 α11 α12 α13 α14 α15 α16 α17 α18 α19 α20 α21 α22 β : Type} (f : α0 → α1 → α2 → α3 → α4 → α5 → α6 → α7 → α8 → α9 → α10 → α11 → α12 → α13 → α14 → α15 → α16 → α17 → α18 → α19 → α20 → α21 → α22 → β)
    {a0 b0 : α0} {a1 b1 : α1} {a2 b2 : α2} {a3 b3 : α3} {a4 b4 : α4} {a5 b5 : α5} {a6 b6 : α6} {a7 b7 : α7} {a8 b8 : α8} {a9 b9 : α9} {a10 b10 : α10} {a11 b11 : α11} {a12 b12 : α12} {a13 b13 : α13} {a14 b14 : α14} {a15 b15 : α15} {a16 b16 : α16} {a17 b17 : α17} {a18 b18 : α18} {a19 b19 : α19} {a20 b20 : α20} {a21 b21 : α21} {a22 b22 : α22}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) :
    f a0 a1 a2 a3 a4 a5 a6 a7 a8 a9 a10 a11 a12 a13 a14 a15 a16 a17 a18 a19 a20 a21 a22 = f b0 b1 b2 b3 b4 b5 b6 b7 b8 b9 b10 b11 b12 b13 b14 b15 b16 b17 b18 b19 b20 b21 b22 := by
  subst h0 h1 h2 h3 h4 h5 h6 h7 h8 h9 h10 h11 h12 h13 h14 h15 h16 h17 h18 h19 h20 h21 h22; rfl

/-- Both idealized programs, run from memories agreeing on the arguments, end with the reference's result stage of
    those arguments. -/
theorem algebraic : Cert.algebraic_KernelIdeal_ReferenceIdeal := by
  intro m ρ m' ρ' _ hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono (fun r h c => ⟨(h c).1.trans (kernel_result m ρ c), (h c).2⟩)
      (Cert.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22⟩ := hagree c
    exact (Cert.ReferenceIdeal.Read.val_main_v108_eq m' c).trans (congr23 (Cert.ReferenceIdeal.Read.val_main_v108 (F := Ideal)) h0 h1 h2 h3 h4 h5 h6 h7 h8 h9 h10 h11 h12 h13 h14 h15 h16 h17 h18 h19 h20 h21 h22)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
